-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x256 : Shape := ⟨3, ![8, 8192, 256]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel

variable [Facts]

def fn {F : FTy → Type} [FloatOps F] (main_arg0 : FVec F S8x8192x256 .f32) (main_arg1 : FVec F S8x8192x256 .f32) (main_arg2 : FVec F S8x8192x256 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  let main_v4 : FVec F S8x8192x256 .f32 := Host.absf main_arg1
  let main_cst_0 : FVec F S_ .f32 := constant S_ .f32 0x7F800000#32
  let main_v5 : FVec F S8x8192x256 .f32 := broadcastInDim S8x8192x256 ![] bcast_S_S8x8192x256 main_cst_0
  let main_v6 : IVec S8x8192x256 1 := cmpf .olt main_v4 main_v5
  let main_c_1 : IVec S_ 1 := constantI S_ 1 1#1
  let main_v7 : IVec S_ 1 := (fun x v => Host.reduce IntOp.andi x v reducesTo_S8x8192x256_S_d0_1_2 h_S_) main_v6 main_c_1
  let main_v8 : IVec S_ 1 := andi main_v3 main_v7
  let main_v9 : FVec F S8x8192x256 .f32 := Host.absf main_arg2
  let main_cst_2 : FVec F S_ .f32 := constant S_ .f32 0x7F800000#32
  let main_v10 : FVec F S8x8192x256 .f32 := broadcastInDim S8x8192x256 ![] bcast_S_S8x8192x256 main_cst_2
  let main_v11 : IVec S8x8192x256 1 := cmpf .olt main_v9 main_v10
  let main_c_3 : IVec S_ 1 := constantI S_ 1 1#1
  let main_v12 : IVec S_ 1 := (fun x v => Host.reduce IntOp.andi x v reducesTo_S8x8192x256_S_d0_1_2 h_S_) main_v11 main_c_3
  let main_v13 : IVec S_ 1 := andi main_v8 main_v12
  main_v13
-- ==== Kernel.lean ====
abbrev S8x8192x256 : Shape := ⟨3, ![8, 8192, 256]⟩
abbrev S8x256x256 : Shape := ⟨3, ![8, 256, 256]⟩
abbrev S8x1x256 : Shape := ⟨3, ![8, 1, 256]⟩
abbrev S1x2048x256 : Shape := ⟨3, ![1, 2048, 256]⟩
abbrev S1x256x256 : Shape := ⟨3, ![1, 256, 256]⟩
abbrev S1x1x256 : Shape := ⟨3, ![1, 1, 256]⟩
abbrev S2048x256 : Shape := ⟨2, ![2048, 256]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 10
  | .vmem => 29
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x8192x256, .f32⟩
  | .hbm, ⟨3, _⟩ => ⟨S8x256x256, .f32⟩
  | .hbm, ⟨4, _⟩ => ⟨S8x1x256, .f32⟩
  | .hbm, ⟨5, _⟩ => ⟨S_, .f32⟩
  | .hbm, ⟨6, _⟩ => ⟨S8x1x256, .f32⟩
  | .hbm, ⟨7, _⟩ => ⟨S8x1x256, .f32⟩
  | .hbm, ⟨8, _⟩ => ⟨S8x1x256, .f32⟩
  | .hbm, ⟨9, _⟩ => ⟨S8x8192x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x256, .f32⟩
  | .local _ .vmem, ⟨7, _⟩ => ⟨S1x256x256, .f32⟩
  | .local _ .vmem, ⟨8, _⟩ => ⟨S1x1x256, .f32⟩
  | .local _ .vmem, ⟨9, _⟩ => ⟨S1x1x256, .f32⟩
  | .local _ .vmem, ⟨10, _⟩ => ⟨S1x256x256, .f32⟩
  | .local _ .vmem, ⟨11, _⟩ => ⟨S1x1x256, .f32⟩
  | .local _ .vmem, ⟨12, _⟩ => ⟨S1x2048x256, .f32⟩
  | .local _ .vmem, ⟨13, _⟩ => ⟨S1x2048x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x2048x256, .f32⟩
  | .local _ .vmem, ⟨20, _⟩ => ⟨S1x2048x256, .f32⟩
  | .local _ .vmem, ⟨21, _⟩ => ⟨S1x1x256, .f32⟩
  | .local _ .vmem, ⟨22, _⟩ => ⟨S1x1x256, .f32⟩
  | .local _ .vmem, ⟨23, _⟩ => ⟨S1x1x256, .f32⟩
  | .local _ .vmem, ⟨24, _⟩ => ⟨S1x1x256, .f32⟩
  | .local _ .vmem, ⟨25, _⟩ => ⟨S1x256x256, .f32⟩
  | .local _ .vmem, ⟨26, _⟩ => ⟨S1x256x256, .f32⟩
  | .local _ .vmem, ⟨27, _⟩ => ⟨S1x2048x256, .f32⟩
  | .local _ .vmem, ⟨28, _⟩ => ⟨S1x2048x256, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S1x256x256 : S1x256x256.ShapeCasts S1x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  shapeCasts_S256x256_S1x256x256 : S256x256.ShapeCasts S1x256x256
  reduces_S2048x256_S256 : S2048x256.Reduces [0] S256
  shapeCasts_S256_S1x256 : S256.ShapeCasts S1x256
  shapeCasts_S1x256_S1x1x256 : S1x256.ShapeCasts S1x1x256
  bcast_S_S8x1x256 : S_.BroadcastsInDim S8x1x256 (![] : Fin 0 → Fin S8x1x256.rank)
  shapeCasts_S1x1x256_S1x256 : S1x1x256.ShapeCasts S1x256
  broadcasts_S1x256_S2048x256 : S1x256.Broadcasts S2048x256
  shapeCasts_S1x256x256_S256x256 : S1x256x256.ShapeCasts S256x256
  shapeCasts_S2048x256_S1x2048x256 : S2048x256.ShapeCasts S1x2048x256
  dot_S2048x256_S2048x256_S256x256_0_0_1_1_n_n_wf : DotDims.WF S2048x256 S2048x256 S256x256 [0] [0] [1] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x8192x256.size a
  hwx0_0 : ∀ i : grid0.Coords, EltTy.bits .f32 = 32 ∨ (Rect.block (s := S8x8192x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x8192x256.size a
  hwx0_1 : ∀ i : grid0.Coords, EltTy.bits .f32 = 32 ∨ (Rect.block (s := S8x8192x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x8192x256.size a
  hwx0_2 : ∀ i : grid0.Coords, EltTy.bits .f32 = 32 ∨ (Rect.block (s := S8x8192x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S8x256x256.size a
  hwx0_3 : ∀ i : grid0.Coords, EltTy.bits .f32 = 32 ∨ (Rect.block (s := S8x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S8x1x256.size a
  hwx0_4 : ∀ i : grid0.Coords, EltTy.bits .f32 = 32 ∨ (Rect.block (s := S8x1x256) S1x1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S8x8192x256.size a
  hwx1_0 : ∀ i : grid1.Coords, EltTy.bits .f32 = 32 ∨ (Rect.block (s := S8x8192x256) S1x2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x256.size a ≤ S8x1x256.size a
  hwx1_1 : ∀ i : grid1.Coords, EltTy.bits .f32 = 32 ∨ (Rect.block (s := S8x1x256) S1x1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S8x1x256.size a
  hwx1_2 : ∀ i : grid1.Coords, EltTy.bits .f32 = 32 ∨ (Rect.block (s := S8x1x256) S1x1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x256.size a ≤ S8x8192x256.size a
  hwx2_0 : ∀ i : grid2.Coords, EltTy.bits .f32 = 32 ∨ (Rect.block (s := S8x8192x256) S1x2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x256.size a ≤ S8x1x256.size a
  hwx2_1 : ∀ i : grid2.Coords, EltTy.bits .f32 = 32 ∨ (Rect.block (s := S8x1x256) S1x1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x256.size a ≤ S8x1x256.size a
  hwx2_2 : ∀ i : grid2.Coords, EltTy.bits .f32 = 32 ∨ (Rect.block (s := S8x1x256) S1x1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x256.size a ≤ S8x256x256.size a
  hwx2_3 : ∀ i : grid2.Coords, EltTy.bits .f32 = 32 ∨ (Rect.block (s := S8x256x256) S1x256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048x256.size a ≤ S8x8192x256.size a
  hwx2_4 : ∀ i : grid2.Coords, EltTy.bits .f32 = 32 ∨ (Rect.block (s := S8x8192x256) S1x2048x256.size (cc2_transform_4 i) (hinb2_4 i)).WholeWords (EltTy.packing .f32)

variable [Facts₀]

def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S1x2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x1x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_0) S1x256x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x2048x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x8192x256 : Shape := ⟨3, ![8, 8192, 256]⟩
abbrev S_ : Shape := ⟨0, ![]⟩
abbrev S8x256x256 : Shape := ⟨3, ![8, 256, 256]⟩
abbrev S8x256 : Shape := ⟨2, ![8, 256]⟩
abbrev S8x1x256 : Shape := ⟨3, ![8, 1, 256]⟩

abbrev nBuf : Space → Nat
  | .hbm => 34
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x8192x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x256x256, .f32⟩
  | .hbm, ⟨8, _⟩ => ⟨S8x256x256, .f32⟩
  | .hbm, ⟨9, _⟩ => ⟨S8x256x256, .f32⟩
  | .hbm, ⟨10, _⟩ => ⟨S8x8192x256, .f32⟩
  | .hbm, ⟨11, _⟩ => ⟨S_, .f32⟩
  | .hbm, ⟨12, _⟩ => ⟨S8x256, .f32⟩
  | .hbm, ⟨13, _⟩ => ⟨S8x1x256, .f32⟩
  | .hbm, ⟨14, _⟩ => ⟨S_, .f32⟩
  | .hbm, ⟨15, _⟩ => ⟨S8x1x256, .f32⟩
  | .hbm, ⟨16, _⟩ => ⟨S8x1x256, .f32⟩
  | .hbm, ⟨17, _⟩ => ⟨S8x8192x256, .f32⟩
  | .hbm, ⟨18, _⟩ => ⟨S8x8192x256, .f32⟩
  | .hbm, ⟨19, _⟩ => ⟨S_, .f32⟩
  | .hbm, ⟨20, _⟩ => ⟨S8x256, .f32⟩
  | .hbm, ⟨21, _⟩ => ⟨S_, .f32⟩
  | .hbm, ⟨22, _⟩ => ⟨S8x256, .f32⟩
  | .hbm, ⟨23, _⟩ => ⟨S8x256, .f32⟩
  | .hbm, ⟨24, _⟩ => ⟨S8x1x256, .f32⟩
  | .hbm, ⟨25, _⟩ => ⟨S8x8192x256, .f32⟩
  | .hbm, ⟨26, _⟩ => ⟨S8x8192x256, .f32⟩
  | .hbm, ⟨27, _⟩ => ⟨S8x8192x256, .f32⟩
  | .hbm, ⟨28, _⟩ => ⟨S_, .f32⟩
  | .hbm, ⟨29, _⟩ => ⟨S8x256, .f32⟩
  | .hbm, ⟨30, _⟩ => ⟨S8x1x256, .f32⟩
  | .hbm, ⟨31, _⟩ => ⟨S8x8192x256, .f32⟩
  | .hbm, ⟨32, _⟩ => ⟨S8x8192x256, .f32⟩
  | .hbm, ⟨33, _⟩ => ⟨S8x8192x256, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S8x256x256 : S_.BroadcastsInDim S8x256x256 (![] : Fin 0 → Fin S8x256x256.rank)
  reducesTo_S8x8192x256_S8x256_d1 : S8x8192x256.ReducesTo [1] S8x256
  h_S_ : 0 < S_.numel
  bcast_S8x256_S8x1x256_0_2 : S8x256.BroadcastsInDim S8x1x256 (![0, 2] : Fin 2 → Fin S8x1x256.rank)
  bcast_S_S8x1x256 : S_.BroadcastsInDim S8x1x256 (![] : Fin 0 → Fin S8x1x256.rank)
  bcast_S8x1x256_S8x8192x256_0_1_2 : S8x1x256.BroadcastsInDim S8x8192x256 (![0, 1, 2] : Fin 3 → Fin S8x8192x256.rank)
  bcast_S_S8x256 : S_.BroadcastsInDim S8x256 (![] : Fin 0 → Fin S8x256.rank)
  dot_S8x8192x256_S8x8192x256_S8x256x256_1_1_2_2_0_0_wf : DotDims.WF S8x8192x256 S8x8192x256 S8x256x256 [1] [1] [2] [2] [0] [0]
  dot_S8x8192x256_S8x256x256_S8x8192x256_2_1_1_2_0_0_wf : DotDims.WF S8x8192x256 S8x256x256 S8x8192x256 [2] [1] [1] [2] [0] [0]

variable [Facts₀]

def dot_S8x8192x256_S8x8192x256_S8x256x256_1_1_2_2_0_0 : DotDims S8x8192x256 S8x8192x256 S8x256x256 where
  lhsContracting := [1]
  rhsContracting := [1]
  lhsNonContracting := [2]
  rhsNonContracting := [2]
  lhsBatch := [0]
  rhsBatch := [0]
  wf := dot_S8x8192x256_S8x8192x256_S8x256x256_1_1_2_2_0_0_wf
def dot_S8x8192x256_S8x256x256_S8x8192x256_2_1_1_2_0_0 : DotDims S8x8192x256 S8x256x256 S8x8192x256 where
  lhsContracting := [2]
  rhsContracting := [1]
  lhsNonContracting := [1]
  rhsNonContracting := [2]
  lhsBatch := [0]
  rhsBatch := [0]
  wf := dot_S8x8192x256_S8x256x256_S8x8192x256_2_1_1_2_0_0_wf

class Facts : Prop extends Facts₀ where

variable [Facts]
-- ==== Proof.Bits.PassOneRun.lean ====
/-
  The first pass's body, run once per case of its one branch.

  The body keeps two accumulators in scratch memory: the scaled `Kᵀ V` product (a [1, 256, 256] buffer) and the sum of
  `exp Q` over the rows seen so far (a [1, 1, 256] buffer). On the first tile of a batch it overwrites both with
  zeros before adding the tile's contribution; on a later tile it adds to what the tile before left. Either way it
  then copies both accumulators into the two output blocks. Each run below says: from the three input blocks at given
  contents (and, on a later tile, the accumulators at given contents) the body terminates, the inputs untouched, each
  output block and each accumulator holding the list of pieces its stores wrote, last store first.
-/
import proofs.«139639_j23854248362901_1_alg».proof.Proof.Gen.Kernel.Launch
import proofs.«139639_j23854248362901_1_alg».proof.Proof.Gen.Kernel.Skeleton
import proofs.«139639_j23854248362901_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Passes

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the tile coordinate is zero. -/
abbrev firstTile0 (i : grid0.Coords) : Prop :=
  (Scalar.cmpi .ne (Scalar.extui (Scalar.cmpi .eq (BitVec.ofNat 32 (i 1).val) 0#32)) 0#32) = 1#1

/-- Over the grid of 8 batches by 4 tiles walked batch-major, it holds exactly at the points divisible by 4. -/
theorem firstTile0_iff : ∀ t : Fin cfg0.N, firstTile0 (grid0.coords t) ↔ t.val % 4 = 0 :=
  (by decide +kernel : ∀ t : Fin grid0.N, firstTile0 (grid0.coords t) ↔ t.val % 4 = 0)

set_option maxHeartbeats 1000000 in
/-- The first tile of a batch: the accumulators are found at anything, zeroed, and added to. -/
noncomputable def passOneFirst (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i)
    (x0 x1 x2 : Vec F S1x2048x256 .f32) :
    Σ' (L5 : List (View.Piece (Elt F) S1x256x256 .f32)) (L6 : List (View.Piece (Elt F) S1x1x256 .f32)) (LS7 : List (View.Piece (Elt F) S1x256x256 .f32)), { LS8 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
          ⊢ wp frame (wpE (defs₀ (F := F)) Variants.none c none) E (cc0__pass1_kernel i arg2 harg2 arg3 harg3 arg4 harg4 arg5 harg5 arg6 harg6 arg7 harg7 arg8 harg8) K } := by
  refine ⟨?_, ?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [H7]; · iexists _; iexact H7
    iexists _; iexact H8

set_option maxHeartbeats 1000000 in
/-- A later tile: the accumulators are found at what the tile before left (`xs7`, `xs8`) and added to. -/
noncomputable def passOneLater (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i)
    (x0 x1 x2 : Vec F S1x2048x256 .f32) (xs7 : Vec F S1x256x256 .f32) (xs8 : Vec F S1x1x256 .f32) :
    Σ' (L5 : List (View.Piece (Elt F) S1x256x256 .f32)) (L6 : List (View.Piece (Elt F) S1x1x256 .f32)) (LS7 : List (View.Piece (Elt F) S1x256x256 .f32)), { LS8 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
          ⊢ wp frame (wpE (defs₀ (F := F)) Variants.none c none) E (cc0__pass1_kernel i arg2 harg2 arg3 harg3 arg4 harg4 arg5 harg5 arg6 harg6 arg7 harg7 arg8 harg8) K } := by
  refine ⟨?_, ?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%d5, %f5, -, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2
    obtain rfl := harg7.eq_unread hf7; obtain rfl := harg8.eq_unread hf8
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [H7]; · iexists _; iexact H7
    iexists _; iexact H8

end Cert.Kernel.Passes

end
-- ==== Proof.Bits.PassOne.lean ====
/-
  The first pass as a pipeline: what each point of its grid leaves behind.

  The grid is 8 batches by 4 tiles, walked batch-major, so point `t` is tile `t % 4` of batch `t / 4`. The two
  accumulators live in scratch memory across the four tiles of a batch; the two output blocks are copies of the
  accumulators and are written back to their arrays after the last tile of each batch only. `outsAt0` is the
  quadruple (first output block, second output block, first accumulator, second accumulator) after point `n`, by
  recursion on `n`: a first tile starts from zeros, a later tile from what the point before left in the accumulators.
  The region's invariant (`PhiS0`) says the accumulators hold exactly that between two points.
-/
import proofs.«139639_j23854248362901_1_alg».proof.Proof.Gen.Kernel.Launch
import proofs.«139639_j23854248362901_1_alg».proof.Proof.Gen.Kernel.Skeleton
import proofs.«139639_j23854248362901_1_alg».proof.Proof.Gen.Kernel.Points
import proofs.«139639_j23854248362901_1_alg».proof.Proof.Bits.PassOneRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Passes

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each output window, and the two scratch buffers, as views through which contents are stated. -/
abbrev VO0_3 : View sig .tc .vmem S1x256x256 .f32 := (Memref.whole cc0_stg3_0 : Memref sig .tc .vmem S1x256x256 .f32).view
abbrev VO0_4 : View sig .tc .vmem S1x1x256 .f32 := (Memref.whole cc0_stg4_0 : Memref sig .tc .vmem S1x1x256 .f32).view
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev scM0_0 : Memref sig .tc .vmem S1x256x256 .f32 := Memref.whole cc0_scratch0
abbrev scM0_1 : Memref sig .tc .vmem S1x1x256 .f32 := Memref.whole cc0_scratch1
abbrev VS0_0 : View sig .tc .vmem S1x256x256 .f32 := scM0_0.view
abbrev VS0_1 : View sig .tc .vmem S1x1x256 .f32 := scM0_1.view

/-- The core's scoped buffers other than this pass's staging buffers and its two accumulators, each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The class invariant with the two accumulators split out. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA; rw [scopedRest0_eq]; simp only [scM0_0, scM0_1, owns_whole]; try rfl

/-- The quadruple a point leaves: the two output blocks and the two accumulators. -/
abbrev Outs0 (F : FTy → Type) : Type := Vec F S1x256x256 .f32 × Vec F S1x1x256 .f32 × Vec F S1x256x256 .f32 × Vec F S1x1x256 .f32

/-- What a first tile leaves: each buffer's pieces read back. -/
def firstOuts0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i)
    (x0 x1 x2 : Vec F S1x2048x256 .f32) : Outs0 F :=
  (VO0_3.read (Elt F) (VO0_3.writes (Elt F) VO0_3.junk (passOneFirst c i arg2 harg2 arg3 harg3 arg4 harg4 arg5 harg5 arg6 harg6 arg7 harg7 arg8 harg8 hc x0 x1 x2).1),
   VO0_4.read (Elt F) (VO0_4.writes (Elt F) VO0_4.junk (passOneFirst c i arg2 harg2 arg3 harg3 arg4 harg4 arg5 harg5 arg6 harg6 arg7 harg7 arg8 harg8 hc x0 x1 x2).2.1),
   VS0_0.read (Elt F) (VS0_0.writes (Elt F) VS0_0.junk (passOneFirst c i arg2 harg2 arg3 harg3 arg4 harg4 arg5 harg5 arg6 harg6 arg7 harg7 arg8 harg8 hc x0 x1 x2).2.2.1),
   VS0_1.read (Elt F) (VS0_1.writes (Elt F) VS0_1.junk (passOneFirst c i arg2 harg2 arg3 harg3 arg4 harg4 arg5 harg5 arg6 harg6 arg7 harg7 arg8 harg8 hc x0 x1 x2).2.2.2.1))

/-- What a later tile leaves, from the accumulators `xs7`, `xs8` it found. -/
def laterOuts0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i)
    (x0 x1 x2 : Vec F S1x2048x256 .f32) (xs7 : Vec F S1x256x256 .f32) (xs8 : Vec F S1x1x256 .f32) : Outs0 F :=
  (VO0_3.read (Elt F) (VO0_3.writes (Elt F) VO0_3.junk (passOneLater c i arg2 harg2 arg3 harg3 arg4 harg4 arg5 harg5 arg6 harg6 arg7 harg7 arg8 harg8 hc x0 x1 x2 xs7 xs8).1),
   VO0_4.read (Elt F) (VO0_4.writes (Elt F) VO0_4.junk (passOneLater c i arg2 harg2 arg3 harg3 arg4 harg4 arg5 harg5 arg6 harg6 arg7 harg7 arg8 harg8 hc x0 x1 x2 xs7 xs8).2.1),
   VS0_0.read (Elt F) (VS0_0.writes (Elt F) VS0_0.junk (passOneLater c i arg2 harg2 arg3 harg3 arg4 harg4 arg5 harg5 arg6 harg6 arg7 harg7 arg8 harg8 hc x0 x1 x2 xs7 xs8).2.2.1),
   VS0_1.read (Elt F) (VS0_1.writes (Elt F) VS0_1.junk (passOneLater c i arg2 harg2 arg3 harg3 arg4 harg4 arg5 harg5 arg6 harg6 arg7 harg7 arg8 harg8 hc x0 x1 x2 xs7 xs8).2.2.2.1))

/-! Every buffer is stored whole, so each list of pieces covers its buffer. -/
theorem coverF0_5 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i) (x0 x1 x2 : Vec F S1x2048x256 .f32) (y : S1x256x256.Idx) :
    ∃ pc ∈ (passOneFirst c i arg2 harg2 arg3 harg3 arg4 harg4 arg5 harg5 arg6 harg6 arg7 harg7 arg8 harg8 hc x0 x1 x2).1, y ∈ pc.1.set :=
  View.cover_of_tiledL (passOneFirst c i arg2 harg2 arg3 harg3 arg4 harg4 arg5 harg5 arg6 harg6 arg7 harg7 arg8 harg8 hc x0 x1 x2).1 S1x256x256.size (by sl_kernel_rfl) y
theorem coverF0_6 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i) (x0 x1 x2 : Vec F S1x2048x256 .f32) (y : S1x1x256.Idx) :
    ∃ pc ∈ (passOneFirst c i arg2 harg2 arg3 harg3 arg4 harg4 arg5 harg5 arg6 harg6 arg7 harg7 arg8 harg8 hc x0 x1 x2).2.1, y ∈ pc.1.set :=
  View.cover_of_tiledL (passOneFirst c i arg2 harg2 arg3 harg3 arg4 harg4 arg5 harg5 arg6 harg6 arg7 harg7 arg8 harg8 hc x0 x1 x2).2.1 S1x1x256.size (by sl_kernel_rfl) y
theorem coverF0_7 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i) (x0 x1 x2 : Vec F S1x2048x256 .f32) (y : S1x256x256.Idx) :
    ∃ pc ∈ (passOneFirst c i arg2 harg2 arg3 harg3 arg4 harg4 arg5 harg5 arg6 harg6 arg7 harg7 arg8 harg8 hc x0 x1 x2).2.2.1, y ∈ pc.1.set :=
  View.cover_of_tiledL (passOneFirst c i arg2 harg2 arg3 harg3 arg4 harg4 arg5 harg5 arg6 harg6 arg7 harg7 arg8 harg8 hc x0 x1 x2).2.2.1 S1x256x256.size (by sl_kernel_rfl) y
theorem coverF0_8 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i) (x0 x1 x2 : Vec F S1x2048x256 .f32) (y : S1x1x256.Idx) :
    ∃ pc ∈ (passOneFirst c i arg2 harg2 arg3 harg3 arg4 harg4 arg5 harg5 arg6 harg6 arg7 harg7 arg8 harg8 hc x0 x1 x2).2.2.2.1, y ∈ pc.1.set :=
  View.cover_of_tiledL (passOneFirst c i arg2 harg2 arg3 harg3 arg4 harg4 arg5 harg5 arg6 harg6 arg7 harg7 arg8 harg8 hc x0 x1 x2).2.2.2.1 S1x1x256.size (by sl_kernel_rfl) y
theorem coverL0_5 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i) (x0 x1 x2 : Vec F S1x2048x256 .f32) (xs7 : Vec F S1x256x256 .f32) (xs8 : Vec F S1x1x256 .f32) (y : S1x256x256.Idx) :
    ∃ pc ∈ (passOneLater c i arg2 harg2 arg3 harg3 arg4 harg4 arg5 harg5 arg6 harg6 arg7 harg7 arg8 harg8 hc x0 x1 x2 xs7 xs8).1, y ∈ pc.1.set :=
  View.cover_of_tiledL (passOneLater c i arg2 harg2 arg3 harg3 arg4 harg4 arg5 harg5 arg6 harg6 arg7 harg7 arg8 harg8 hc x0 x1 x2 xs7 xs8).1 S1x256x256.size (by sl_kernel_rfl) y
theorem coverL0_6 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i) (x0 x1 x2 : Vec F S1x2048x256 .f32) (xs7 : Vec F S1x256x256 .f32) (xs8 : Vec F S1x1x256 .f32) (y : S1x1x256.Idx) :
    ∃ pc ∈ (passOneLater c i arg2 harg2 arg3 harg3 arg4 harg4 arg5 harg5 arg6 harg6 arg7 harg7 arg8 harg8 hc x0 x1 x2 xs7 xs8).2.1, y ∈ pc.1.set :=
  View.cover_of_tiledL (passOneLater c i arg2 harg2 arg3 harg3 arg4 harg4 arg5 harg5 arg6 harg6 arg7 harg7 arg8 harg8 hc x0 x1 x2 xs7 xs8).2.1 S1x1x256.size (by sl_kernel_rfl) y
theorem coverL0_7 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i) (x0 x1 x2 : Vec F S1x2048x256 .f32) (xs7 : Vec F S1x256x256 .f32) (xs8 : Vec F S1x1x256 .f32) (y : S1x256x256.Idx) :
    ∃ pc ∈ (passOneLater c i arg2 harg2 arg3 harg3 arg4 harg4 arg5 harg5 arg6 harg6 arg7 harg7 arg8 harg8 hc x0 x1 x2 xs7 xs8).2.2.1, y ∈ pc.1.set :=
  View.cover_of_tiledL (passOneLater c i arg2 harg2 arg3 harg3 arg4 harg4 arg5 harg5 arg6 harg6 arg7 harg7 arg8 harg8 hc x0 x1 x2 xs7 xs8).2.2.1 S1x256x256.size (by sl_kernel_rfl) y
theorem coverL0_8 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i) (x0 x1 x2 : Vec F S1x2048x256 .f32) (xs7 : Vec F S1x256x256 .f32) (xs8 : Vec F S1x1x256 .f32) (y : S1x1x256.Idx) :
    ∃ pc ∈ (passOneLater c i arg2 harg2 arg3 harg3 arg4 harg4 arg5 harg5 arg6 harg6 arg7 harg7 arg8 harg8 hc x0 x1 x2 xs7 xs8).2.2.2.1, y ∈ pc.1.set :=
  View.cover_of_tiledL (passOneLater c i arg2 harg2 arg3 harg3 arg4 harg4 arg5 harg5 arg6 harg6 arg7 harg7 arg8 harg8 hc x0 x1 x2 xs7 xs8).2.2.2.1 S1x1x256.size (by sl_kernel_rfl) y

/-- THE ACCUMULATION: what point `n` leaves, by recursion on `n`. -/
def outsAt0 (c : Dev nD) : (n : ℕ) → n < cfg0.N → Outs0 F
  | 0, hn => firstOuts0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((firstTile0_iff ⟨0, hn⟩).mpr (Nat.zero_mod _)) (iblk0 V c 0 ⟨0, hn⟩) (iblk0 V c 1 ⟨0, hn⟩) (iblk0 V c 2 ⟨0, hn⟩)
  | n + 1, hn =>
    if h : (n + 1) % 4 = 0 then
      firstOuts0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((firstTile0_iff ⟨n + 1, hn⟩).mpr h) (iblk0 V c 0 ⟨n + 1, hn⟩) (iblk0 V c 1 ⟨n + 1, hn⟩) (iblk0 V c 2 ⟨n + 1, hn⟩)
    else
      laterOuts0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun hh => h ((firstTile0_iff ⟨n + 1, hn⟩).mp hh)) (iblk0 V c 0 ⟨n + 1, hn⟩) (iblk0 V c 1 ⟨n + 1, hn⟩) (iblk0 V c 2 ⟨n + 1, hn⟩)
        (outsAt0 c n (Nat.lt_of_succ_lt hn)).2.2.1 (outsAt0 c n (Nat.lt_of_succ_lt hn)).2.2.2

theorem outsAt0_first (c : Dev nD) (t : Fin cfg0.N) (h : t.val % 4 = 0) :
    outsAt0 V c t.val t.isLt = firstOuts0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((firstTile0_iff t).mpr h) (iblk0 V c 0 t) (iblk0 V c 1 t) (iblk0 V c 2 t) := by
  obtain ⟨n, hn⟩ := t
  cases n with
  | zero => exact rfl
  | succ n => exact (dif_pos h).trans rfl

theorem outsAt0_later (c : Dev nD) (t : Fin cfg0.N) (h : ¬t.val % 4 = 0) :
    outsAt0 V c t.val t.isLt = laterOuts0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h ((firstTile0_iff t).mp hh)) (iblk0 V c 0 t) (iblk0 V c 1 t) (iblk0 V c 2 t)
      (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h
  | succ n => exact (dif_neg h).trans rfl

/-- The region's invariant before position `n`: the class's before the first point; afterwards the two accumulators at
    what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ others0 (F := F) c) ∗ (∃ r, prngReg c r)) := by
  cases n with
  | zero => exact absurd rfl hz
  | succ n => rfl

/-- The proof data of the first pass on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 4800000 in
/-- The body at any point: the closed form of the condition says which case the point is in; the invariant hands the
    body the accumulators (at anything before the very first point, else at what the point before left) and takes them
    back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases h0 : t.val % 4 = 0
  · rw [outsAt0_first V c t h0]
    unfold firstOuts0; (try dsimp only)
    by_cases hz : t.val = 0
    · rw [PhiS0_castSucc V c t, PhiS0_zero V c _ _ hz, PhiA0_eq]
      iintro ⟨⟨⟨HS7, HS8, Hoth⟩, Hg⟩, Ho, ⟨%d0, H0⟩, ⟨%d1, H1⟩, ⟨%d2, H2⟩, ⟨%d3, H3⟩, ⟨%d4, H4⟩⟩
      iapply ((passOneFirst c (grid0.coords t) _ _ _ _ _ _ _ _ _ _ _ _ _ _ ((firstTile0_iff t).mpr h0) (iblk0 V c 0 t) (iblk0 V c 1 t) (iblk0 V c 2 t)).2.2.2.2 Set.univ _)
      isplitl [H0]; · iexact H0
      isplitl [H1]; · iexact H1
      isplitl [H2]; · iexact H2
      isplitl [H3]; · iexists _; iexact H3
      isplitl [H4]; · iexists _; iexact H4
      isplitl [HS7]; · iexact HS7
      isplitl [HS8]; · iexact HS8
      iintro ⟨H0, H1, H2, ⟨%e3, H3⟩, ⟨%e4, H4⟩, ⟨%e7, HS7⟩, ⟨%e8, HS8⟩⟩
      isplitl [HS7 HS8 Hoth Hg]
      · isplitr [Hg]
        · isplitl [HS7]
          · unfold owns; iexists _; isplitr
            swap; · iexact HS7
            ipureintro; exact View.read_writes_of_cover _ _ _ _ _ (coverF0_7 c _ _ _ _ _ _ _ _ _ _ _ _ _ _ _ _ _ _ _)
          isplitl [HS8]
          · unfold owns; iexists _; isplitr
            swap; · iexact HS8
            ipureintro; exact View.read_writes_of_cover _ _ _ _ _ (coverF0_8 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverF0_5 c _ _ _ _ _ _ _ _ _ _ _ _ _ _ _ _ _ _ _)
      unfold owns; iexists _; isplitr
      swap; · iexact H4
      ipureintro; exact View.read_writes_of_cover _ _ _ _ _ (coverF0_6 c _ _ _ _ _ _ _ _ _ _ _ _ _ _ _ _ _ _ _)
    · rw [PhiS0_castSucc V c t, PhiS0_pos V c _ _ hz]
      iintro ⟨⟨⟨HS7, HS8, Hoth⟩, Hg⟩, Ho, ⟨%d0, H0⟩, ⟨%d1, H1⟩, ⟨%d2, H2⟩, ⟨%d3, H3⟩, ⟨%d4, H4⟩⟩
      iapply ((passOneFirst c (grid0.coords t) _ _ _ _ _ _ _ _ _ _ _ _ _ _ ((firstTile0_iff t).mpr h0) (iblk0 V c 0 t) (iblk0 V c 1 t) (iblk0 V c 2 t)).2.2.2.2 Set.univ _)
      isplitl [H0]; · iexact H0
      isplitl [H1]; · iexact H1
      isplitl [H2]; · iexact H2
      isplitl [H3]; · iexists _; iexact H3
      isplitl [H4]; · iexists _; iexact H4
      isplitl [HS7]; · iexists _; iexact HS7
      isplitl [HS8]; · iexists _; iexact HS8
      iintro ⟨H0, H1, H2, ⟨%e3, H3⟩, ⟨%e4, H4⟩, ⟨%e7, HS7⟩, ⟨%e8, HS8⟩⟩
      isplitl [HS7 HS8 Hoth Hg]
      · isplitr [Hg]
        · isplitl [HS7]
          · unfold owns; iexists _; isplitr
            swap; · iexact HS7
            ipureintro; exact View.read_writes_of_cover _ _ _ _ _ (coverF0_7 c _ _ _ _ _ _ _ _ _ _ _ _ _ _ _ _ _ _ _)
          isplitl [HS8]
          · unfold owns; iexists _; isplitr
            swap; · iexact HS8
            ipureintro; exact View.read_writes_of_cover _ _ _ _ _ (coverF0_8 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverF0_5 c _ _ _ _ _ _ _ _ _ _ _ _ _ _ _ _ _ _ _)
      unfold owns; iexists _; isplitr
      swap; · iexact H4
      ipureintro; exact View.read_writes_of_cover _ _ _ _ _ (coverF0_6 c _ _ _ _ _ _ _ _ _ _ _ _ _ _ _ _ _ _ _)
  · rw [outsAt0_later V c t h0]
    unfold laterOuts0; (try dsimp only)
    have hz : t.val ≠ 0 := fun e => h0 (by rw [e])
    rw [PhiS0_castSucc V c t, PhiS0_pos V c _ _ hz]
    iintro ⟨⟨⟨HS7, HS8, Hoth⟩, Hg⟩, Ho, ⟨%d0, H0⟩, ⟨%d1, H1⟩, ⟨%d2, H2⟩, ⟨%d3, H3⟩, ⟨%d4, H4⟩⟩
    iapply ((passOneLater c (grid0.coords t) _ _ _ _ _ _ _ _ _ _ _ _ _ _ (fun hh => h0 ((firstTile0_iff t).mp hh)) (iblk0 V c 0 t) (iblk0 V c 1 t) (iblk0 V c 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS7]; · iexact HS7
    isplitl [HS8]; · iexact HS8
    iintro ⟨H0, H1, H2, ⟨%e3, H3⟩, ⟨%e4, H4⟩, ⟨%e7, HS7⟩, ⟨%e8, HS8⟩⟩
    isplitl [HS7 HS8 Hoth Hg]
    · isplitr [Hg]
      · isplitl [HS7]
        · unfold owns; iexists _; isplitr
          swap; · iexact HS7
          ipureintro; exact View.read_writes_of_cover _ _ _ _ _ (coverL0_7 c _ _ _ _ _ _ _ _ _ _ _ _ _ _ _ _ _ _ _ _ _)
        isplitl [HS8]
        · unfold owns; iexists _; isplitr
          swap; · iexact HS8
          ipureintro; exact View.read_writes_of_cover _ _ _ _ _ (coverL0_8 c _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverL0_5 c _ _ _ _ _ _ _ _ _ _ _ _ _ _ _ _ _ _ _ _ _)
    unfold owns; iexists _; isplitr
    swap; · iexact H4
    ipureintro; exact View.read_writes_of_cover _ _ _ _ _ (coverL0_6 c _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS7, HS8, Hoth⟩, Hg⟩
  isplitr [Hg]
  · isplitl [HS7]; · iexists _; iexact HS7
    isplitl [HS8]; · iexists _; iexact HS8
    iexact Hoth
  iexact Hg

end

end Cert.Kernel.Passes

end
-- ==== Proof.Bits.PassTwoRun.lean ====
/-
  The second pass's body, run once per case of its one branch.

  The body keeps one accumulator in scratch memory, a [1, 1, 256] row: the sum over the rows seen so far of
  `exp (exp Q / denom)`. On the first tile of a batch it overwrites the accumulator with zeros before adding the tile's
  column sums; on a later tile it adds to what the tile before left; either way it copies the accumulator into the
  output block. Each run says: from the tile of `Q` and the row of denominators at given contents (and, on a later
  tile, the accumulator at given contents) the body terminates, the inputs untouched, the output block and the
  accumulator holding the list of pieces its stores wrote, last store first.
-/
import proofs.«139639_j23854248362901_1_alg».proof.Proof.Gen.Kernel.Launch
import proofs.«139639_j23854248362901_1_alg».proof.Proof.Gen.Kernel.Skeleton
import proofs.«139639_j23854248362901_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Passes

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the tile coordinate is zero. -/
abbrev firstTile1 (i : grid1.Coords) : Prop :=
  (Scalar.cmpi .ne (Scalar.extui (Scalar.cmpi .eq (BitVec.ofNat 32 (i 1).val) 0#32)) 0#32) = 1#1

/-- Over the grid of 8 batches by 4 tiles walked batch-major, it holds exactly at the points divisible by 4. -/
theorem firstTile1_iff : ∀ t : Fin cfg1.N, firstTile1 (grid1.coords t) ↔ t.val % 4 = 0 :=
  (by decide +kernel : ∀ t : Fin grid1.N, firstTile1 (grid1.coords t) ↔ t.val % 4 = 0)

set_option maxHeartbeats 1000000 in
/-- The first tile of a batch: the accumulator is found at anything, zeroed, and added to. -/
noncomputable def passTwoFirst (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : firstTile1 i)
    (x0 : Vec F S1x2048x256 .f32) (x1 : Vec F S1x1x256 .f32) :
    Σ' (L4 : List (View.Piece (Elt F) S1x1x256 .f32)), { LS5 : List (View.Piece (Elt F) S1x1x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f LS5)) -∗ K ⟨⟩))
          ⊢ wp frame (wpE (defs₀ (F := F)) Variants.none c none) E (cc1__pass2_kernel i arg2 harg2 arg3 harg3 arg4 harg4 arg5 harg5) K } := by
  refine ⟨?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    iexists _; iexact H5

set_option maxHeartbeats 1000000 in
/-- A later tile: the accumulator is found at what the tile before left (`xs5`) and added to. -/
noncomputable def passTwoLater (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : ¬firstTile1 i)
    (x0 : Vec F S1x2048x256 .f32) (x1 : Vec F S1x1x256 .f32) (xs5 : Vec F S1x1x256 .f32) :
    Σ' (L4 : List (View.Piece (Elt F) S1x1x256 .f32)), { LS5 : List (View.Piece (Elt F) S1x1x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs5
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f LS5)) -∗ K ⟨⟩))
          ⊢ wp frame (wpE (defs₀ (F := F)) Variants.none c none) E (cc1__pass2_kernel i arg2 harg2 arg3 harg3 arg4 harg4 arg5 harg5) K } := by
  refine ⟨?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    iexists _; iexact H5

end Cert.Kernel.Passes

end
-- ==== Proof.Bits.PassTwo.lean ====
/-
  The second pass as a pipeline: what each point of its grid leaves behind.

  The grid is 8 batches by 4 tiles, batch-major. The accumulator (the running sum of the weights' columns) lives in
  scratch memory across the four tiles of a batch; the output block is a copy of it, written back after the last
  tile of each batch only. `outsAt1` is the pair (output block, accumulator) after point `n`, by recursion on `n`;
  the region's invariant (`PhiS1`) says the accumulator holds exactly that between two points.
-/
import proofs.«139639_j23854248362901_1_alg».proof.Proof.Gen.Kernel.Launch
import proofs.«139639_j23854248362901_1_alg».proof.Proof.Gen.Kernel.Skeleton
import proofs.«139639_j23854248362901_1_alg».proof.Proof.Gen.Kernel.Points
import proofs.«139639_j23854248362901_1_alg».proof.Proof.Bits.PassTwoRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Passes

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S1x1x256 .f32 := (Memref.whole cc1_stg2_0 : Memref sig .tc .vmem S1x1x256 .f32).view
abbrev ms1_0 (t : Fin cfg1.N) : Memref sig .tc .vmem S1x2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x256 .f32 := win1_2.stage (cfg1.slots t 2)
abbrev hs1_2 (t : Fin cfg1.N) : (ms1_2 t).IsWhole := hstage1_2 ((cfg1.slots t 2).cast nbuf1_2)
abbrev scM1_0 : Memref sig .tc .vmem S1x1x256 .f32 := Memref.whole cc1_scratch0
abbrev VS1_0 : View sig .tc .vmem S1x1x256 .f32 := scM1_0.view

/-- The core's scoped buffers other than this pass's staging buffers and its accumulator, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The scoped buffers that are no staging buffer of this pass, the accumulator listed first. -/
theorem scopedRest1_acc_first (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) :=
  Pipeline.scopedRest_eq_of_list spec1 c [cc1_scratch0, cc0_stg0_0, cc0_stg0_1, cc0_stg1_0, cc0_stg1_1, cc0_stg2_0, cc0_stg2_1, cc0_stg3_0, cc0_stg3_1, cc0_stg4_0, cc0_stg4_1, cc0_scratch0, cc0_scratch1, cc2_stg0_0, cc2_stg0_1, cc2_stg1_0, cc2_stg1_1, cc2_stg2_0, cc2_stg2_1, cc2_stg3_0, cc2_stg3_1, cc2_stg4_0, cc2_stg4_1] (by decide) (by decide)

/-- The class invariant with the accumulator split out. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA; rw [scopedRest1_acc_first]; simp only [scM1_0, owns_whole]; try rfl

/-- The pair a point leaves: the output block and the accumulator. -/
abbrev Outs1 (F : FTy → Type) : Type := Vec F S1x1x256 .f32 × Vec F S1x1x256 .f32

def firstOuts1 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : firstTile1 i)
    (x0 : Vec F S1x2048x256 .f32) (x1 : Vec F S1x1x256 .f32) : Outs1 F :=
  (VO1_2.read (Elt F) (VO1_2.writes (Elt F) VO1_2.junk (passTwoFirst c i arg2 harg2 arg3 harg3 arg4 harg4 arg5 harg5 hc x0 x1).1),
   VS1_0.read (Elt F) (VS1_0.writes (Elt F) VS1_0.junk (passTwoFirst c i arg2 harg2 arg3 harg3 arg4 harg4 arg5 harg5 hc x0 x1).2.1))

def laterOuts1 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : ¬firstTile1 i)
    (x0 : Vec F S1x2048x256 .f32) (x1 : Vec F S1x1x256 .f32) (xs5 : Vec F S1x1x256 .f32) : Outs1 F :=
  (VO1_2.read (Elt F) (VO1_2.writes (Elt F) VO1_2.junk (passTwoLater c i arg2 harg2 arg3 harg3 arg4 harg4 arg5 harg5 hc x0 x1 xs5).1),
   VS1_0.read (Elt F) (VS1_0.writes (Elt F) VS1_0.junk (passTwoLater c i arg2 harg2 arg3 harg3 arg4 harg4 arg5 harg5 hc x0 x1 xs5).2.1))

/-! Every buffer is stored whole, so each list of pieces covers its buffer. -/
theorem coverF1_4 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : firstTile1 i) (x0 : Vec F S1x2048x256 .f32) (x1 : Vec F S1x1x256 .f32) (y : S1x1x256.Idx) :
    ∃ pc ∈ (passTwoFirst c i arg2 harg2 arg3 harg3 arg4 harg4 arg5 harg5 hc x0 x1).1, y ∈ pc.1.set :=
  View.cover_of_tiledL (passTwoFirst c i arg2 harg2 arg3 harg3 arg4 harg4 arg5 harg5 hc x0 x1).1 S1x1x256.size (by sl_kernel_rfl) y
theorem coverF1_5 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : firstTile1 i) (x0 : Vec F S1x2048x256 .f32) (x1 : Vec F S1x1x256 .f32) (y : S1x1x256.Idx) :
    ∃ pc ∈ (passTwoFirst c i arg2 harg2 arg3 harg3 arg4 harg4 arg5 harg5 hc x0 x1).2.1, y ∈ pc.1.set :=
  View.cover_of_tiledL (passTwoFirst c i arg2 harg2 arg3 harg3 arg4 harg4 arg5 harg5 hc x0 x1).2.1 S1x1x256.size (by sl_kernel_rfl) y
theorem coverL1_4 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : ¬firstTile1 i) (x0 : Vec F S1x2048x256 .f32) (x1 : Vec F S1x1x256 .f32) (xs5 : Vec F S1x1x256 .f32) (y : S1x1x256.Idx) :
    ∃ pc ∈ (passTwoLater c i arg2 harg2 arg3 harg3 arg4 harg4 arg5 harg5 hc x0 x1 xs5).1, y ∈ pc.1.set :=
  View.cover_of_tiledL (passTwoLater c i arg2 harg2 arg3 harg3 arg4 harg4 arg5 harg5 hc x0 x1 xs5).1 S1x1x256.size (by sl_kernel_rfl) y
theorem coverL1_5 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : ¬firstTile1 i) (x0 : Vec F S1x2048x256 .f32) (x1 : Vec F S1x1x256 .f32) (xs5 : Vec F S1x1x256 .f32) (y : S1x1x256.Idx) :
    ∃ pc ∈ (passTwoLater c i arg2 harg2 arg3 harg3 arg4 harg4 arg5 harg5 hc x0 x1 xs5).2.1, y ∈ pc.1.set :=
  View.cover_of_tiledL (passTwoLater c i arg2 harg2 arg3 harg3 arg4 harg4 arg5 harg5 hc x0 x1 xs5).2.1 S1x1x256.size (by sl_kernel_rfl) y

/-- THE ACCUMULATION: what point `n` leaves, by recursion on `n`. -/
def outsAt1 (c : Dev nD) : (n : ℕ) → n < cfg1.N → Outs1 F
  | 0, hn => firstOuts1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((firstTile1_iff ⟨0, hn⟩).mpr (Nat.zero_mod _)) (iblk1 V c 0 ⟨0, hn⟩) (iblk1 V c 1 ⟨0, hn⟩)
  | n + 1, hn =>
    if h : (n + 1) % 4 = 0 then
      firstOuts1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((firstTile1_iff ⟨n + 1, hn⟩).mpr h) (iblk1 V c 0 ⟨n + 1, hn⟩) (iblk1 V c 1 ⟨n + 1, hn⟩)
    else
      laterOuts1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun hh => h ((firstTile1_iff ⟨n + 1, hn⟩).mp hh)) (iblk1 V c 0 ⟨n + 1, hn⟩) (iblk1 V c 1 ⟨n + 1, hn⟩)
        (outsAt1 c n (Nat.lt_of_succ_lt hn)).2

theorem outsAt1_first (c : Dev nD) (t : Fin cfg1.N) (h : t.val % 4 = 0) :
    outsAt1 V c t.val t.isLt = firstOuts1 c (grid1.coords t) (ms1_0 t) (hs1_0 t) (ms1_1 t) (hs1_1 t) (ms1_2 t) (hs1_2 t) scM1_0 (Memref.isWhole_whole _) ((firstTile1_iff t).mpr h) (iblk1 V c 0 t) (iblk1 V c 1 t) := by
  obtain ⟨n, hn⟩ := t
  cases n with
  | zero => exact rfl
  | succ n => exact (dif_pos h).trans rfl

theorem outsAt1_later (c : Dev nD) (t : Fin cfg1.N) (h : ¬t.val % 4 = 0) :
    outsAt1 V c t.val t.isLt = laterOuts1 c (grid1.coords t) (ms1_0 t) (hs1_0 t) (ms1_1 t) (hs1_1 t) (ms1_2 t) (hs1_2 t) scM1_0 (Memref.isWhole_whole _) (fun hh => h ((firstTile1_iff t).mp hh)) (iblk1 V c 0 t) (iblk1 V c 1 t)
      (outsAt1 V c (t.val - 1) (Nat.lt_of_le_of_lt (Nat.sub_le _ _) t.isLt)).2 := by
  obtain ⟨n, hn⟩ := t
  cases n with
  | zero => exact absurd (Nat.zero_mod _) h
  | succ n => exact (dif_neg h).trans rfl

/-- The region's invariant before position `n`. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-- The proof data of the second pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4800000 in
/-- The body at any point, by the case the closed form of the condition selects. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  by_cases h0 : t.val % 4 = 0
  · rw [outsAt1_first V c t h0]
    unfold firstOuts1; (try dsimp only)
    by_cases hz : t.val = 0
    · rw [PhiS1_castSucc V c t, PhiS1_zero V c _ _ hz, PhiA1_eq]
      iintro ⟨⟨⟨HS5, Hoth⟩, Hg⟩, Ho, ⟨%d0, H0⟩, ⟨%d1, H1⟩, ⟨%d2, H2⟩⟩
      iapply ((passTwoFirst c (grid1.coords t) _ _ _ _ _ _ _ _ ((firstTile1_iff t).mpr h0) (iblk1 V c 0 t) (iblk1 V c 1 t)).2.2 Set.univ _)
      isplitl [H0]; · iexact H0
      isplitl [H1]; · iexact H1
      isplitl [H2]; · iexists _; iexact H2
      isplitl [HS5]; · iexact HS5
      iintro ⟨H0, H1, ⟨%e2, H2⟩, ⟨%e5, HS5⟩⟩
      isplitl [HS5 Hoth Hg]
      · isplitr [Hg]
        · isplitl [HS5]
          · unfold owns; iexists _; isplitr
            swap; · iexact HS5
            ipureintro; exact View.read_writes_of_cover _ _ _ _ _ (coverF1_5 c _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverF1_4 c _ _ _ _ _ _ _ _ _ _ _ _)
    · rw [PhiS1_castSucc V c t, PhiS1_pos V c _ _ hz]
      iintro ⟨⟨⟨HS5, Hoth⟩, Hg⟩, Ho, ⟨%d0, H0⟩, ⟨%d1, H1⟩, ⟨%d2, H2⟩⟩
      iapply ((passTwoFirst c (grid1.coords t) _ _ _ _ _ _ _ _ ((firstTile1_iff t).mpr h0) (iblk1 V c 0 t) (iblk1 V c 1 t)).2.2 Set.univ _)
      isplitl [H0]; · iexact H0
      isplitl [H1]; · iexact H1
      isplitl [H2]; · iexists _; iexact H2
      isplitl [HS5]; · iexists _; iexact HS5
      iintro ⟨H0, H1, ⟨%e2, H2⟩, ⟨%e5, HS5⟩⟩
      isplitl [HS5 Hoth Hg]
      · isplitr [Hg]
        · isplitl [HS5]
          · unfold owns; iexists _; isplitr
            swap; · iexact HS5
            ipureintro; exact View.read_writes_of_cover _ _ _ _ _ (coverF1_5 c _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverF1_4 c _ _ _ _ _ _ _ _ _ _ _ _)
  · rw [outsAt1_later V c t h0]
    unfold laterOuts1; (try dsimp only)
    have hz : t.val ≠ 0 := fun e => h0 (by rw [e])
    rw [PhiS1_castSucc V c t, PhiS1_pos V c _ _ hz]
    iintro ⟨⟨⟨HS5, Hoth⟩, Hg⟩, Ho, ⟨%d0, H0⟩, ⟨%d1, H1⟩, ⟨%d2, H2⟩⟩
    iapply ((passTwoLater c (grid1.coords t) _ _ _ _ _ _ _ _ (fun hh => h0 ((firstTile1_iff t).mp hh)) (iblk1 V c 0 t) (iblk1 V c 1 t) _).2.2 Set.univ _)
    isplitl [H0]; · iexact H0
    isplitl [H1]; · iexact H1
    isplitl [H2]; · iexists _; iexact H2
    isplitl [HS5]; · iexact HS5
    iintro ⟨H0, H1, ⟨%e2, H2⟩, ⟨%e5, HS5⟩⟩
    isplitl [HS5 Hoth Hg]
    · isplitr [Hg]
      · isplitl [HS5]
        · unfold owns; iexists _; isplitr
          swap; · iexact HS5
          ipureintro; exact View.read_writes_of_cover _ _ _ _ _ (coverL1_5 c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverL1_4 c _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS5, Hoth⟩, Hg⟩
  isplitr [Hg]
  · isplitl [HS5]; · iexists _; iexact HS5
    iexact Hoth
  iexact Hg

end

end Cert.Kernel.Passes

end
-- ==== Proof.Bits.PassThree.lean ====
/-
  The third pass: its body and what each point of its grid leaves behind.

  The body keeps nothing between points. From the tile of `Q`, the row of denominators, the row of weight sums and the
  batch's [256, 256] block of scaled `Kᵀ V` it computes the tile of the result — each row's normalised weights times
  the block — and stores it whole into the output block, which is written back at every point.
-/
import proofs.«139639_j23854248362901_1_alg».proof.Proof.Gen.Kernel.Launch
import proofs.«139639_j23854248362901_1_alg».proof.Proof.Gen.Kernel.Skeleton
import proofs.«139639_j23854248362901_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Passes

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body: from the four input blocks at given contents it terminates, the inputs untouched, the output block
    holding the pieces its one store wrote. -/
noncomputable def passThreeRun (c : Dev nD) (i : grid2.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x2048x256 .f32) (harg6 : arg6.IsWhole) (x0 : Vec F S1x2048x256 .f32) (x1 x2 : Vec F S1x1x256 .f32) (x3 : Vec F S1x256x256 .f32) :
    { L6 : List (View.Piece (Elt F) S1x2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L6)) -∗ K ⟨⟩))
          ⊢ wp frame (wpE (defs₀ (F := F)) Variants.none c none) E (cc2__pass3_kernel i arg2 harg2 arg3 harg3 arg4 harg4 arg5 harg5 arg6 harg6) K } := by
  refine ⟨?_, fun E K => ?run⟩
  case run =>
    simp only [cc2__pass3_kernel_eq_skeleton]; unfold cc2__pass3_kernel_skel
    unfold owns
    iintro ⟨⟨%f0, %hf0, H0⟩, ⟨%f1, %hf1, H1⟩, ⟨%f2, %hf2, H2⟩, ⟨%f3, %hf3, H3⟩, ⟨%d6, %f6, -, H6⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H6

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window whose block
    index does not move between two points is not fetched again, and still holds the block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev VO2_4 : View sig .tc .vmem S1x2048x256 .f32 := (Memref.whole cc2_stg4_0 : Memref sig .tc .vmem S1x2048x256 .f32).view
abbrev ms2_0 (t : Fin cfg2.N) : Memref sig .tc .vmem S1x2048x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048x256 .f32 := win2_4.stage (cfg2.slots t 4)
abbrev hs2_4 (t : Fin cfg2.N) : (ms2_4 t).IsWhole := hstage2_4 ((cfg2.slots t 4).cast nbuf2_4)

/-- What the body leaves in the output block: its pieces read back. -/
def out2_4 (c : Dev nD) (i : grid2.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x2048x256 .f32) (harg6 : arg6.IsWhole) (x0 : Vec F S1x2048x256 .f32) (x1 x2 : Vec F S1x1x256 .f32) (x3 : Vec F S1x256x256 .f32) : Vec F S1x2048x256 .f32 :=
  VO2_4.read (Elt F) (VO2_4.writes (Elt F) VO2_4.junk (passThreeRun c i arg2 harg2 arg3 harg3 arg4 harg4 arg5 harg5 arg6 harg6 x0 x1 x2 x3).1)

/-- The one store is whole, so its piece covers the block. -/
theorem cover2_4 (c : Dev nD) (i : grid2.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x2048x256 .f32) (harg6 : arg6.IsWhole) (x0 : Vec F S1x2048x256 .f32) (x1 x2 : Vec F S1x1x256 .f32) (x3 : Vec F S1x256x256 .f32) (y : S1x2048x256.Idx) :
    ∃ pc ∈ (passThreeRun c i arg2 harg2 arg3 harg3 arg4 harg4 arg5 harg5 arg6 harg6 x0 x1 x2 x3).1, y ∈ pc.1.set :=
  View.cover_of_tiledL (passThreeRun c i arg2 harg2 arg3 harg3 arg4 harg4 arg5 harg5 arg6 harg6 x0 x1 x2 x3).1 S1x2048x256.size (by sl_kernel_rfl) y

/-- The proof data of the third pass on core `c`: the class's invariant, untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 2000000 in
/-- The body at any point: the inputs' buffers hold their blocks, so the run applies; the invariant passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  unfold out2_4
  iintro ⟨HΦ, Ho, ⟨%d0, H0⟩, ⟨%d1, H1⟩, ⟨%d2, H2⟩, ⟨%d3, H3⟩, ⟨%d4, H4⟩⟩
  iapply ((passThreeRun c (grid2.coords t) _ _ _ _ _ _ _ _ _ _ (iblk2 V c 0 t) (iblk2 V c 1 t) (iblk2 V c 2 t) (iblk2 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_4 c _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end

end Cert.Kernel.Passes

end
-- ==== Proof.Bits.Run.lean ====
/-
  The whole run: @main is the first pass, three host operations (the constant 1, its broadcast, and the sum with the first
  pass's second result), the second pass, the third pass. The contents of every unscoped buffer are folded through these
  four items (`W0` … `W4`): a pass replaces its arrays by what its write-backs leave and keeps every other buffer, the
  host operations apply their functions. Every weakly fair execution terminates with every unscoped buffer at the
  last fold `W4`; the arguments read back through the fold are the launch contents, and the result buffer is the third
  pass's output array.
-/
import proofs.«139639_j23854248362901_1_alg».proof.Proof.Bits.PassOne
import proofs.«139639_j23854248362901_1_alg».proof.Proof.Bits.PassTwo
import proofs.«139639_j23854248362901_1_alg».proof.Proof.Bits.PassThree
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Passes

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first pass's entry). -/
abbrev W0 : Dev nD → Valuation τ sig (Elt F) := fun c b => (s₀ m ρ).mem ((c : Dev nD), b)
abbrev VV0 : (c : Dev nD) → (b : Ref sig .tc) → Buf (Elt F) ((c : Thread nD τ).loc b) := fun c b => W0 m ρ c b

/-- At pass 1's exit: its arrays at what the pipeline leaves (an input as entered, an output's write-backs folded), every
    other buffer as entered. -/
def W1 (c : Dev nD) : Valuation τ sig (Elt F) :=
  Pipeline.withArrays spec0 c (W0 m ρ c) fun w => (dat0 (VV0 m ρ) c).arrAt w cfg0.N
theorem W1_arr (c : Dev nD) (w : Fin cfg0.W) :
    W1 m ρ c (Proc.devRef .tc (Pipeline.arrRef spec0 w)) = (dat0 (VV0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev VV1 : (c : Dev nD) → (b : Ref sig .tc) → Buf (Elt F) ((c : Thread nD τ).loc b) := fun c b => W1 m ρ c b
theorem hF0 (c : Dev nD) (w : Fin cfg0.W) : (dat0 (VV0 m ρ) c).arrAt w cfg0.N = VV1 m ρ c (Pipeline.arrRef spec0 w) :=
  (W1_arr m ρ c w).symm
theorem hrest0 (c : Dev nD) : ∀ b, b ∉ Finset.univ.image (Pipeline.arrRef spec0) → VV1 m ρ c b = VV0 m ρ c b :=
  fun b hb => W1_of_ne m ρ c b fun w e => hb (Finset.mem_image.mpr ⟨w, Finset.mem_univ _, e⟩)

/-- After the three host operations (the second pass's entry). -/
abbrev W2 : Dev nD → Valuation τ sig (Elt F) := fun c => StableHlo.after hostOps1 (W1 m ρ c)
abbrev VV2 : (c : Dev nD) → (b : Ref sig .tc) → Buf (Elt F) ((c : Thread nD τ).loc b) := fun c b => W2 m ρ c b

/-- At pass 2's exit: its arrays at what the pipeline leaves (an input as entered, an output's write-backs folded), every
    other buffer as entered. -/
def W3 (c : Dev nD) : Valuation τ sig (Elt F) :=
  Pipeline.withArrays spec1 c (W2 m ρ c) fun w => (dat1 (VV2 m ρ) c).arrAt w cfg1.N
theorem W3_arr (c : Dev nD) (w : Fin cfg1.W) :
    W3 m ρ c (Proc.devRef .tc (Pipeline.arrRef spec1 w)) = (dat1 (VV2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev VV3 : (c : Dev nD) → (b : Ref sig .tc) → Buf (Elt F) ((c : Thread nD τ).loc b) := fun c b => W3 m ρ c b
theorem hF1 (c : Dev nD) (w : Fin cfg1.W) : (dat1 (VV2 m ρ) c).arrAt w cfg1.N = VV3 m ρ c (Pipeline.arrRef spec1 w) :=
  (W3_arr m ρ c w).symm
theorem hrest1 (c : Dev nD) : ∀ b, b ∉ Finset.univ.image (Pipeline.arrRef spec1) → VV3 m ρ c b = VV2 m ρ c b :=
  fun b hb => W3_of_ne m ρ c b fun w e => hb (Finset.mem_image.mpr ⟨w, Finset.mem_univ _, e⟩)

/-- At pass 3's exit: its arrays at what the pipeline leaves (an input as entered, an output's write-backs folded), every
    other buffer as entered. -/
def W4 (c : Dev nD) : Valuation τ sig (Elt F) :=
  Pipeline.withArrays spec2 c (W3 m ρ c) fun w => (dat2 (VV3 m ρ) c).arrAt w cfg2.N
theorem W4_arr (c : Dev nD) (w : Fin cfg2.W) :
    W4 m ρ c (Proc.devRef .tc (Pipeline.arrRef spec2 w)) = (dat2 (VV3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev VV4 : (c : Dev nD) → (b : Ref sig .tc) → Buf (Elt F) ((c : Thread nD τ).loc b) := fun c b => W4 m ρ c b
theorem hF2 (c : Dev nD) (w : Fin cfg2.W) : (dat2 (VV3 m ρ) c).arrAt w cfg2.N = VV4 m ρ c (Pipeline.arrRef spec2 w) :=
  (W4_arr m ρ c w).symm
theorem hrest2 (c : Dev nD) : ∀ b, b ∉ Finset.univ.image (Pipeline.arrRef spec2) → VV4 m ρ c b = VV3 m ρ c b :=
  fun b hb => W4_of_ne m ρ c b fun w e => hb (Finset.mem_image.mpr ⟨w, Finset.mem_univ _, e⟩)

/-! ## The arguments end as launched: every pass only reads them, no host operation writes them -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg0) := (W1_arr m ρ c 0).trans (((dat0 (VV0 m ρ) c).arrAt_in 0 rfl _).trans (A_eq0 (VV0 m ρ) c 0))
    _ = m ((c : Thread nD τ).loc main_arg0) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg2) := (W1_arr m ρ c 1).trans (((dat0 (VV0 m ρ) c).arrAt_in 1 rfl _).trans (A_eq0 (VV0 m ρ) c 1))
    _ = m ((c : Thread nD τ).loc main_arg2) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg1) := (W1_arr m ρ c 2).trans (((dat0 (VV0 m ρ) c).arrAt_in 2 rfl _).trans (A_eq0 (VV0 m ρ) c 2))
    _ = m ((c : Thread nD τ).loc main_arg1) := rfl

theorem W3_main_arg1 (c : Dev nD) : W3 m ρ c (Proc.devRef .tc main_arg1) = m ((c : Thread nD τ).loc main_arg1) :=
  ((W3_arr m ρ c 0).trans (((dat1 (VV2 m ρ) c).arrAt_in 0 rfl _).trans (A_eq1 (VV2 m ρ) c 0))).trans (W2_main_arg1 m ρ c)

theorem W4_main_arg1 (c : Dev nD) : W4 m ρ c (Proc.devRef .tc main_arg1) = m ((c : Thread nD τ).loc main_arg1) :=
  ((W4_arr m ρ c 0).trans (((dat2 (VV3 m ρ) c).arrAt_in 0 rfl _).trans (A_eq2 (VV3 m ρ) c 0))).trans (W3_main_arg1 m ρ c)

/-- The result buffer ends at the third pass's output array after its last write-back. -/
theorem W4_main_v4 (c : Dev nD) : W4 m ρ c (Proc.devRef .tc main_v4) = (dat2 (VV3 m ρ) c).arrAt 4 cfg2.N :=
  W4_arr m ρ c 4

/-! ## The proof data family and the thread state -/

/-- No pass has a prefetched table. -/
abbrev adm : (p : Fin 3) → (pcfgs (F := F) p).Adm := fun p => (cfgs p).toPCfg_adm
/-- Every pass's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VV0 m ρ) c
  | ⟨1, _⟩ => fun c => dat1 (VV2 m ρ) c
  | ⟨2, _⟩ => fun c => dat2 (VV3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- None of the three host operations allocates a buffer. -/
theorem hostOps1_noalloc : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The passes as segments -/

-- a library lemma stated over the pinned configuration unifies with the printed one only when unification may unfold
-- plain definitions in a metavariable's type
set_option backward.isDefEq.respectTransparency.types false in
/-- Pass 1 as a segment of @main: entered with every unscoped buffer at `W0`, left with them at `W1`. Its
    arrays are split out of the unscoped buffers and put back at their final contents; the generator register goes into
    the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VV0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VV0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (hout0 (VV0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VV0 m ρ c) (VV1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 2 as a segment of @main: entered with every unscoped buffer at `W2`, left with them at `W3`. Its
    arrays are split out of the unscoped buffers and put back at their final contents; the generator register goes into
    the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VV2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VV2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (hout1 (VV2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VV2 m ρ c) (VV3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 3 as a segment of @main: entered with every unscoped buffer at `W3`, left with them at `W4`. Its
    arrays are split out of the unscoped buffers and put back at their final contents; the generator register goes into
    the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VV3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VV3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VV3 m ρ c) (VV4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_noalloc (W1 m ρ)),
    .region (reg1 m ρ),
    .region (reg2 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last fold `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- THE RUN WITH ITS RESULT NAMED: the result buffer ends at the third pass's output array, the arguments as launched. -/
theorem run_value : θ_run defs (onTc (τ := τ) (main (F := F))) ⟨m, fun _ => 0, ρ⟩ (fun r => ∀ c : Dev nD,
      r.2.mem ((c.tc : Thread nD τ).loc main_v4) = (dat2 (VV3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v4 (by decide))).trans (W4_main_v4 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Passes

end
-- ==== Proof.Ideal.PassOneRun.lean ====
/-
  The first pass's body, run once per case of its one branch.

  The body keeps two accumulators in scratch memory: the scaled `Kᵀ V` product (a [1, 256, 256] buffer) and the sum of
  `exp Q` over the rows seen so far (a [1, 1, 256] buffer). On the first tile of a batch it overwrites both with
  zeros before adding the tile's contribution; on a later tile it adds to what the tile before left. Either way it
  then copies both accumulators into the two output blocks. Each run below says: from the three input blocks at given
  contents (and, on a later tile, the accumulators at given contents) the body terminates, the inputs untouched, each
  output block and each accumulator holding the list of pieces its stores wrote, last store first.
-/
import proofs.«139639_j23854248362901_1_alg».proof.Proof.Gen.KernelIdeal.Launch
import proofs.«139639_j23854248362901_1_alg».proof.Proof.Gen.KernelIdeal.Skeleton
import proofs.«139639_j23854248362901_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the tile coordinate is zero. -/
abbrev firstTile0 (i : grid0.Coords) : Prop :=
  (Scalar.cmpi .ne (Scalar.extui (Scalar.cmpi .eq (BitVec.ofNat 32 (i 1).val) 0#32)) 0#32) = 1#1

/-- Over the grid of 8 batches by 4 tiles walked batch-major, it holds exactly at the points divisible by 4. -/
theorem firstTile0_iff : ∀ t : Fin cfg0.N, firstTile0 (grid0.coords t) ↔ t.val % 4 = 0 :=
  (by decide +kernel : ∀ t : Fin grid0.N, firstTile0 (grid0.coords t) ↔ t.val % 4 = 0)

set_option maxHeartbeats 1000000 in
/-- The first tile of a batch: the accumulators are found at anything, zeroed, and added to. -/
noncomputable def passOneFirst (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i)
    (x0 x1 x2 : Vec F S1x2048x256 .f32) :
    Σ' (L5 : List (View.Piece (Elt F) S1x256x256 .f32)) (L6 : List (View.Piece (Elt F) S1x1x256 .f32)) (LS7 : List (View.Piece (Elt F) S1x256x256 .f32)), { LS8 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
          ⊢ wp frame (wpE (defs₀ (F := F)) Variants.none c none) E (cc0__pass1_kernel i arg2 harg2 arg3 harg3 arg4 harg4 arg5 harg5 arg6 harg6 arg7 harg7 arg8 harg8) K } := by
  refine ⟨?_, ?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [H7]; · iexists _; iexact H7
    iexists _; iexact H8

set_option maxHeartbeats 1000000 in
/-- A later tile: the accumulators are found at what the tile before left (`xs7`, `xs8`) and added to. -/
noncomputable def passOneLater (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i)
    (x0 x1 x2 : Vec F S1x2048x256 .f32) (xs7 : Vec F S1x256x256 .f32) (xs8 : Vec F S1x1x256 .f32) :
    Σ' (L5 : List (View.Piece (Elt F) S1x256x256 .f32)) (L6 : List (View.Piece (Elt F) S1x1x256 .f32)) (LS7 : List (View.Piece (Elt F) S1x256x256 .f32)), { LS8 : List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ owns (c : Thread nD τ) arg7 fullShare xs7 ∗ owns (c : Thread nD τ) arg8 fullShare xs8
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
          ⊢ wp frame (wpE (defs₀ (F := F)) Variants.none c none) E (cc0__pass1_kernel i arg2 harg2 arg3 harg3 arg4 harg4 arg5 harg5 arg6 harg6 arg7 harg7 arg8 harg8) K } := by
  refine ⟨?_, ?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%d5, %f5, -, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2
    obtain rfl := harg7.eq_unread hf7; obtain rfl := harg8.eq_unread hf8
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [H7]; · iexists _; iexact H7
    iexists _; iexact H8

end Cert.KernelIdeal.Passes

end
-- ==== Proof.Ideal.PassOne.lean ====
/-
  The first pass as a pipeline: what each point of its grid leaves behind.

  The grid is 8 batches by 4 tiles, walked batch-major, so point `t` is tile `t % 4` of batch `t / 4`. The two
  accumulators live in scratch memory across the four tiles of a batch; the two output blocks are copies of the
  accumulators and are written back to their arrays after the last tile of each batch only. `outsAt0` is the
  quadruple (first output block, second output block, first accumulator, second accumulator) after point `n`, by
  recursion on `n`: a first tile starts from zeros, a later tile from what the point before left in the accumulators.
  The region's invariant (`PhiS0`) says the accumulators hold exactly that between two points.
-/
import proofs.«139639_j23854248362901_1_alg».proof.Proof.Gen.KernelIdeal.Launch
import proofs.«139639_j23854248362901_1_alg».proof.Proof.Gen.KernelIdeal.Skeleton
import proofs.«139639_j23854248362901_1_alg».proof.Proof.Gen.KernelIdeal.Points
import proofs.«139639_j23854248362901_1_alg».proof.Proof.Ideal.PassOneRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each output window, and the two scratch buffers, as views through which contents are stated. -/
abbrev VO0_3 : View sig .tc .vmem S1x256x256 .f32 := (Memref.whole cc0_stg3_0 : Memref sig .tc .vmem S1x256x256 .f32).view
abbrev VO0_4 : View sig .tc .vmem S1x1x256 .f32 := (Memref.whole cc0_stg4_0 : Memref sig .tc .vmem S1x1x256 .f32).view
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev scM0_0 : Memref sig .tc .vmem S1x256x256 .f32 := Memref.whole cc0_scratch0
abbrev scM0_1 : Memref sig .tc .vmem S1x1x256 .f32 := Memref.whole cc0_scratch1
abbrev VS0_0 : View sig .tc .vmem S1x256x256 .f32 := scM0_0.view
abbrev VS0_1 : View sig .tc .vmem S1x1x256 .f32 := scM0_1.view

/-- The core's scoped buffers other than this pass's staging buffers and its two accumulators, each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The class invariant with the two accumulators split out. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA; rw [scopedRest0_eq]; simp only [scM0_0, scM0_1, owns_whole]; try rfl

/-- The quadruple a point leaves: the two output blocks and the two accumulators. -/
abbrev Outs0 (F : FTy → Type) : Type := Vec F S1x256x256 .f32 × Vec F S1x1x256 .f32 × Vec F S1x256x256 .f32 × Vec F S1x1x256 .f32

/-- What a first tile leaves: each buffer's pieces read back. -/
def firstOuts0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i)
    (x0 x1 x2 : Vec F S1x2048x256 .f32) : Outs0 F :=
  (VO0_3.read (Elt F) (VO0_3.writes (Elt F) VO0_3.junk (passOneFirst c i arg2 harg2 arg3 harg3 arg4 harg4 arg5 harg5 arg6 harg6 arg7 harg7 arg8 harg8 hc x0 x1 x2).1),
   VO0_4.read (Elt F) (VO0_4.writes (Elt F) VO0_4.junk (passOneFirst c i arg2 harg2 arg3 harg3 arg4 harg4 arg5 harg5 arg6 harg6 arg7 harg7 arg8 harg8 hc x0 x1 x2).2.1),
   VS0_0.read (Elt F) (VS0_0.writes (Elt F) VS0_0.junk (passOneFirst c i arg2 harg2 arg3 harg3 arg4 harg4 arg5 harg5 arg6 harg6 arg7 harg7 arg8 harg8 hc x0 x1 x2).2.2.1),
   VS0_1.read (Elt F) (VS0_1.writes (Elt F) VS0_1.junk (passOneFirst c i arg2 harg2 arg3 harg3 arg4 harg4 arg5 harg5 arg6 harg6 arg7 harg7 arg8 harg8 hc x0 x1 x2).2.2.2.1))

/-- What a later tile leaves, from the accumulators `xs7`, `xs8` it found. -/
def laterOuts0 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i)
    (x0 x1 x2 : Vec F S1x2048x256 .f32) (xs7 : Vec F S1x256x256 .f32) (xs8 : Vec F S1x1x256 .f32) : Outs0 F :=
  (VO0_3.read (Elt F) (VO0_3.writes (Elt F) VO0_3.junk (passOneLater c i arg2 harg2 arg3 harg3 arg4 harg4 arg5 harg5 arg6 harg6 arg7 harg7 arg8 harg8 hc x0 x1 x2 xs7 xs8).1),
   VO0_4.read (Elt F) (VO0_4.writes (Elt F) VO0_4.junk (passOneLater c i arg2 harg2 arg3 harg3 arg4 harg4 arg5 harg5 arg6 harg6 arg7 harg7 arg8 harg8 hc x0 x1 x2 xs7 xs8).2.1),
   VS0_0.read (Elt F) (VS0_0.writes (Elt F) VS0_0.junk (passOneLater c i arg2 harg2 arg3 harg3 arg4 harg4 arg5 harg5 arg6 harg6 arg7 harg7 arg8 harg8 hc x0 x1 x2 xs7 xs8).2.2.1),
   VS0_1.read (Elt F) (VS0_1.writes (Elt F) VS0_1.junk (passOneLater c i arg2 harg2 arg3 harg3 arg4 harg4 arg5 harg5 arg6 harg6 arg7 harg7 arg8 harg8 hc x0 x1 x2 xs7 xs8).2.2.2.1))

/-! Every buffer is stored whole, so each list of pieces covers its buffer. -/
theorem coverF0_5 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i) (x0 x1 x2 : Vec F S1x2048x256 .f32) (y : S1x256x256.Idx) :
    ∃ pc ∈ (passOneFirst c i arg2 harg2 arg3 harg3 arg4 harg4 arg5 harg5 arg6 harg6 arg7 harg7 arg8 harg8 hc x0 x1 x2).1, y ∈ pc.1.set :=
  View.cover_of_tiledL (passOneFirst c i arg2 harg2 arg3 harg3 arg4 harg4 arg5 harg5 arg6 harg6 arg7 harg7 arg8 harg8 hc x0 x1 x2).1 S1x256x256.size (by sl_kernel_rfl) y
theorem coverF0_6 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i) (x0 x1 x2 : Vec F S1x2048x256 .f32) (y : S1x1x256.Idx) :
    ∃ pc ∈ (passOneFirst c i arg2 harg2 arg3 harg3 arg4 harg4 arg5 harg5 arg6 harg6 arg7 harg7 arg8 harg8 hc x0 x1 x2).2.1, y ∈ pc.1.set :=
  View.cover_of_tiledL (passOneFirst c i arg2 harg2 arg3 harg3 arg4 harg4 arg5 harg5 arg6 harg6 arg7 harg7 arg8 harg8 hc x0 x1 x2).2.1 S1x1x256.size (by sl_kernel_rfl) y
theorem coverF0_7 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i) (x0 x1 x2 : Vec F S1x2048x256 .f32) (y : S1x256x256.Idx) :
    ∃ pc ∈ (passOneFirst c i arg2 harg2 arg3 harg3 arg4 harg4 arg5 harg5 arg6 harg6 arg7 harg7 arg8 harg8 hc x0 x1 x2).2.2.1, y ∈ pc.1.set :=
  View.cover_of_tiledL (passOneFirst c i arg2 harg2 arg3 harg3 arg4 harg4 arg5 harg5 arg6 harg6 arg7 harg7 arg8 harg8 hc x0 x1 x2).2.2.1 S1x256x256.size (by sl_kernel_rfl) y
theorem coverF0_8 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i) (x0 x1 x2 : Vec F S1x2048x256 .f32) (y : S1x1x256.Idx) :
    ∃ pc ∈ (passOneFirst c i arg2 harg2 arg3 harg3 arg4 harg4 arg5 harg5 arg6 harg6 arg7 harg7 arg8 harg8 hc x0 x1 x2).2.2.2.1, y ∈ pc.1.set :=
  View.cover_of_tiledL (passOneFirst c i arg2 harg2 arg3 harg3 arg4 harg4 arg5 harg5 arg6 harg6 arg7 harg7 arg8 harg8 hc x0 x1 x2).2.2.2.1 S1x1x256.size (by sl_kernel_rfl) y
theorem coverL0_5 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i) (x0 x1 x2 : Vec F S1x2048x256 .f32) (xs7 : Vec F S1x256x256 .f32) (xs8 : Vec F S1x1x256 .f32) (y : S1x256x256.Idx) :
    ∃ pc ∈ (passOneLater c i arg2 harg2 arg3 harg3 arg4 harg4 arg5 harg5 arg6 harg6 arg7 harg7 arg8 harg8 hc x0 x1 x2 xs7 xs8).1, y ∈ pc.1.set :=
  View.cover_of_tiledL (passOneLater c i arg2 harg2 arg3 harg3 arg4 harg4 arg5 harg5 arg6 harg6 arg7 harg7 arg8 harg8 hc x0 x1 x2 xs7 xs8).1 S1x256x256.size (by sl_kernel_rfl) y
theorem coverL0_6 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i) (x0 x1 x2 : Vec F S1x2048x256 .f32) (xs7 : Vec F S1x256x256 .f32) (xs8 : Vec F S1x1x256 .f32) (y : S1x1x256.Idx) :
    ∃ pc ∈ (passOneLater c i arg2 harg2 arg3 harg3 arg4 harg4 arg5 harg5 arg6 harg6 arg7 harg7 arg8 harg8 hc x0 x1 x2 xs7 xs8).2.1, y ∈ pc.1.set :=
  View.cover_of_tiledL (passOneLater c i arg2 harg2 arg3 harg3 arg4 harg4 arg5 harg5 arg6 harg6 arg7 harg7 arg8 harg8 hc x0 x1 x2 xs7 xs8).2.1 S1x1x256.size (by sl_kernel_rfl) y
theorem coverL0_7 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i) (x0 x1 x2 : Vec F S1x2048x256 .f32) (xs7 : Vec F S1x256x256 .f32) (xs8 : Vec F S1x1x256 .f32) (y : S1x256x256.Idx) :
    ∃ pc ∈ (passOneLater c i arg2 harg2 arg3 harg3 arg4 harg4 arg5 harg5 arg6 harg6 arg7 harg7 arg8 harg8 hc x0 x1 x2 xs7 xs8).2.2.1, y ∈ pc.1.set :=
  View.cover_of_tiledL (passOneLater c i arg2 harg2 arg3 harg3 arg4 harg4 arg5 harg5 arg6 harg6 arg7 harg7 arg8 harg8 hc x0 x1 x2 xs7 xs8).2.2.1 S1x256x256.size (by sl_kernel_rfl) y
theorem coverL0_8 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i) (x0 x1 x2 : Vec F S1x2048x256 .f32) (xs7 : Vec F S1x256x256 .f32) (xs8 : Vec F S1x1x256 .f32) (y : S1x1x256.Idx) :
    ∃ pc ∈ (passOneLater c i arg2 harg2 arg3 harg3 arg4 harg4 arg5 harg5 arg6 harg6 arg7 harg7 arg8 harg8 hc x0 x1 x2 xs7 xs8).2.2.2.1, y ∈ pc.1.set :=
  View.cover_of_tiledL (passOneLater c i arg2 harg2 arg3 harg3 arg4 harg4 arg5 harg5 arg6 harg6 arg7 harg7 arg8 harg8 hc x0 x1 x2 xs7 xs8).2.2.2.1 S1x1x256.size (by sl_kernel_rfl) y

/-- THE ACCUMULATION: what point `n` leaves, by recursion on `n`. -/
def outsAt0 (c : Dev nD) : (n : ℕ) → n < cfg0.N → Outs0 F
  | 0, hn => firstOuts0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((firstTile0_iff ⟨0, hn⟩).mpr (Nat.zero_mod _)) (iblk0 V c 0 ⟨0, hn⟩) (iblk0 V c 1 ⟨0, hn⟩) (iblk0 V c 2 ⟨0, hn⟩)
  | n + 1, hn =>
    if h : (n + 1) % 4 = 0 then
      firstOuts0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((firstTile0_iff ⟨n + 1, hn⟩).mpr h) (iblk0 V c 0 ⟨n + 1, hn⟩) (iblk0 V c 1 ⟨n + 1, hn⟩) (iblk0 V c 2 ⟨n + 1, hn⟩)
    else
      laterOuts0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun hh => h ((firstTile0_iff ⟨n + 1, hn⟩).mp hh)) (iblk0 V c 0 ⟨n + 1, hn⟩) (iblk0 V c 1 ⟨n + 1, hn⟩) (iblk0 V c 2 ⟨n + 1, hn⟩)
        (outsAt0 c n (Nat.lt_of_succ_lt hn)).2.2.1 (outsAt0 c n (Nat.lt_of_succ_lt hn)).2.2.2

theorem outsAt0_first (c : Dev nD) (t : Fin cfg0.N) (h : t.val % 4 = 0) :
    outsAt0 V c t.val t.isLt = firstOuts0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((firstTile0_iff t).mpr h) (iblk0 V c 0 t) (iblk0 V c 1 t) (iblk0 V c 2 t) := by
  obtain ⟨n, hn⟩ := t
  cases n with
  | zero => exact rfl
  | succ n => exact (dif_pos h).trans rfl

theorem outsAt0_later (c : Dev nD) (t : Fin cfg0.N) (h : ¬t.val % 4 = 0) :
    outsAt0 V c t.val t.isLt = laterOuts0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h ((firstTile0_iff t).mp hh)) (iblk0 V c 0 t) (iblk0 V c 1 t) (iblk0 V c 2 t)
      (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact absurd (Nat.zero_mod _) h
  | succ n => exact (dif_neg h).trans rfl

/-- The region's invariant before position `n`: the class's before the first point; afterwards the two accumulators at
    what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ others0 (F := F) c) ∗ (∃ r, prngReg c r)) := by
  cases n with
  | zero => exact absurd rfl hz
  | succ n => rfl

/-- The proof data of the first pass on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 4800000 in
/-- The body at any point: the closed form of the condition says which case the point is in; the invariant hands the
    body the accumulators (at anything before the very first point, else at what the point before left) and takes them
    back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4]
  by_cases h0 : t.val % 4 = 0
  · rw [outsAt0_first V c t h0]
    unfold firstOuts0; (try dsimp only)
    by_cases hz : t.val = 0
    · rw [PhiS0_castSucc V c t, PhiS0_zero V c _ _ hz, PhiA0_eq]
      iintro ⟨⟨⟨HS7, HS8, Hoth⟩, Hg⟩, Ho, ⟨%d0, H0⟩, ⟨%d1, H1⟩, ⟨%d2, H2⟩, ⟨%d3, H3⟩, ⟨%d4, H4⟩⟩
      iapply ((passOneFirst c (grid0.coords t) _ _ _ _ _ _ _ _ _ _ _ _ _ _ ((firstTile0_iff t).mpr h0) (iblk0 V c 0 t) (iblk0 V c 1 t) (iblk0 V c 2 t)).2.2.2.2 Set.univ _)
      isplitl [H0]; · iexact H0
      isplitl [H1]; · iexact H1
      isplitl [H2]; · iexact H2
      isplitl [H3]; · iexists _; iexact H3
      isplitl [H4]; · iexists _; iexact H4
      isplitl [HS7]; · iexact HS7
      isplitl [HS8]; · iexact HS8
      iintro ⟨H0, H1, H2, ⟨%e3, H3⟩, ⟨%e4, H4⟩, ⟨%e7, HS7⟩, ⟨%e8, HS8⟩⟩
      isplitl [HS7 HS8 Hoth Hg]
      · isplitr [Hg]
        · isplitl [HS7]
          · unfold owns; iexists _; isplitr
            swap; · iexact HS7
            ipureintro; exact View.read_writes_of_cover _ _ _ _ _ (coverF0_7 c _ _ _ _ _ _ _ _ _ _ _ _ _ _ _ _ _ _ _)
          isplitl [HS8]
          · unfold owns; iexists _; isplitr
            swap; · iexact HS8
            ipureintro; exact View.read_writes_of_cover _ _ _ _ _ (coverF0_8 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverF0_5 c _ _ _ _ _ _ _ _ _ _ _ _ _ _ _ _ _ _ _)
      unfold owns; iexists _; isplitr
      swap; · iexact H4
      ipureintro; exact View.read_writes_of_cover _ _ _ _ _ (coverF0_6 c _ _ _ _ _ _ _ _ _ _ _ _ _ _ _ _ _ _ _)
    · rw [PhiS0_castSucc V c t, PhiS0_pos V c _ _ hz]
      iintro ⟨⟨⟨HS7, HS8, Hoth⟩, Hg⟩, Ho, ⟨%d0, H0⟩, ⟨%d1, H1⟩, ⟨%d2, H2⟩, ⟨%d3, H3⟩, ⟨%d4, H4⟩⟩
      iapply ((passOneFirst c (grid0.coords t) _ _ _ _ _ _ _ _ _ _ _ _ _ _ ((firstTile0_iff t).mpr h0) (iblk0 V c 0 t) (iblk0 V c 1 t) (iblk0 V c 2 t)).2.2.2.2 Set.univ _)
      isplitl [H0]; · iexact H0
      isplitl [H1]; · iexact H1
      isplitl [H2]; · iexact H2
      isplitl [H3]; · iexists _; iexact H3
      isplitl [H4]; · iexists _; iexact H4
      isplitl [HS7]; · iexists _; iexact HS7
      isplitl [HS8]; · iexists _; iexact HS8
      iintro ⟨H0, H1, H2, ⟨%e3, H3⟩, ⟨%e4, H4⟩, ⟨%e7, HS7⟩, ⟨%e8, HS8⟩⟩
      isplitl [HS7 HS8 Hoth Hg]
      · isplitr [Hg]
        · isplitl [HS7]
          · unfold owns; iexists _; isplitr
            swap; · iexact HS7
            ipureintro; exact View.read_writes_of_cover _ _ _ _ _ (coverF0_7 c _ _ _ _ _ _ _ _ _ _ _ _ _ _ _ _ _ _ _)
          isplitl [HS8]
          · unfold owns; iexists _; isplitr
            swap; · iexact HS8
            ipureintro; exact View.read_writes_of_cover _ _ _ _ _ (coverF0_8 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverF0_5 c _ _ _ _ _ _ _ _ _ _ _ _ _ _ _ _ _ _ _)
      unfold owns; iexists _; isplitr
      swap; · iexact H4
      ipureintro; exact View.read_writes_of_cover _ _ _ _ _ (coverF0_6 c _ _ _ _ _ _ _ _ _ _ _ _ _ _ _ _ _ _ _)
  · rw [outsAt0_later V c t h0]
    unfold laterOuts0; (try dsimp only)
    have hz : t.val ≠ 0 := fun e => h0 (by rw [e])
    rw [PhiS0_castSucc V c t, PhiS0_pos V c _ _ hz]
    iintro ⟨⟨⟨HS7, HS8, Hoth⟩, Hg⟩, Ho, ⟨%d0, H0⟩, ⟨%d1, H1⟩, ⟨%d2, H2⟩, ⟨%d3, H3⟩, ⟨%d4, H4⟩⟩
    iapply ((passOneLater c (grid0.coords t) _ _ _ _ _ _ _ _ _ _ _ _ _ _ (fun hh => h0 ((firstTile0_iff t).mp hh)) (iblk0 V c 0 t) (iblk0 V c 1 t) (iblk0 V c 2 t) _ _).2.2.2.2 Set.univ _)
    isplitl [H0]; · iexact H0
    isplitl [H1]; · iexact H1
    isplitl [H2]; · iexact H2
    isplitl [H3]; · iexists _; iexact H3
    isplitl [H4]; · iexists _; iexact H4
    isplitl [HS7]; · iexact HS7
    isplitl [HS8]; · iexact HS8
    iintro ⟨H0, H1, H2, ⟨%e3, H3⟩, ⟨%e4, H4⟩, ⟨%e7, HS7⟩, ⟨%e8, HS8⟩⟩
    isplitl [HS7 HS8 Hoth Hg]
    · isplitr [Hg]
      · isplitl [HS7]
        · unfold owns; iexists _; isplitr
          swap; · iexact HS7
          ipureintro; exact View.read_writes_of_cover _ _ _ _ _ (coverL0_7 c _ _ _ _ _ _ _ _ _ _ _ _ _ _ _ _ _ _ _ _ _)
        isplitl [HS8]
        · unfold owns; iexists _; isplitr
          swap; · iexact HS8
          ipureintro; exact View.read_writes_of_cover _ _ _ _ _ (coverL0_8 c _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverL0_5 c _ _ _ _ _ _ _ _ _ _ _ _ _ _ _ _ _ _ _ _ _)
    unfold owns; iexists _; isplitr
    swap; · iexact H4
    ipureintro; exact View.read_writes_of_cover _ _ _ _ _ (coverL0_6 c _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS7, HS8, Hoth⟩, Hg⟩
  isplitr [Hg]
  · isplitl [HS7]; · iexists _; iexact HS7
    isplitl [HS8]; · iexists _; iexact HS8
    iexact Hoth
  iexact Hg

end

end Cert.KernelIdeal.Passes

end
-- ==== Proof.Ideal.PassTwoRun.lean ====
/-
  The second pass's body, run once per case of its one branch.

  The body keeps one accumulator in scratch memory, a [1, 1, 256] row: the sum over the rows seen so far of
  `exp (exp Q / denom)`. On the first tile of a batch it overwrites the accumulator with zeros before adding the tile's
  column sums; on a later tile it adds to what the tile before left; either way it copies the accumulator into the
  output block. Each run says: from the tile of `Q` and the row of denominators at given contents (and, on a later
  tile, the accumulator at given contents) the body terminates, the inputs untouched, the output block and the
  accumulator holding the list of pieces its stores wrote, last store first.
-/
import proofs.«139639_j23854248362901_1_alg».proof.Proof.Gen.KernelIdeal.Launch
import proofs.«139639_j23854248362901_1_alg».proof.Proof.Gen.KernelIdeal.Skeleton
import proofs.«139639_j23854248362901_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the tile coordinate is zero. -/
abbrev firstTile1 (i : grid1.Coords) : Prop :=
  (Scalar.cmpi .ne (Scalar.extui (Scalar.cmpi .eq (BitVec.ofNat 32 (i 1).val) 0#32)) 0#32) = 1#1

/-- Over the grid of 8 batches by 4 tiles walked batch-major, it holds exactly at the points divisible by 4. -/
theorem firstTile1_iff : ∀ t : Fin cfg1.N, firstTile1 (grid1.coords t) ↔ t.val % 4 = 0 :=
  (by decide +kernel : ∀ t : Fin grid1.N, firstTile1 (grid1.coords t) ↔ t.val % 4 = 0)

set_option maxHeartbeats 1000000 in
/-- The first tile of a batch: the accumulator is found at anything, zeroed, and added to. -/
noncomputable def passTwoFirst (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : firstTile1 i)
    (x0 : Vec F S1x2048x256 .f32) (x1 : Vec F S1x1x256 .f32) :
    Σ' (L4 : List (View.Piece (Elt F) S1x1x256 .f32)), { LS5 : List (View.Piece (Elt F) S1x1x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f LS5)) -∗ K ⟨⟩))
          ⊢ wp frame (wpE (defs₀ (F := F)) Variants.none c none) E (cc1__pass2_kernel i arg2 harg2 arg3 harg3 arg4 harg4 arg5 harg5) K } := by
  refine ⟨?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    iexists _; iexact H5

set_option maxHeartbeats 1000000 in
/-- A later tile: the accumulator is found at what the tile before left (`xs5`) and added to. -/
noncomputable def passTwoLater (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : ¬firstTile1 i)
    (x0 : Vec F S1x2048x256 .f32) (x1 : Vec F S1x1x256 .f32) (xs5 : Vec F S1x1x256 .f32) :
    Σ' (L4 : List (View.Piece (Elt F) S1x1x256 .f32)), { LS5 : List (View.Piece (Elt F) S1x1x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs5
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f LS5)) -∗ K ⟨⟩))
          ⊢ wp frame (wpE (defs₀ (F := F)) Variants.none c none) E (cc1__pass2_kernel i arg2 harg2 arg3 harg3 arg4 harg4 arg5 harg5) K } := by
  refine ⟨?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%d4, %f4, -, H4⟩, ⟨%f5, %hf5, H5⟩, Hk⟩
    obtain rfl := harg2.eq_unread hf0; obtain rfl := harg3.eq_unread hf1; obtain rfl := harg5.eq_unread hf5
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    iexists _; iexact H5

end Cert.KernelIdeal.Passes

end
-- ==== Proof.Ideal.PassTwo.lean ====
/-
  The second pass as a pipeline: what each point of its grid leaves behind.

  The grid is 8 batches by 4 tiles, batch-major. The accumulator (the running sum of the weights' columns) lives in
  scratch memory across the four tiles of a batch; the output block is a copy of it, written back after the last
  tile of each batch only. `outsAt1` is the pair (output block, accumulator) after point `n`, by recursion on `n`;
  the region's invariant (`PhiS1`) says the accumulator holds exactly that between two points.
-/
import proofs.«139639_j23854248362901_1_alg».proof.Proof.Gen.KernelIdeal.Launch
import proofs.«139639_j23854248362901_1_alg».proof.Proof.Gen.KernelIdeal.Skeleton
import proofs.«139639_j23854248362901_1_alg».proof.Proof.Gen.KernelIdeal.Points
import proofs.«139639_j23854248362901_1_alg».proof.Proof.Ideal.PassTwoRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S1x1x256 .f32 := (Memref.whole cc1_stg2_0 : Memref sig .tc .vmem S1x1x256 .f32).view
abbrev ms1_0 (t : Fin cfg1.N) : Memref sig .tc .vmem S1x2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x256 .f32 := win1_2.stage (cfg1.slots t 2)
abbrev hs1_2 (t : Fin cfg1.N) : (ms1_2 t).IsWhole := hstage1_2 ((cfg1.slots t 2).cast nbuf1_2)
abbrev scM1_0 : Memref sig .tc .vmem S1x1x256 .f32 := Memref.whole cc1_scratch0
abbrev VS1_0 : View sig .tc .vmem S1x1x256 .f32 := scM1_0.view

/-- The core's scoped buffers other than this pass's staging buffers and its accumulator, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The scoped buffers that are no staging buffer of this pass, the accumulator listed first. -/
theorem scopedRest1_acc_first (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f)) :=
  Pipeline.scopedRest_eq_of_list spec1 c [cc1_scratch0, cc0_stg0_0, cc0_stg0_1, cc0_stg1_0, cc0_stg1_1, cc0_stg2_0, cc0_stg2_1, cc0_stg3_0, cc0_stg3_1, cc0_stg4_0, cc0_stg4_1, cc0_scratch0, cc0_scratch1, cc2_stg0_0, cc2_stg0_1, cc2_stg1_0, cc2_stg1_1, cc2_stg2_0, cc2_stg2_1, cc2_stg3_0, cc2_stg3_1, cc2_stg4_0, cc2_stg4_1] (by decide) (by decide)

/-- The class invariant with the accumulator split out. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA; rw [scopedRest1_acc_first]; simp only [scM1_0, owns_whole]; try rfl

/-- The pair a point leaves: the output block and the accumulator. -/
abbrev Outs1 (F : FTy → Type) : Type := Vec F S1x1x256 .f32 × Vec F S1x1x256 .f32

def firstOuts1 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : firstTile1 i)
    (x0 : Vec F S1x2048x256 .f32) (x1 : Vec F S1x1x256 .f32) : Outs1 F :=
  (VO1_2.read (Elt F) (VO1_2.writes (Elt F) VO1_2.junk (passTwoFirst c i arg2 harg2 arg3 harg3 arg4 harg4 arg5 harg5 hc x0 x1).1),
   VS1_0.read (Elt F) (VS1_0.writes (Elt F) VS1_0.junk (passTwoFirst c i arg2 harg2 arg3 harg3 arg4 harg4 arg5 harg5 hc x0 x1).2.1))

def laterOuts1 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : ¬firstTile1 i)
    (x0 : Vec F S1x2048x256 .f32) (x1 : Vec F S1x1x256 .f32) (xs5 : Vec F S1x1x256 .f32) : Outs1 F :=
  (VO1_2.read (Elt F) (VO1_2.writes (Elt F) VO1_2.junk (passTwoLater c i arg2 harg2 arg3 harg3 arg4 harg4 arg5 harg5 hc x0 x1 xs5).1),
   VS1_0.read (Elt F) (VS1_0.writes (Elt F) VS1_0.junk (passTwoLater c i arg2 harg2 arg3 harg3 arg4 harg4 arg5 harg5 hc x0 x1 xs5).2.1))

/-! Every buffer is stored whole, so each list of pieces covers its buffer. -/
theorem coverF1_4 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : firstTile1 i) (x0 : Vec F S1x2048x256 .f32) (x1 : Vec F S1x1x256 .f32) (y : S1x1x256.Idx) :
    ∃ pc ∈ (passTwoFirst c i arg2 harg2 arg3 harg3 arg4 harg4 arg5 harg5 hc x0 x1).1, y ∈ pc.1.set :=
  View.cover_of_tiledL (passTwoFirst c i arg2 harg2 arg3 harg3 arg4 harg4 arg5 harg5 hc x0 x1).1 S1x1x256.size (by sl_kernel_rfl) y
theorem coverF1_5 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : firstTile1 i) (x0 : Vec F S1x2048x256 .f32) (x1 : Vec F S1x1x256 .f32) (y : S1x1x256.Idx) :
    ∃ pc ∈ (passTwoFirst c i arg2 harg2 arg3 harg3 arg4 harg4 arg5 harg5 hc x0 x1).2.1, y ∈ pc.1.set :=
  View.cover_of_tiledL (passTwoFirst c i arg2 harg2 arg3 harg3 arg4 harg4 arg5 harg5 hc x0 x1).2.1 S1x1x256.size (by sl_kernel_rfl) y
theorem coverL1_4 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : ¬firstTile1 i) (x0 : Vec F S1x2048x256 .f32) (x1 : Vec F S1x1x256 .f32) (xs5 : Vec F S1x1x256 .f32) (y : S1x1x256.Idx) :
    ∃ pc ∈ (passTwoLater c i arg2 harg2 arg3 harg3 arg4 harg4 arg5 harg5 hc x0 x1 xs5).1, y ∈ pc.1.set :=
  View.cover_of_tiledL (passTwoLater c i arg2 harg2 arg3 harg3 arg4 harg4 arg5 harg5 hc x0 x1 xs5).1 S1x1x256.size (by sl_kernel_rfl) y
theorem coverL1_5 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : ¬firstTile1 i) (x0 : Vec F S1x2048x256 .f32) (x1 : Vec F S1x1x256 .f32) (xs5 : Vec F S1x1x256 .f32) (y : S1x1x256.Idx) :
    ∃ pc ∈ (passTwoLater c i arg2 harg2 arg3 harg3 arg4 harg4 arg5 harg5 hc x0 x1 xs5).2.1, y ∈ pc.1.set :=
  View.cover_of_tiledL (passTwoLater c i arg2 harg2 arg3 harg3 arg4 harg4 arg5 harg5 hc x0 x1 xs5).2.1 S1x1x256.size (by sl_kernel_rfl) y

/-- THE ACCUMULATION: what point `n` leaves, by recursion on `n`. -/
def outsAt1 (c : Dev nD) : (n : ℕ) → n < cfg1.N → Outs1 F
  | 0, hn => firstOuts1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((firstTile1_iff ⟨0, hn⟩).mpr (Nat.zero_mod _)) (iblk1 V c 0 ⟨0, hn⟩) (iblk1 V c 1 ⟨0, hn⟩)
  | n + 1, hn =>
    if h : (n + 1) % 4 = 0 then
      firstOuts1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((firstTile1_iff ⟨n + 1, hn⟩).mpr h) (iblk1 V c 0 ⟨n + 1, hn⟩) (iblk1 V c 1 ⟨n + 1, hn⟩)
    else
      laterOuts1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun hh => h ((firstTile1_iff ⟨n + 1, hn⟩).mp hh)) (iblk1 V c 0 ⟨n + 1, hn⟩) (iblk1 V c 1 ⟨n + 1, hn⟩)
        (outsAt1 c n (Nat.lt_of_succ_lt hn)).2

theorem outsAt1_first (c : Dev nD) (t : Fin cfg1.N) (h : t.val % 4 = 0) :
    outsAt1 V c t.val t.isLt = firstOuts1 c (grid1.coords t) (ms1_0 t) (hs1_0 t) (ms1_1 t) (hs1_1 t) (ms1_2 t) (hs1_2 t) scM1_0 (Memref.isWhole_whole _) ((firstTile1_iff t).mpr h) (iblk1 V c 0 t) (iblk1 V c 1 t) := by
  obtain ⟨n, hn⟩ := t
  cases n with
  | zero => exact rfl
  | succ n => exact (dif_pos h).trans rfl

theorem outsAt1_later (c : Dev nD) (t : Fin cfg1.N) (h : ¬t.val % 4 = 0) :
    outsAt1 V c t.val t.isLt = laterOuts1 c (grid1.coords t) (ms1_0 t) (hs1_0 t) (ms1_1 t) (hs1_1 t) (ms1_2 t) (hs1_2 t) scM1_0 (Memref.isWhole_whole _) (fun hh => h ((firstTile1_iff t).mp hh)) (iblk1 V c 0 t) (iblk1 V c 1 t)
      (outsAt1 V c (t.val - 1) (Nat.lt_of_le_of_lt (Nat.sub_le _ _) t.isLt)).2 := by
  obtain ⟨n, hn⟩ := t
  cases n with
  | zero => exact absurd (Nat.zero_mod _) h
  | succ n => exact (dif_neg h).trans rfl

/-- The region's invariant before position `n`. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-- The proof data of the second pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4800000 in
/-- The body at any point, by the case the closed form of the condition selects. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  by_cases h0 : t.val % 4 = 0
  · rw [outsAt1_first V c t h0]
    unfold firstOuts1; (try dsimp only)
    by_cases hz : t.val = 0
    · rw [PhiS1_castSucc V c t, PhiS1_zero V c _ _ hz, PhiA1_eq]
      iintro ⟨⟨⟨HS5, Hoth⟩, Hg⟩, Ho, ⟨%d0, H0⟩, ⟨%d1, H1⟩, ⟨%d2, H2⟩⟩
      iapply ((passTwoFirst c (grid1.coords t) _ _ _ _ _ _ _ _ ((firstTile1_iff t).mpr h0) (iblk1 V c 0 t) (iblk1 V c 1 t)).2.2 Set.univ _)
      isplitl [H0]; · iexact H0
      isplitl [H1]; · iexact H1
      isplitl [H2]; · iexists _; iexact H2
      isplitl [HS5]; · iexact HS5
      iintro ⟨H0, H1, ⟨%e2, H2⟩, ⟨%e5, HS5⟩⟩
      isplitl [HS5 Hoth Hg]
      · isplitr [Hg]
        · isplitl [HS5]
          · unfold owns; iexists _; isplitr
            swap; · iexact HS5
            ipureintro; exact View.read_writes_of_cover _ _ _ _ _ (coverF1_5 c _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverF1_4 c _ _ _ _ _ _ _ _ _ _ _ _)
    · rw [PhiS1_castSucc V c t, PhiS1_pos V c _ _ hz]
      iintro ⟨⟨⟨HS5, Hoth⟩, Hg⟩, Ho, ⟨%d0, H0⟩, ⟨%d1, H1⟩, ⟨%d2, H2⟩⟩
      iapply ((passTwoFirst c (grid1.coords t) _ _ _ _ _ _ _ _ ((firstTile1_iff t).mpr h0) (iblk1 V c 0 t) (iblk1 V c 1 t)).2.2 Set.univ _)
      isplitl [H0]; · iexact H0
      isplitl [H1]; · iexact H1
      isplitl [H2]; · iexists _; iexact H2
      isplitl [HS5]; · iexists _; iexact HS5
      iintro ⟨H0, H1, ⟨%e2, H2⟩, ⟨%e5, HS5⟩⟩
      isplitl [HS5 Hoth Hg]
      · isplitr [Hg]
        · isplitl [HS5]
          · unfold owns; iexists _; isplitr
            swap; · iexact HS5
            ipureintro; exact View.read_writes_of_cover _ _ _ _ _ (coverF1_5 c _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverF1_4 c _ _ _ _ _ _ _ _ _ _ _ _)
  · rw [outsAt1_later V c t h0]
    unfold laterOuts1; (try dsimp only)
    have hz : t.val ≠ 0 := fun e => h0 (by rw [e])
    rw [PhiS1_castSucc V c t, PhiS1_pos V c _ _ hz]
    iintro ⟨⟨⟨HS5, Hoth⟩, Hg⟩, Ho, ⟨%d0, H0⟩, ⟨%d1, H1⟩, ⟨%d2, H2⟩⟩
    iapply ((passTwoLater c (grid1.coords t) _ _ _ _ _ _ _ _ (fun hh => h0 ((firstTile1_iff t).mp hh)) (iblk1 V c 0 t) (iblk1 V c 1 t) _).2.2 Set.univ _)
    isplitl [H0]; · iexact H0
    isplitl [H1]; · iexact H1
    isplitl [H2]; · iexists _; iexact H2
    isplitl [HS5]; · iexact HS5
    iintro ⟨H0, H1, ⟨%e2, H2⟩, ⟨%e5, HS5⟩⟩
    isplitl [HS5 Hoth Hg]
    · isplitr [Hg]
      · isplitl [HS5]
        · unfold owns; iexists _; isplitr
          swap; · iexact HS5
          ipureintro; exact View.read_writes_of_cover _ _ _ _ _ (coverL1_5 c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverL1_4 c _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS5, Hoth⟩, Hg⟩
  isplitr [Hg]
  · isplitl [HS5]; · iexists _; iexact HS5
    iexact Hoth
  iexact Hg

end

end Cert.KernelIdeal.Passes

end
-- ==== Proof.Ideal.PassThree.lean ====
/-
  The third pass: its body and what each point of its grid leaves behind.

  The body keeps nothing between points. From the tile of `Q`, the row of denominators, the row of weight sums and the
  batch's [256, 256] block of scaled `Kᵀ V` it computes the tile of the result — each row's normalised weights times
  the block — and stores it whole into the output block, which is written back at every point.
-/
import proofs.«139639_j23854248362901_1_alg».proof.Proof.Gen.KernelIdeal.Launch
import proofs.«139639_j23854248362901_1_alg».proof.Proof.Gen.KernelIdeal.Skeleton
import proofs.«139639_j23854248362901_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body: from the four input blocks at given contents it terminates, the inputs untouched, the output block
    holding the pieces its one store wrote. -/
noncomputable def passThreeRun (c : Dev nD) (i : grid2.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x2048x256 .f32) (harg6 : arg6.IsWhole) (x0 : Vec F S1x2048x256 .f32) (x1 x2 : Vec F S1x1x256 .f32) (x3 : Vec F S1x256x256 .f32) :
    { L6 : List (View.Piece (Elt F) S1x2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L6)) -∗ K ⟨⟩))
          ⊢ wp frame (wpE (defs₀ (F := F)) Variants.none c none) E (cc2__pass3_kernel i arg2 harg2 arg3 harg3 arg4 harg4 arg5 harg5 arg6 harg6) K } := by
  refine ⟨?_, fun E K => ?run⟩
  case run =>
    simp only [cc2__pass3_kernel_eq_skeleton]; unfold cc2__pass3_kernel_skel
    unfold owns
    iintro ⟨⟨%f0, %hf0, H0⟩, ⟨%f1, %hf1, H1⟩, ⟨%f2, %hf2, H2⟩, ⟨%f3, %hf3, H3⟩, ⟨%d6, %f6, -, H6⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H6

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window whose block
    index does not move between two points is not fetched again, and still holds the block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev VO2_4 : View sig .tc .vmem S1x2048x256 .f32 := (Memref.whole cc2_stg4_0 : Memref sig .tc .vmem S1x2048x256 .f32).view
abbrev ms2_0 (t : Fin cfg2.N) : Memref sig .tc .vmem S1x2048x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048x256 .f32 := win2_4.stage (cfg2.slots t 4)
abbrev hs2_4 (t : Fin cfg2.N) : (ms2_4 t).IsWhole := hstage2_4 ((cfg2.slots t 4).cast nbuf2_4)

/-- What the body leaves in the output block: its pieces read back. -/
def out2_4 (c : Dev nD) (i : grid2.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x2048x256 .f32) (harg6 : arg6.IsWhole) (x0 : Vec F S1x2048x256 .f32) (x1 x2 : Vec F S1x1x256 .f32) (x3 : Vec F S1x256x256 .f32) : Vec F S1x2048x256 .f32 :=
  VO2_4.read (Elt F) (VO2_4.writes (Elt F) VO2_4.junk (passThreeRun c i arg2 harg2 arg3 harg3 arg4 harg4 arg5 harg5 arg6 harg6 x0 x1 x2 x3).1)

/-- The one store is whole, so its piece covers the block. -/
theorem cover2_4 (c : Dev nD) (i : grid2.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x2048x256 .f32) (harg6 : arg6.IsWhole) (x0 : Vec F S1x2048x256 .f32) (x1 x2 : Vec F S1x1x256 .f32) (x3 : Vec F S1x256x256 .f32) (y : S1x2048x256.Idx) :
    ∃ pc ∈ (passThreeRun c i arg2 harg2 arg3 harg3 arg4 harg4 arg5 harg5 arg6 harg6 x0 x1 x2 x3).1, y ∈ pc.1.set :=
  View.cover_of_tiledL (passThreeRun c i arg2 harg2 arg3 harg3 arg4 harg4 arg5 harg5 arg6 harg6 x0 x1 x2 x3).1 S1x2048x256.size (by sl_kernel_rfl) y

/-- The proof data of the third pass on core `c`: the class's invariant, untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 2000000 in
/-- The body at any point: the inputs' buffers hold their blocks, so the run applies; the invariant passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  unfold out2_4
  iintro ⟨HΦ, Ho, ⟨%d0, H0⟩, ⟨%d1, H1⟩, ⟨%d2, H2⟩, ⟨%d3, H3⟩, ⟨%d4, H4⟩⟩
  iapply ((passThreeRun c (grid2.coords t) _ _ _ _ _ _ _ _ _ _ (iblk2 V c 0 t) (iblk2 V c 1 t) (iblk2 V c 2 t) (iblk2 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_4 c _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

end

end Cert.KernelIdeal.Passes

end
-- ==== Proof.Ideal.Run.lean ====
/-
  The whole run: @main is the first pass, three host operations (the constant 1, its broadcast, and the sum with the first
  pass's second result), the second pass, the third pass. The contents of every unscoped buffer are folded through these
  four items (`W0` … `W4`): a pass replaces its arrays by what its write-backs leave and keeps every other buffer, the
  host operations apply their functions. Every weakly fair execution terminates with every unscoped buffer at the
  last fold `W4`; the arguments read back through the fold are the launch contents, and the result buffer is the third
  pass's output array.
-/
import proofs.«139639_j23854248362901_1_alg».proof.Proof.Ideal.PassOne
import proofs.«139639_j23854248362901_1_alg».proof.Proof.Ideal.PassTwo
import proofs.«139639_j23854248362901_1_alg».proof.Proof.Ideal.PassThree
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first pass's entry). -/
abbrev W0 : Dev nD → Valuation τ sig (Elt F) := fun c b => (s₀ m ρ).mem ((c : Dev nD), b)
abbrev VV0 : (c : Dev nD) → (b : Ref sig .tc) → Buf (Elt F) ((c : Thread nD τ).loc b) := fun c b => W0 m ρ c b

/-- At pass 1's exit: its arrays at what the pipeline leaves (an input as entered, an output's write-backs folded), every
    other buffer as entered. -/
def W1 (c : Dev nD) : Valuation τ sig (Elt F) :=
  Pipeline.withArrays spec0 c (W0 m ρ c) fun w => (dat0 (VV0 m ρ) c).arrAt w cfg0.N
theorem W1_arr (c : Dev nD) (w : Fin cfg0.W) :
    W1 m ρ c (Proc.devRef .tc (Pipeline.arrRef spec0 w)) = (dat0 (VV0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev VV1 : (c : Dev nD) → (b : Ref sig .tc) → Buf (Elt F) ((c : Thread nD τ).loc b) := fun c b => W1 m ρ c b
theorem hF0 (c : Dev nD) (w : Fin cfg0.W) : (dat0 (VV0 m ρ) c).arrAt w cfg0.N = VV1 m ρ c (Pipeline.arrRef spec0 w) :=
  (W1_arr m ρ c w).symm
theorem hrest0 (c : Dev nD) : ∀ b, b ∉ Finset.univ.image (Pipeline.arrRef spec0) → VV1 m ρ c b = VV0 m ρ c b :=
  fun b hb => W1_of_ne m ρ c b fun w e => hb (Finset.mem_image.mpr ⟨w, Finset.mem_univ _, e⟩)

/-- After the three host operations (the second pass's entry). -/
abbrev W2 : Dev nD → Valuation τ sig (Elt F) := fun c => StableHlo.after hostOps1 (W1 m ρ c)
abbrev VV2 : (c : Dev nD) → (b : Ref sig .tc) → Buf (Elt F) ((c : Thread nD τ).loc b) := fun c b => W2 m ρ c b

/-- At pass 2's exit: its arrays at what the pipeline leaves (an input as entered, an output's write-backs folded), every
    other buffer as entered. -/
def W3 (c : Dev nD) : Valuation τ sig (Elt F) :=
  Pipeline.withArrays spec1 c (W2 m ρ c) fun w => (dat1 (VV2 m ρ) c).arrAt w cfg1.N
theorem W3_arr (c : Dev nD) (w : Fin cfg1.W) :
    W3 m ρ c (Proc.devRef .tc (Pipeline.arrRef spec1 w)) = (dat1 (VV2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev VV3 : (c : Dev nD) → (b : Ref sig .tc) → Buf (Elt F) ((c : Thread nD τ).loc b) := fun c b => W3 m ρ c b
theorem hF1 (c : Dev nD) (w : Fin cfg1.W) : (dat1 (VV2 m ρ) c).arrAt w cfg1.N = VV3 m ρ c (Pipeline.arrRef spec1 w) :=
  (W3_arr m ρ c w).symm
theorem hrest1 (c : Dev nD) : ∀ b, b ∉ Finset.univ.image (Pipeline.arrRef spec1) → VV3 m ρ c b = VV2 m ρ c b :=
  fun b hb => W3_of_ne m ρ c b fun w e => hb (Finset.mem_image.mpr ⟨w, Finset.mem_univ _, e⟩)

/-- At pass 3's exit: its arrays at what the pipeline leaves (an input as entered, an output's write-backs folded), every
    other buffer as entered. -/
def W4 (c : Dev nD) : Valuation τ sig (Elt F) :=
  Pipeline.withArrays spec2 c (W3 m ρ c) fun w => (dat2 (VV3 m ρ) c).arrAt w cfg2.N
theorem W4_arr (c : Dev nD) (w : Fin cfg2.W) :
    W4 m ρ c (Proc.devRef .tc (Pipeline.arrRef spec2 w)) = (dat2 (VV3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev VV4 : (c : Dev nD) → (b : Ref sig .tc) → Buf (Elt F) ((c : Thread nD τ).loc b) := fun c b => W4 m ρ c b
theorem hF2 (c : Dev nD) (w : Fin cfg2.W) : (dat2 (VV3 m ρ) c).arrAt w cfg2.N = VV4 m ρ c (Pipeline.arrRef spec2 w) :=
  (W4_arr m ρ c w).symm
theorem hrest2 (c : Dev nD) : ∀ b, b ∉ Finset.univ.image (Pipeline.arrRef spec2) → VV4 m ρ c b = VV3 m ρ c b :=
  fun b hb => W4_of_ne m ρ c b fun w e => hb (Finset.mem_image.mpr ⟨w, Finset.mem_univ _, e⟩)

/-! ## The arguments end as launched: every pass only reads them, no host operation writes them -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg0) := (W1_arr m ρ c 0).trans (((dat0 (VV0 m ρ) c).arrAt_in 0 rfl _).trans (A_eq0 (VV0 m ρ) c 0))
    _ = m ((c : Thread nD τ).loc main_arg0) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg2) := (W1_arr m ρ c 1).trans (((dat0 (VV0 m ρ) c).arrAt_in 1 rfl _).trans (A_eq0 (VV0 m ρ) c 1))
    _ = m ((c : Thread nD τ).loc main_arg2) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg1) := (W1_arr m ρ c 2).trans (((dat0 (VV0 m ρ) c).arrAt_in 2 rfl _).trans (A_eq0 (VV0 m ρ) c 2))
    _ = m ((c : Thread nD τ).loc main_arg1) := rfl

theorem W3_main_arg1 (c : Dev nD) : W3 m ρ c (Proc.devRef .tc main_arg1) = m ((c : Thread nD τ).loc main_arg1) :=
  ((W3_arr m ρ c 0).trans (((dat1 (VV2 m ρ) c).arrAt_in 0 rfl _).trans (A_eq1 (VV2 m ρ) c 0))).trans (W2_main_arg1 m ρ c)

theorem W4_main_arg1 (c : Dev nD) : W4 m ρ c (Proc.devRef .tc main_arg1) = m ((c : Thread nD τ).loc main_arg1) :=
  ((W4_arr m ρ c 0).trans (((dat2 (VV3 m ρ) c).arrAt_in 0 rfl _).trans (A_eq2 (VV3 m ρ) c 0))).trans (W3_main_arg1 m ρ c)

/-- The result buffer ends at the third pass's output array after its last write-back. -/
theorem W4_main_v4 (c : Dev nD) : W4 m ρ c (Proc.devRef .tc main_v4) = (dat2 (VV3 m ρ) c).arrAt 4 cfg2.N :=
  W4_arr m ρ c 4

/-! ## The proof data family and the thread state -/

/-- No pass has a prefetched table. -/
abbrev adm : (p : Fin 3) → (pcfgs (F := F) p).Adm := fun p => (cfgs p).toPCfg_adm
/-- Every pass's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VV0 m ρ) c
  | ⟨1, _⟩ => fun c => dat1 (VV2 m ρ) c
  | ⟨2, _⟩ => fun c => dat2 (VV3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- None of the three host operations allocates a buffer. -/
theorem hostOps1_noalloc : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The passes as segments -/

-- a library lemma stated over the pinned configuration unifies with the printed one only when unification may unfold
-- plain definitions in a metavariable's type
set_option backward.isDefEq.respectTransparency.types false in
/-- Pass 1 as a segment of @main: entered with every unscoped buffer at `W0`, left with them at `W1`. Its
    arrays are split out of the unscoped buffers and put back at their final contents; the generator register goes into
    the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VV0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VV0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (hout0 (VV0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VV0 m ρ c) (VV1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 2 as a segment of @main: entered with every unscoped buffer at `W2`, left with them at `W3`. Its
    arrays are split out of the unscoped buffers and put back at their final contents; the generator register goes into
    the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VV2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VV2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (hout1 (VV2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VV2 m ρ c) (VV3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 3 as a segment of @main: entered with every unscoped buffer at `W3`, left with them at `W4`. Its
    arrays are split out of the unscoped buffers and put back at their final contents; the generator register goes into
    the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VV3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VV3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VV3 m ρ c) (VV4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_noalloc (W1 m ρ)),
    .region (reg1 m ρ),
    .region (reg2 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last fold `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- THE RUN WITH ITS RESULT NAMED: the result buffer ends at the third pass's output array, the arguments as launched. -/
theorem run_value : θ_run defs (onTc (τ := τ) (main (F := F))) ⟨m, fun _ => 0, ρ⟩ (fun r => ∀ c : Dev nD,
      r.2.mem ((c.tc : Thread nD τ).loc main_v4) = (dat2 (VV3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v4 (by decide))).trans (W4_main_v4 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Passes

end
-- ==== Proof.Spec.lean ====
/-
  The value both programs compute, written the way the kernel's three passes arrange it.

  Inputs are three arrays `K`, `Q`, `V` of shape [8, 8192, 256] over the extended reals. The sequence axis of
  8192 rows is walked in four tiles of 2048 rows: row `2048 t + s` is row `s` of tile `t`.

    scores[b, d, e] = Σ_t (Σ_s K[b, 2048 t + s, d] · V[b, 2048 t + s, e]) · c      (c the word 0x3D800000, i.e. 1/16)
    sumeq [b, d]    = Σ_t Σ_s exp Q[b, 2048 t + s, d]
    denom [b, d]    = 1 + sumeq[b, d]                                                 (1 the word 0x3F800000)
    w[b, r, d]      = exp (exp Q[b, r, d] / denom[b, d])
    L[b, d]         = Σ_t Σ_s w[b, 2048 t + s, d]
    out[b, r, e]    = Σ_d (w[b, r, d] / L[b, d]) · scores[b, d, e]

  Every outer sum over the four tiles is an accumulation from 0 in tile order, `(((0 + f 0) + f 1) + f 2) + f 3`,
  which is what an accumulator reset at the first tile and added to at each tile holds after the fourth.
-/
import Idealize.ShloMosaic.PureOps.Ideal
import Idealize.ShloMosaic.Lib.ValueIdx

noncomputable section

open scoped BigOperators

namespace Cert.Spec

open Idealize.ShloMosaic Idealize.ShloMosaic.ValueIdx

/-- An [8, 8192, 256] array of extended reals. -/
abbrev Arr3 : Type := (⟨3, ![8, 8192, 256]⟩ : Shape).Idx → EReal

/-- Row `s` of tile `t`: row `2048 t + s` of the sequence axis. -/
def row (t : Fin 4) (s : Fin 2048) : Fin 8192 := ⟨2048 * t.val + s.val, by omega⟩

theorem row_val (t : Fin 4) (s : Fin 2048) : (row t s).val = 2048 * t.val + s.val := rfl

/-- An accumulator reset to 0 at the first of four steps and added to at each: its contents after the fourth. -/
def acc4 (f : Fin 4 → EReal) : EReal := (((0 + f 0) + f 1) + f 2) + f 3

/-- The scale the first pass multiplies each tile's product by: the float 0.0625. -/
def scale : EReal := Ideal.ofBits .f32 0x3D800000#32

/-- The float 1.0 the host adds to the sum of exponentials. -/
def one : EReal := Ideal.ofBits .f32 0x3F800000#32

/-- One tile's part of `Kᵀ V` for batch `b`: the sum over the tile's rows of `K[b, ·, d] · V[b, ·, e]`. -/
def kvTile (K V : Arr3) (b : Fin 8) (t : Fin 4) (d e : Fin 256) : EReal :=
  ∑ s : Fin 2048, K (ix3 b (row t s) d) * V (ix3 b (row t s) e)

/-- The scaled `Kᵀ V`, accumulated tile by tile, each tile's product scaled before it is added. -/
def scores (K V : Arr3) (b : Fin 8) (d e : Fin 256) : EReal :=
  acc4 fun t => kvTile K V b t d e * scale

/-- The sum over the sequence of `exp Q[b, ·, d]`, accumulated tile by tile. -/
def sumeq (Q : Arr3) (b : Fin 8) (d : Fin 256) : EReal :=
  acc4 fun t => ∑ s : Fin 2048, Ideal.exp (Q (ix3 b (row t s) d))

/-- The normaliser of the first exponential: one plus that sum. -/
def denom (Q : Arr3) (b : Fin 8) (d : Fin 256) : EReal := one + sumeq Q b d

/-- The unnormalised weight: the exponential of the normalised exponential. -/
def w (Q : Arr3) (b : Fin 8) (r : Fin 8192) (d : Fin 256) : EReal :=
  Ideal.exp (Ideal.div (Ideal.exp (Q (ix3 b r d))) (denom Q b d))

/-- The sum of the weights over the sequence, accumulated tile by tile. -/
def L (Q : Arr3) (b : Fin 8) (d : Fin 256) : EReal :=
  acc4 fun t => ∑ s : Fin 2048, w Q b (row t s) d

/-- The result at batch `b`, row `r`, column `e`: the normalised weights of the row against the scaled `Kᵀ V`. -/
def out (K Q V : Arr3) (b : Fin 8) (r : Fin 8192) (e : Fin 256) : EReal :=
  ∑ d : Fin 256, Ideal.div (w Q b r d) (L Q b d) * scores K V b d e

/-- The result as an array. -/
def outArr (K Q V : Arr3) : Arr3 := fun i => out K Q V (i 0) (i 1) (i 2)

end Cert.Spec

end
-- ==== Proof.Ideal.Blocks.lean ====
/-
  Where a window's block sits in its array.

  Every pass walks a grid of 8 batches by 4 tiles batch-major: point `t` is tile `t % 4` of batch `t / 4`. A tile window's
  block at `t` is rows `2048 (t % 4) … 2048 (t % 4) + 2047` of batch `t / 4`; a per-batch window's block (a [1, 1, 256] row or a
  [1, 256, 256] matrix) is batch `t / 4` whole. Each lemma reads an input window's block at coordinates as the array at
  the corresponding coordinates.
-/
import proofs.«139639_j23854248362901_1_alg».proof.Proof.Ideal.PassOne
import proofs.«139639_j23854248362901_1_alg».proof.Proof.Ideal.PassTwo
import proofs.«139639_j23854248362901_1_alg».proof.Proof.Ideal.PassThree
import proofs.«139639_j23854248362901_1_alg».proof.Proof.Spec
import Idealize.ShloMosaic.Lib.Pipeline.Value
import Idealize.ShloMosaic.Lib.ValueIdx

noncomputable section

namespace Cert.KernelIdeal.Passes

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The batch of a grid point, -/
def batchOf (t : Fin 32) : Fin 8 := ⟨t.val / 4, by omega⟩
/-- and its tile. -/
def tileOf (t : Fin 32) : Fin 4 := ⟨t.val % 4, by omega⟩

theorem N0 : cfg0.N = 32 := N_0
theorem N1 : cfg1.N = 32 := N_1
theorem N2 : cfg2.N = 32 := N_2

theorem idx0_0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem idx0_1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem idx0_2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem idx0_3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)
theorem idx0_4 : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)
theorem idx1_0 : ∀ t : Fin cfg1.N, win1_0.index t 0 = t.val / 4 ∧ win1_0.index t 1 = t.val % 4 ∧ win1_0.index t 2 = 0 :=
  (by decide +kernel : ∀ t : Fin grid1.N, win1_0.index t 0 = t.val / 4 ∧ win1_0.index t 1 = t.val % 4 ∧ win1_0.index t 2 = 0)
theorem idx1_1 : ∀ t : Fin cfg1.N, win1_1.index t 0 = t.val / 4 ∧ win1_1.index t 1 = 0 ∧ win1_1.index t 2 = 0 :=
  (by decide +kernel : ∀ t : Fin grid1.N, win1_1.index t 0 = t.val / 4 ∧ win1_1.index t 1 = 0 ∧ win1_1.index t 2 = 0)
theorem idx1_2 : ∀ t : Fin cfg1.N, win1_2.index t 0 = t.val / 4 ∧ win1_2.index t 1 = 0 ∧ win1_2.index t 2 = 0 :=
  (by decide +kernel : ∀ t : Fin grid1.N, win1_2.index t 0 = t.val / 4 ∧ win1_2.index t 1 = 0 ∧ win1_2.index t 2 = 0)
theorem idx2_0 : ∀ t : Fin cfg2.N, win2_0.index t 0 = t.val / 4 ∧ win2_0.index t 1 = t.val % 4 ∧ win2_0.index t 2 = 0 :=
  (by decide +kernel : ∀ t : Fin grid2.N, win2_0.index t 0 = t.val / 4 ∧ win2_0.index t 1 = t.val % 4 ∧ win2_0.index t 2 = 0)
theorem idx2_1 : ∀ t : Fin cfg2.N, win2_1.index t 0 = t.val / 4 ∧ win2_1.index t 1 = 0 ∧ win2_1.index t 2 = 0 :=
  (by decide +kernel : ∀ t : Fin grid2.N, win2_1.index t 0 = t.val / 4 ∧ win2_1.index t 1 = 0 ∧ win2_1.index t 2 = 0)
theorem idx2_2 : ∀ t : Fin cfg2.N, win2_2.index t 0 = t.val / 4 ∧ win2_2.index t 1 = 0 ∧ win2_2.index t 2 = 0 :=
  (by decide +kernel : ∀ t : Fin grid2.N, win2_2.index t 0 = t.val / 4 ∧ win2_2.index t 1 = 0 ∧ win2_2.index t 2 = 0)
theorem idx2_3 : ∀ t : Fin cfg2.N, win2_3.index t 0 = t.val / 4 ∧ win2_3.index t 1 = 0 ∧ win2_3.index t 2 = 0 :=
  (by decide +kernel : ∀ t : Fin grid2.N, win2_3.index t 0 = t.val / 4 ∧ win2_3.index t 1 = 0 ∧ win2_3.index t 2 = 0)
theorem idx2_4 : ∀ t : Fin cfg2.N, win2_4.index t 0 = t.val / 4 ∧ win2_4.index t 1 = t.val % 4 ∧ win2_4.index t 2 = 0 :=
  (by decide +kernel : ∀ t : Fin grid2.N, win2_4.index t 0 = t.val / 4 ∧ win2_4.index t 1 = t.val % 4 ∧ win2_4.index t 2 = 0)

/-- Pass 1, window 0: row `s` of the tile at `t` is row `2048 (t % 4) + s` of batch `t / 4`. -/
theorem iblk0_0_apply (c : Dev nD) (t : Fin cfg0.N) (s : Fin 2048) (d : Fin 256) :
    (iblk0 V c 0 t : Vec F S1x2048x256 .f32) (ix3 0 s d) = V c main_arg0 (ix3 (batchOf (Fin.cast N0 t)) (Cert.Spec.row (tileOf (Fin.cast N0 t)) s) d) := by
  unfold iblk0
  rw [View.read_apply]
  show V c main_arg0 _ = V c main_arg0 _
  congr 1
  funext a
  apply Fin.ext
  match a with
  | ⟨0, _⟩ => show win0_0.index t 0 * 1 + 1 * 0 = t.val / 4; rw [(idx0_0 t).1]; omega
  | ⟨1, _⟩ => show win0_0.index t 1 * 2048 + 1 * s.val = 2048 * (t.val % 4) + s.val; rw [(idx0_0 t).2.1]; omega
  | ⟨2, _⟩ => show win0_0.index t 2 * 256 + 1 * d.val = d.val; rw [(idx0_0 t).2.2]; omega
/-- Pass 1, window 1: row `s` of the tile at `t` is row `2048 (t % 4) + s` of batch `t / 4`. -/
theorem iblk0_1_apply (c : Dev nD) (t : Fin cfg0.N) (s : Fin 2048) (d : Fin 256) :
    (iblk0 V c 1 t : Vec F S1x2048x256 .f32) (ix3 0 s d) = V c main_arg2 (ix3 (batchOf (Fin.cast N0 t)) (Cert.Spec.row (tileOf (Fin.cast N0 t)) s) d) := by
  unfold iblk0
  rw [View.read_apply]
  show V c main_arg2 _ = V c main_arg2 _
  congr 1
  funext a
  apply Fin.ext
  match a with
  | ⟨0, _⟩ => show win0_1.index t 0 * 1 + 1 * 0 = t.val / 4; rw [(idx0_1 t).1]; omega
  | ⟨1, _⟩ => show win0_1.index t 1 * 2048 + 1 * s.val = 2048 * (t.val % 4) + s.val; rw [(idx0_1 t).2.1]; omega
  | ⟨2, _⟩ => show win0_1.index t 2 * 256 + 1 * d.val = d.val; rw [(idx0_1 t).2.2]; omega
/-- Pass 1, window 2: row `s` of the tile at `t` is row `2048 (t % 4) + s` of batch `t / 4`. -/
theorem iblk0_2_apply (c : Dev nD) (t : Fin cfg0.N) (s : Fin 2048) (d : Fin 256) :
    (iblk0 V c 2 t : Vec F S1x2048x256 .f32) (ix3 0 s d) = V c main_arg1 (ix3 (batchOf (Fin.cast N0 t)) (Cert.Spec.row (tileOf (Fin.cast N0 t)) s) d) := by
  unfold iblk0
  rw [View.read_apply]
  show V c main_arg1 _ = V c main_arg1 _
  congr 1
  funext a
  apply Fin.ext
  match a with
  | ⟨0, _⟩ => show win0_2.index t 0 * 1 + 1 * 0 = t.val / 4; rw [(idx0_2 t).1]; omega
  | ⟨1, _⟩ => show win0_2.index t 1 * 2048 + 1 * s.val = 2048 * (t.val % 4) + s.val; rw [(idx0_2 t).2.1]; omega
  | ⟨2, _⟩ => show win0_2.index t 2 * 256 + 1 * d.val = d.val; rw [(idx0_2 t).2.2]; omega
/-- Pass 2, window 0: row `s` of the tile at `t` is row `2048 (t % 4) + s` of batch `t / 4`. -/
theorem iblk1_0_apply (c : Dev nD) (t : Fin cfg1.N) (s : Fin 2048) (d : Fin 256) :
    (iblk1 V c 0 t : Vec F S1x2048x256 .f32) (ix3 0 s d) = V c main_arg1 (ix3 (batchOf (Fin.cast N1 t)) (Cert.Spec.row (tileOf (Fin.cast N1 t)) s) d) := by
  unfold iblk1
  rw [View.read_apply]
  show V c main_arg1 _ = V c main_arg1 _
  congr 1
  funext a
  apply Fin.ext
  match a with
  | ⟨0, _⟩ => show win1_0.index t 0 * 1 + 1 * 0 = t.val / 4; rw [(idx1_0 t).1]; omega
  | ⟨1, _⟩ => show win1_0.index t 1 * 2048 + 1 * s.val = 2048 * (t.val % 4) + s.val; rw [(idx1_0 t).2.1]; omega
  | ⟨2, _⟩ => show win1_0.index t 2 * 256 + 1 * d.val = d.val; rw [(idx1_0 t).2.2]; omega
/-- Pass 2, window 1: the row at `t` is batch `t / 4`'s. -/
theorem iblk1_1_apply (c : Dev nD) (t : Fin cfg1.N) (d : Fin 256) :
    (iblk1 V c 1 t : Vec F S1x1x256 .f32) (ix3 0 0 d) = V c main_v2 (ix3 (batchOf (Fin.cast N1 t)) 0 d) := by
  unfold iblk1
  rw [View.read_apply]
  show V c main_v2 _ = V c main_v2 _
  congr 1
  funext a
  apply Fin.ext
  match a with
  | ⟨0, _⟩ => show win1_1.index t 0 * 1 + 1 * 0 = t.val / 4; rw [(idx1_1 t).1]; omega
  | ⟨1, _⟩ => show win1_1.index t 1 * 1 + 1 * 0 = 0; rw [(idx1_1 t).2.1]
  | ⟨2, _⟩ => show win1_1.index t 2 * 256 + 1 * d.val = d.val; rw [(idx1_1 t).2.2]; omega
/-- Pass 3, window 0: row `s` of the tile at `t` is row `2048 (t % 4) + s` of batch `t / 4`. -/
theorem iblk2_0_apply (c : Dev nD) (t : Fin cfg2.N) (s : Fin 2048) (d : Fin 256) :
    (iblk2 V c 0 t : Vec F S1x2048x256 .f32) (ix3 0 s d) = V c main_arg1 (ix3 (batchOf (Fin.cast N2 t)) (Cert.Spec.row (tileOf (Fin.cast N2 t)) s) d) := by
  unfold iblk2
  rw [View.read_apply]
  show V c main_arg1 _ = V c main_arg1 _
  congr 1
  funext a
  apply Fin.ext
  match a with
  | ⟨0, _⟩ => show win2_0.index t 0 * 1 + 1 * 0 = t.val / 4; rw [(idx2_0 t).1]; omega
  | ⟨1, _⟩ => show win2_0.index t 1 * 2048 + 1 * s.val = 2048 * (t.val % 4) + s.val; rw [(idx2_0 t).2.1]; omega
  | ⟨2, _⟩ => show win2_0.index t 2 * 256 + 1 * d.val = d.val; rw [(idx2_0 t).2.2]; omega
/-- Pass 3, window 1: the row at `t` is batch `t / 4`'s. -/
theorem iblk2_1_apply (c : Dev nD) (t : Fin cfg2.N) (d : Fin 256) :
    (iblk2 V c 1 t : Vec F S1x1x256 .f32) (ix3 0 0 d) = V c main_v2 (ix3 (batchOf (Fin.cast N2 t)) 0 d) := by
  unfold iblk2
  rw [View.read_apply]
  show V c main_v2 _ = V c main_v2 _
  congr 1
  funext a
  apply Fin.ext
  match a with
  | ⟨0, _⟩ => show win2_1.index t 0 * 1 + 1 * 0 = t.val / 4; rw [(idx2_1 t).1]; omega
  | ⟨1, _⟩ => show win2_1.index t 1 * 1 + 1 * 0 = 0; rw [(idx2_1 t).2.1]
  | ⟨2, _⟩ => show win2_1.index t 2 * 256 + 1 * d.val = d.val; rw [(idx2_1 t).2.2]; omega
/-- Pass 3, window 2: the row at `t` is batch `t / 4`'s. -/
theorem iblk2_2_apply (c : Dev nD) (t : Fin cfg2.N) (d : Fin 256) :
    (iblk2 V c 2 t : Vec F S1x1x256 .f32) (ix3 0 0 d) = V c main_v3 (ix3 (batchOf (Fin.cast N2 t)) 0 d) := by
  unfold iblk2
  rw [View.read_apply]
  show V c main_v3 _ = V c main_v3 _
  congr 1
  funext a
  apply Fin.ext
  match a with
  | ⟨0, _⟩ => show win2_2.index t 0 * 1 + 1 * 0 = t.val / 4; rw [(idx2_2 t).1]; omega
  | ⟨1, _⟩ => show win2_2.index t 1 * 1 + 1 * 0 = 0; rw [(idx2_2 t).2.1]
  | ⟨2, _⟩ => show win2_2.index t 2 * 256 + 1 * d.val = d.val; rw [(idx2_2 t).2.2]; omega
/-- Pass 3, window 3: the matrix at `t` is batch `t / 4`'s. -/
theorem iblk2_3_apply (c : Dev nD) (t : Fin cfg2.N) (d e : Fin 256) :
    (iblk2 V c 3 t : Vec F S1x256x256 .f32) (ix3 0 d e) = V c main_v0_0 (ix3 (batchOf (Fin.cast N2 t)) d e) := by
  unfold iblk2
  rw [View.read_apply]
  show V c main_v0_0 _ = V c main_v0_0 _
  congr 1
  funext a
  apply Fin.ext
  match a with
  | ⟨0, _⟩ => show win2_3.index t 0 * 1 + 1 * 0 = t.val / 4; rw [(idx2_3 t).1]; omega
  | ⟨1, _⟩ => show win2_3.index t 1 * 256 + 1 * d.val = d.val; rw [(idx2_3 t).2.1]; omega
  | ⟨2, _⟩ => show win2_3.index t 2 * 256 + 1 * e.val = e.val; rw [(idx2_3 t).2.2]; omega

end Cert.KernelIdeal.Passes

end
-- ==== Proof.Ideal.OutBlocks.lean ====
/-
  From the flushed blocks to the whole output array.

  An accumulated output (the first pass's two results, the second pass's result) is written back once per batch, after
  the batch's last tile (the points with `t % 4 = 3`), its block the batch's whole slice; the third pass's result is
  written back at every point, its block the point's tile. In each case the flushing blocks tile the array, so if every
  flushing point's block agrees, coordinate by coordinate, with one function `G` of the array index, the array ends
  holding `G`.
-/
import proofs.«139639_j23854248362901_1_alg».proof.Proof.Ideal.Blocks

noncomputable section

namespace Cert.KernelIdeal.Passes

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem xsize0_3 : ∀ t : Fin cfg0.N, (win0_3.size 0 = 1 ∧ win0_3.size 1 = 256 ∧ win0_3.size 2 = 256) ∧ win0_3.xsize (grid0.coords t) 0 = 1 ∧ win0_3.xsize (grid0.coords t) 1 = 256 ∧ win0_3.xsize (grid0.coords t) 2 = 256 :=
  (by decide +kernel : ∀ t : Fin grid0.N, (win0_3.size 0 = 1 ∧ win0_3.size 1 = 256 ∧ win0_3.size 2 = 256) ∧ win0_3.xsize (grid0.coords t) 0 = 1 ∧ win0_3.xsize (grid0.coords t) 1 = 256 ∧ win0_3.xsize (grid0.coords t) 2 = 256)

/-- Where a coordinate of pass 1's output block 3 at `t` sits in its array. -/
theorem emb0_3 (t : Fin cfg0.N) (d e : Fin 256) :
    ((cfg0.win 3).blk t).view.emb (ix3 0 d e : S1x256x256.Idx) = (ix3 (batchOf (Fin.cast N0 t)) d e : S8x256x256.Idx) := by
  funext a
  apply Fin.ext
  match a with
  | ⟨0, _⟩ => show win0_3.index t 0 * 1 + 1 * 0 = t.val / 4; rw [(idx0_3 t).1]; omega
  | ⟨1, _⟩ => show win0_3.index t 1 * 256 + 1 * d.val = d.val; rw [(idx0_3 t).2.1]; omega
  | ⟨2, _⟩ => show win0_3.index t 2 * 256 + 1 * e.val = e.val; rw [(idx0_3 t).2.2]; omega

/-- Pass 1's output array 3 ends holding `G` as soon as every flushing point's block agrees with `G` at coordinates. -/
theorem arr0_3_of (c : Dev nD) (G : Buf (Elt F) ((c : Thread nD τ).loc main_v0_0))
    (h : ∀ (t : Fin cfg0.N), t.val % 4 = 3 → ∀ (d e : Fin 256), ((outsAt0 V c t.val t.isLt).1 : Vec F S1x256x256 .f32) (ix3 0 d e) = G (ix3 (batchOf (Fin.cast N0 t)) d e)) :
    (dat0 V c).arrAt 3 cfg0.N = G := by
  refine (dat0 V c).arrAt_eq_of_cover 3 G (fun t hf => ?_) (fun i => ?_)
  · show (cfg0.win 3).cut (grid0.coords t) ((dat0 V c).after 3 t) = _
    rw [after0_3]
    funext y
    rw [View.read_apply]
    obtain ⟨z, p, q, rfl⟩ : ∃ (z : Fin 1) (p : Fin 256) (q : Fin 256), y = ix3 z p q := ⟨y 0, y 1, y 2, eq_ix3 y⟩
    obtain rfl : z = 0 := Subsingleton.elim _ _
    show ((outsAt0 V c t.val t.isLt).1 : Vec F S1x256x256 .f32) _ = G (((cfg0.win 3).blk t).view.emb _)
    rw [emb0_3]
    exact h t ((flush0_3 t).mp hf) p q
  · have h0 : (i 0 : Nat) < 8 := (i 0).isLt
    have h1 : (i 1 : Nat) < 256 := (i 1).isLt
    have h2 : (i 2 : Nat) < 256 := (i 2).isLt
    have hN : cfg0.N = 32 := N0
    have hpt : 4 * (i 0).val + 3 < cfg0.N := by omega
    refine ⟨⟨4 * (i 0).val + 3, hpt⟩, (flush0_3 ⟨4 * (i 0).val + 3, hpt⟩).mpr (by show (4 * (i 0).val + 3) % 4 = 3; omega), ?_⟩
    show i ∈ ((View.whole main_v0_0).slice (win0_3.rect ⟨4 * (i 0).val + 3, hpt⟩)).set
    rw [View.set_slice_whole, Rect.mem_set_unit]
    intro a
    have hx := xsize0_3 ⟨4 * (i 0).val + 3, hpt⟩
    have hi := idx0_3 ⟨4 * (i 0).val + 3, hpt⟩
    match a with
    | ⟨0, _⟩ =>
      show win0_3.index ⟨4 * (i 0).val + 3, hpt⟩ 0 * win0_3.size 0 ≤ (i 0 : Nat) ∧ (i 0 : Nat) < win0_3.index ⟨4 * (i 0).val + 3, hpt⟩ 0 * win0_3.size 0 + win0_3.xsize (grid0.coords ⟨4 * (i 0).val + 3, hpt⟩) 0
      rw [hi.1, hx.1.1, hx.2.1]; dsimp only; omega
    | ⟨1, _⟩ =>
      show win0_3.index ⟨4 * (i 0).val + 3, hpt⟩ 1 * win0_3.size 1 ≤ (i 1 : Nat) ∧ (i 1 : Nat) < win0_3.index ⟨4 * (i 0).val + 3, hpt⟩ 1 * win0_3.size 1 + win0_3.xsize (grid0.coords ⟨4 * (i 0).val + 3, hpt⟩) 1
      rw [hi.2.1, hx.1.2.1, hx.2.2.1]; dsimp only; omega
    | ⟨2, _⟩ =>
      show win0_3.index ⟨4 * (i 0).val + 3, hpt⟩ 2 * win0_3.size 2 ≤ (i 2 : Nat) ∧ (i 2 : Nat) < win0_3.index ⟨4 * (i 0).val + 3, hpt⟩ 2 * win0_3.size 2 + win0_3.xsize (grid0.coords ⟨4 * (i 0).val + 3, hpt⟩) 2
      rw [hi.2.2, hx.1.2.2, hx.2.2.2]; dsimp only; omega

theorem xsize0_4 : ∀ t : Fin cfg0.N, (win0_4.size 0 = 1 ∧ win0_4.size 1 = 1 ∧ win0_4.size 2 = 256) ∧ win0_4.xsize (grid0.coords t) 0 = 1 ∧ win0_4.xsize (grid0.coords t) 1 = 1 ∧ win0_4.xsize (grid0.coords t) 2 = 256 :=
  (by decide +kernel : ∀ t : Fin grid0.N, (win0_4.size 0 = 1 ∧ win0_4.size 1 = 1 ∧ win0_4.size 2 = 256) ∧ win0_4.xsize (grid0.coords t) 0 = 1 ∧ win0_4.xsize (grid0.coords t) 1 = 1 ∧ win0_4.xsize (grid0.coords t) 2 = 256)

/-- Where a coordinate of pass 1's output block 4 at `t` sits in its array. -/
theorem emb0_4 (t : Fin cfg0.N) (d : Fin 256) :
    ((cfg0.win 4).blk t).view.emb (ix3 0 0 d : S1x1x256.Idx) = (ix3 (batchOf (Fin.cast N0 t)) 0 d : S8x1x256.Idx) := by
  funext a
  apply Fin.ext
  match a with
  | ⟨0, _⟩ => show win0_4.index t 0 * 1 + 1 * 0 = t.val / 4; rw [(idx0_4 t).1]; omega
  | ⟨1, _⟩ => show win0_4.index t 1 * 1 + 1 * 0 = 0; rw [(idx0_4 t).2.1]
  | ⟨2, _⟩ => show win0_4.index t 2 * 256 + 1 * d.val = d.val; rw [(idx0_4 t).2.2]; omega

/-- Pass 1's output array 4 ends holding `G` as soon as every flushing point's block agrees with `G` at coordinates. -/
theorem arr0_4_of (c : Dev nD) (G : Buf (Elt F) ((c : Thread nD τ).loc main_v0_1))
    (h : ∀ (t : Fin cfg0.N), t.val % 4 = 3 → ∀ (d : Fin 256), ((outsAt0 V c t.val t.isLt).2.1 : Vec F S1x1x256 .f32) (ix3 0 0 d) = G (ix3 (batchOf (Fin.cast N0 t)) 0 d)) :
    (dat0 V c).arrAt 4 cfg0.N = G := by
  refine (dat0 V c).arrAt_eq_of_cover 4 G (fun t hf => ?_) (fun i => ?_)
  · show (cfg0.win 4).cut (grid0.coords t) ((dat0 V c).after 4 t) = _
    rw [after0_4]
    funext y
    rw [View.read_apply]
    obtain ⟨z, p, q, rfl⟩ : ∃ (z : Fin 1) (p : Fin 1) (q : Fin 256), y = ix3 z p q := ⟨y 0, y 1, y 2, eq_ix3 y⟩
    obtain rfl : z = 0 := Subsingleton.elim _ _
    obtain rfl : p = 0 := Subsingleton.elim _ _
    show ((outsAt0 V c t.val t.isLt).2.1 : Vec F S1x1x256 .f32) _ = G (((cfg0.win 4).blk t).view.emb _)
    rw [emb0_4]
    exact h t ((flush0_4 t).mp hf) q
  · have h0 : (i 0 : Nat) < 8 := (i 0).isLt
    have h1 : (i 1 : Nat) < 1 := (i 1).isLt
    have h2 : (i 2 : Nat) < 256 := (i 2).isLt
    have hN : cfg0.N = 32 := N0
    have hpt : 4 * (i 0).val + 3 < cfg0.N := by omega
    refine ⟨⟨4 * (i 0).val + 3, hpt⟩, (flush0_4 ⟨4 * (i 0).val + 3, hpt⟩).mpr (by show (4 * (i 0).val + 3) % 4 = 3; omega), ?_⟩
    show i ∈ ((View.whole main_v0_1).slice (win0_4.rect ⟨4 * (i 0).val + 3, hpt⟩)).set
    rw [View.set_slice_whole, Rect.mem_set_unit]
    intro a
    have hx := xsize0_4 ⟨4 * (i 0).val + 3, hpt⟩
    have hi := idx0_4 ⟨4 * (i 0).val + 3, hpt⟩
    match a with
    | ⟨0, _⟩ =>
      show win0_4.index ⟨4 * (i 0).val + 3, hpt⟩ 0 * win0_4.size 0 ≤ (i 0 : Nat) ∧ (i 0 : Nat) < win0_4.index ⟨4 * (i 0).val + 3, hpt⟩ 0 * win0_4.size 0 + win0_4.xsize (grid0.coords ⟨4 * (i 0).val + 3, hpt⟩) 0
      rw [hi.1, hx.1.1, hx.2.1]; dsimp only; omega
    | ⟨1, _⟩ =>
      show win0_4.index ⟨4 * (i 0).val + 3, hpt⟩ 1 * win0_4.size 1 ≤ (i 1 : Nat) ∧ (i 1 : Nat) < win0_4.index ⟨4 * (i 0).val + 3, hpt⟩ 1 * win0_4.size 1 + win0_4.xsize (grid0.coords ⟨4 * (i 0).val + 3, hpt⟩) 1
      rw [hi.2.1, hx.1.2.1, hx.2.2.1]; dsimp only; omega
    | ⟨2, _⟩ =>
      show win0_4.index ⟨4 * (i 0).val + 3, hpt⟩ 2 * win0_4.size 2 ≤ (i 2 : Nat) ∧ (i 2 : Nat) < win0_4.index ⟨4 * (i 0).val + 3, hpt⟩ 2 * win0_4.size 2 + win0_4.xsize (grid0.coords ⟨4 * (i 0).val + 3, hpt⟩) 2
      rw [hi.2.2, hx.1.2.2, hx.2.2.2]; dsimp only; omega

theorem xsize1_2 : ∀ t : Fin cfg1.N, (win1_2.size 0 = 1 ∧ win1_2.size 1 = 1 ∧ win1_2.size 2 = 256) ∧ win1_2.xsize (grid1.coords t) 0 = 1 ∧ win1_2.xsize (grid1.coords t) 1 = 1 ∧ win1_2.xsize (grid1.coords t) 2 = 256 :=
  (by decide +kernel : ∀ t : Fin grid1.N, (win1_2.size 0 = 1 ∧ win1_2.size 1 = 1 ∧ win1_2.size 2 = 256) ∧ win1_2.xsize (grid1.coords t) 0 = 1 ∧ win1_2.xsize (grid1.coords t) 1 = 1 ∧ win1_2.xsize (grid1.coords t) 2 = 256)

/-- Where a coordinate of pass 2's output block 2 at `t` sits in its array. -/
theorem emb1_2 (t : Fin cfg1.N) (d : Fin 256) :
    ((cfg1.win 2).blk t).view.emb (ix3 0 0 d : S1x1x256.Idx) = (ix3 (batchOf (Fin.cast N1 t)) 0 d : S8x1x256.Idx) := by
  funext a
  apply Fin.ext
  match a with
  | ⟨0, _⟩ => show win1_2.index t 0 * 1 + 1 * 0 = t.val / 4; rw [(idx1_2 t).1]; omega
  | ⟨1, _⟩ => show win1_2.index t 1 * 1 + 1 * 0 = 0; rw [(idx1_2 t).2.1]
  | ⟨2, _⟩ => show win1_2.index t 2 * 256 + 1 * d.val = d.val; rw [(idx1_2 t).2.2]; omega

/-- Pass 2's output array 2 ends holding `G` as soon as every flushing point's block agrees with `G` at coordinates. -/
theorem arr1_2_of (c : Dev nD) (G : Buf (Elt F) ((c : Thread nD τ).loc main_v3))
    (h : ∀ (t : Fin cfg1.N), t.val % 4 = 3 → ∀ (d : Fin 256), ((outsAt1 V c t.val t.isLt).1 : Vec F S1x1x256 .f32) (ix3 0 0 d) = G (ix3 (batchOf (Fin.cast N1 t)) 0 d)) :
    (dat1 V c).arrAt 2 cfg1.N = G := by
  refine (dat1 V c).arrAt_eq_of_cover 2 G (fun t hf => ?_) (fun i => ?_)
  · show (cfg1.win 2).cut (grid1.coords t) ((dat1 V c).after 2 t) = _
    rw [after1_2]
    funext y
    rw [View.read_apply]
    obtain ⟨z, p, q, rfl⟩ : ∃ (z : Fin 1) (p : Fin 1) (q : Fin 256), y = ix3 z p q := ⟨y 0, y 1, y 2, eq_ix3 y⟩
    obtain rfl : z = 0 := Subsingleton.elim _ _
    obtain rfl : p = 0 := Subsingleton.elim _ _
    show ((outsAt1 V c t.val t.isLt).1 : Vec F S1x1x256 .f32) _ = G (((cfg1.win 2).blk t).view.emb _)
    rw [emb1_2]
    exact h t ((flush1_2 t).mp hf) q
  · have h0 : (i 0 : Nat) < 8 := (i 0).isLt
    have h1 : (i 1 : Nat) < 1 := (i 1).isLt
    have h2 : (i 2 : Nat) < 256 := (i 2).isLt
    have hN : cfg1.N = 32 := N1
    have hpt : 4 * (i 0).val + 3 < cfg1.N := by omega
    refine ⟨⟨4 * (i 0).val + 3, hpt⟩, (flush1_2 ⟨4 * (i 0).val + 3, hpt⟩).mpr (by show (4 * (i 0).val + 3) % 4 = 3; omega), ?_⟩
    show i ∈ ((View.whole main_v3).slice (win1_2.rect ⟨4 * (i 0).val + 3, hpt⟩)).set
    rw [View.set_slice_whole, Rect.mem_set_unit]
    intro a
    have hx := xsize1_2 ⟨4 * (i 0).val + 3, hpt⟩
    have hi := idx1_2 ⟨4 * (i 0).val + 3, hpt⟩
    match a with
    | ⟨0, _⟩ =>
      show win1_2.index ⟨4 * (i 0).val + 3, hpt⟩ 0 * win1_2.size 0 ≤ (i 0 : Nat) ∧ (i 0 : Nat) < win1_2.index ⟨4 * (i 0).val + 3, hpt⟩ 0 * win1_2.size 0 + win1_2.xsize (grid1.coords ⟨4 * (i 0).val + 3, hpt⟩) 0
      rw [hi.1, hx.1.1, hx.2.1]; dsimp only; omega
    | ⟨1, _⟩ =>
      show win1_2.index ⟨4 * (i 0).val + 3, hpt⟩ 1 * win1_2.size 1 ≤ (i 1 : Nat) ∧ (i 1 : Nat) < win1_2.index ⟨4 * (i 0).val + 3, hpt⟩ 1 * win1_2.size 1 + win1_2.xsize (grid1.coords ⟨4 * (i 0).val + 3, hpt⟩) 1
      rw [hi.2.1, hx.1.2.1, hx.2.2.1]; dsimp only; omega
    | ⟨2, _⟩ =>
      show win1_2.index ⟨4 * (i 0).val + 3, hpt⟩ 2 * win1_2.size 2 ≤ (i 2 : Nat) ∧ (i 2 : Nat) < win1_2.index ⟨4 * (i 0).val + 3, hpt⟩ 2 * win1_2.size 2 + win1_2.xsize (grid1.coords ⟨4 * (i 0).val + 3, hpt⟩) 2
      rw [hi.2.2, hx.1.2.2, hx.2.2.2]; dsimp only; omega

theorem xsize2_4 : ∀ t : Fin cfg2.N, (win2_4.size 0 = 1 ∧ win2_4.size 1 = 2048 ∧ win2_4.size 2 = 256) ∧ win2_4.xsize (grid2.coords t) 0 = 1 ∧ win2_4.xsize (grid2.coords t) 1 = 2048 ∧ win2_4.xsize (grid2.coords t) 2 = 256 :=
  (by decide +kernel : ∀ t : Fin grid2.N, (win2_4.size 0 = 1 ∧ win2_4.size 1 = 2048 ∧ win2_4.size 2 = 256) ∧ win2_4.xsize (grid2.coords t) 0 = 1 ∧ win2_4.xsize (grid2.coords t) 1 = 2048 ∧ win2_4.xsize (grid2.coords t) 2 = 256)

/-- Where a coordinate of pass 3's output block 4 at `t` sits in its array. -/
theorem emb2_4 (t : Fin cfg2.N) (s : Fin 2048) (e : Fin 256) :
    ((cfg2.win 4).blk t).view.emb (ix3 0 s e : S1x2048x256.Idx) = (ix3 (batchOf (Fin.cast N2 t)) (Cert.Spec.row (tileOf (Fin.cast N2 t)) s) e : S8x8192x256.Idx) := by
  funext a
  apply Fin.ext
  match a with
  | ⟨0, _⟩ => show win2_4.index t 0 * 1 + 1 * 0 = t.val / 4; rw [(idx2_4 t).1]; omega
  | ⟨1, _⟩ => show win2_4.index t 1 * 2048 + 1 * s.val = 2048 * (t.val % 4) + s.val; rw [(idx2_4 t).2.1]; omega
  | ⟨2, _⟩ => show win2_4.index t 2 * 256 + 1 * e.val = e.val; rw [(idx2_4 t).2.2]; omega

/-- Pass 3's output array 4 ends holding `G` as soon as every flushing point's block agrees with `G` at coordinates. -/
theorem arr2_4_of (c : Dev nD) (G : Buf (Elt F) ((c : Thread nD τ).loc main_v4))
    (h : ∀ (t : Fin cfg2.N), ∀ (s : Fin 2048) (e : Fin 256), (((dat2 V c).after 4 t) : Vec F S1x2048x256 .f32) (ix3 0 s e) = G (ix3 (batchOf (Fin.cast N2 t)) (Cert.Spec.row (tileOf (Fin.cast N2 t)) s) e)) :
    (dat2 V c).arrAt 4 cfg2.N = G := by
  refine (dat2 V c).arrAt_eq_of_cover 4 G (fun t hf => ?_) (fun i => ?_)
  · show (cfg2.win 4).cut (grid2.coords t) ((dat2 V c).after 4 t) = _
    skip
    funext y
    rw [View.read_apply]
    obtain ⟨z, p, q, rfl⟩ : ∃ (z : Fin 1) (p : Fin 2048) (q : Fin 256), y = ix3 z p q := ⟨y 0, y 1, y 2, eq_ix3 y⟩
    obtain rfl : z = 0 := Subsingleton.elim _ _
    show (((dat2 V c).after 4 t) : Vec F S1x2048x256 .f32) _ = G (((cfg2.win 4).blk t).view.emb _)
    rw [emb2_4]
    exact h t p q
  · have h0 : (i 0 : Nat) < 8 := (i 0).isLt
    have h1 : (i 1 : Nat) < 8192 := (i 1).isLt
    have h2 : (i 2 : Nat) < 256 := (i 2).isLt
    have hN : cfg2.N = 32 := N2
    have hpt : 4 * (i 0).val + (i 1).val / 2048 < cfg2.N := by omega
    refine ⟨⟨4 * (i 0).val + (i 1).val / 2048, hpt⟩, flush2_4 ⟨4 * (i 0).val + (i 1).val / 2048, hpt⟩, ?_⟩
    show i ∈ ((View.whole main_v4).slice (win2_4.rect ⟨4 * (i 0).val + (i 1).val / 2048, hpt⟩)).set
    rw [View.set_slice_whole, Rect.mem_set_unit]
    intro a
    have hx := xsize2_4 ⟨4 * (i 0).val + (i 1).val / 2048, hpt⟩
    have hi := idx2_4 ⟨4 * (i 0).val + (i 1).val / 2048, hpt⟩
    match a with
    | ⟨0, _⟩ =>
      show win2_4.index ⟨4 * (i 0).val + (i 1).val / 2048, hpt⟩ 0 * win2_4.size 0 ≤ (i 0 : Nat) ∧ (i 0 : Nat) < win2_4.index ⟨4 * (i 0).val + (i 1).val / 2048, hpt⟩ 0 * win2_4.size 0 + win2_4.xsize (grid2.coords ⟨4 * (i 0).val + (i 1).val / 2048, hpt⟩) 0
      rw [hi.1, hx.1.1, hx.2.1]; dsimp only; omega
    | ⟨1, _⟩ =>
      show win2_4.index ⟨4 * (i 0).val + (i 1).val / 2048, hpt⟩ 1 * win2_4.size 1 ≤ (i 1 : Nat) ∧ (i 1 : Nat) < win2_4.index ⟨4 * (i 0).val + (i 1).val / 2048, hpt⟩ 1 * win2_4.size 1 + win2_4.xsize (grid2.coords ⟨4 * (i 0).val + (i 1).val / 2048, hpt⟩) 1
      rw [hi.2.1, hx.1.2.1, hx.2.2.1]; dsimp only; omega
    | ⟨2, _⟩ =>
      show win2_4.index ⟨4 * (i 0).val + (i 1).val / 2048, hpt⟩ 2 * win2_4.size 2 ≤ (i 2 : Nat) ∧ (i 2 : Nat) < win2_4.index ⟨4 * (i 0).val + (i 1).val / 2048, hpt⟩ 2 * win2_4.size 2 + win2_4.xsize (grid2.coords ⟨4 * (i 0).val + (i 1).val / 2048, hpt⟩) 2
      rw [hi.2.2, hx.1.2.2, hx.2.2.2]; dsimp only; omega

end Cert.KernelIdeal.Passes

end
-- ==== Proof.Ideal.PassOneValue.lean ====
/-
  The first pass's body, read as values.

  Every store of the body writes a whole buffer, so what a buffer holds after the body is the value of the LAST store
  made to it, and a load made after a store reads that store's value back. Reading the four buffers this way:

    * the first accumulator ends at `k0_pay3 k v acc`: the accumulator it started the tile with, plus the tile's scaled
      `kᵀ v` product;
    * the second accumulator ends at `k0_pay4 q acc`: the accumulator plus the tile's column sums of `exp q`;
    * each output block is a copy of its accumulator, taken after the accumulator's store.

  On the first tile of a batch the starting accumulators are the zero fills `k0_pay1`, `k0_pay2` the body has just
  stored; on a later tile they are what the tile before left (`xs7`, `xs8`). The statements hold for any float
  instance: nothing about the arithmetic is used, only which store each load sees.
-/
import proofs.«139639_j23854248362901_1_alg».proof.Proof.Ideal.PassOne
import Idealize.ShloMosaic.Lib.Pipeline.Value
import Idealize.ShloMosaic.Lib.Tactic

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL.Sem

variable {F : FTy → Type} [FloatOps F]

/-- Three zero offsets, however spelt, are the zero function. -/
private theorem hz3 : (![0, 0, 0] : Fin 3 → Nat) = fun _ => 0 := funext fun a => by fin_cases a <;> rfl

/-- A load of the whole buffer after a list of stores whose LAST one wrote the whole buffer reads that store's value,
    whatever the earlier stores were: the last store covers every index. -/
private theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- Later tile, first output block: a copy of the first accumulator, read back right after the accumulator's one
    store. -/
theorem laterOuts0_1 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i)
    (x0 x1 x2 : Vec F S1x2048x256 .f32) (xs7 : Vec F S1x256x256 .f32) (xs8 : Vec F S1x1x256 .f32) :
    (laterOuts0 c i arg2 harg2 arg3 harg3 arg4 harg4 arg5 harg5 arg6 harg6 arg7 harg7 arg8 harg8 hc x0 x1 x2 xs7 xs8).1 = k0_pay3 x0 x1 xs7 := by
  unfold laterOuts0
  dsimp only
  rw [View.read_writes_eq_canon _ _ _ (coverL0_5 c i arg2 harg2 arg3 harg3 arg4 harg4 arg5 harg5 arg6 harg6 arg7 harg7 arg8 harg8 hc x0 x1 x2 xs7 xs8)]
  unfold passOneLater
  dsimp only
  sl_unfold_words
  rw [View.canon_unit_zero (S := S1x256x256) hz3, View.readCov_unit_zero (S := S1x256x256) _ hz3]
  simp only [View.readAt_eq_ld, harg2.read_unread, harg3.read_unread, harg4.read_unread, harg7.read_unread, harg8.read_unread, View.ld_unit_zero (S := S1x2048x256) hz3, View.ld_unit_zero (S := S1x256x256) hz3, View.ld_unit_zero (S := S1x1x256) hz3, shapeCast_self]

/-- Later tile, second output block: a copy of the second accumulator, read back right after its one store. -/
theorem laterOuts0_2 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i)
    (x0 x1 x2 : Vec F S1x2048x256 .f32) (xs7 : Vec F S1x256x256 .f32) (xs8 : Vec F S1x1x256 .f32) :
    (laterOuts0 c i arg2 harg2 arg3 harg3 arg4 harg4 arg5 harg5 arg6 harg6 arg7 harg7 arg8 harg8 hc x0 x1 x2 xs7 xs8).2.1 = k0_pay4 x2 xs8 := by
  unfold laterOuts0
  dsimp only
  rw [View.read_writes_eq_canon _ _ _ (coverL0_6 c i arg2 harg2 arg3 harg3 arg4 harg4 arg5 harg5 arg6 harg6 arg7 harg7 arg8 harg8 hc x0 x1 x2 xs7 xs8)]
  unfold passOneLater
  dsimp only
  sl_unfold_words
  rw [View.canon_unit_zero (S := S1x1x256) hz3, View.readCov_unit_zero (S := S1x1x256) _ hz3]
  simp only [View.readAt_eq_ld, harg2.read_unread, harg3.read_unread, harg4.read_unread, harg7.read_unread, harg8.read_unread, View.ld_unit_zero (S := S1x2048x256) hz3, View.ld_unit_zero (S := S1x256x256) hz3, View.ld_unit_zero (S := S1x1x256) hz3, shapeCast_self]

/-- Later tile, first accumulator: its one store wrote the accumulator found plus the tile's product. -/
theorem laterOuts0_3 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i)
    (x0 x1 x2 : Vec F S1x2048x256 .f32) (xs7 : Vec F S1x256x256 .f32) (xs8 : Vec F S1x1x256 .f32) :
    (laterOuts0 c i arg2 harg2 arg3 harg3 arg4 harg4 arg5 harg5 arg6 harg6 arg7 harg7 arg8 harg8 hc x0 x1 x2 xs7 xs8).2.2.1 = k0_pay3 x0 x1 xs7 := by
  unfold laterOuts0
  dsimp only
  rw [View.read_writes_eq_canon _ _ _ (coverL0_7 c i arg2 harg2 arg3 harg3 arg4 harg4 arg5 harg5 arg6 harg6 arg7 harg7 arg8 harg8 hc x0 x1 x2 xs7 xs8)]
  unfold passOneLater
  dsimp only
  sl_unfold_words
  rw [View.canon_unit_zero (S := S1x256x256) hz3]
  simp only [View.readAt_eq_ld, harg2.read_unread, harg3.read_unread, harg4.read_unread, harg7.read_unread, harg8.read_unread, View.ld_unit_zero (S := S1x2048x256) hz3, View.ld_unit_zero (S := S1x256x256) hz3, View.ld_unit_zero (S := S1x1x256) hz3, shapeCast_self]

/-- Later tile, second accumulator: its one store wrote the accumulator found plus the tile's column sums. -/
theorem laterOuts0_4 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i)
    (x0 x1 x2 : Vec F S1x2048x256 .f32) (xs7 : Vec F S1x256x256 .f32) (xs8 : Vec F S1x1x256 .f32) :
    (laterOuts0 c i arg2 harg2 arg3 harg3 arg4 harg4 arg5 harg5 arg6 harg6 arg7 harg7 arg8 harg8 hc x0 x1 x2 xs7 xs8).2.2.2 = k0_pay4 x2 xs8 := by
  unfold laterOuts0
  dsimp only
  rw [View.read_writes_eq_canon _ _ _ (coverL0_8 c i arg2 harg2 arg3 harg3 arg4 harg4 arg5 harg5 arg6 harg6 arg7 harg7 arg8 harg8 hc x0 x1 x2 xs7 xs8)]
  unfold passOneLater
  dsimp only
  sl_unfold_words
  rw [View.canon_unit_zero (S := S1x1x256) hz3]
  simp only [View.readAt_eq_ld, harg2.read_unread, harg3.read_unread, harg4.read_unread, harg7.read_unread, harg8.read_unread, View.ld_unit_zero (S := S1x2048x256) hz3, View.ld_unit_zero (S := S1x256x256) hz3, View.ld_unit_zero (S := S1x1x256) hz3, shapeCast_self]

/-- What a later tile leaves, all four buffers at once. -/
theorem laterOuts0_eq (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : ¬firstTile0 i)
    (x0 x1 x2 : Vec F S1x2048x256 .f32) (xs7 : Vec F S1x256x256 .f32) (xs8 : Vec F S1x1x256 .f32) :
    laterOuts0 c i arg2 harg2 arg3 harg3 arg4 harg4 arg5 harg5 arg6 harg6 arg7 harg7 arg8 harg8 hc x0 x1 x2 xs7 xs8 = (k0_pay3 x0 x1 xs7, k0_pay4 x2 xs8, k0_pay3 x0 x1 xs7, k0_pay4 x2 xs8) :=
  Prod.ext (laterOuts0_1 c i arg2 harg2 arg3 harg3 arg4 harg4 arg5 harg5 arg6 harg6 arg7 harg7 arg8 harg8 hc x0 x1 x2 xs7 xs8) (Prod.ext (laterOuts0_2 c i arg2 harg2 arg3 harg3 arg4 harg4 arg5 harg5 arg6 harg6 arg7 harg7 arg8 harg8 hc x0 x1 x2 xs7 xs8)
    (Prod.ext (laterOuts0_3 c i arg2 harg2 arg3 harg3 arg4 harg4 arg5 harg5 arg6 harg6 arg7 harg7 arg8 harg8 hc x0 x1 x2 xs7 xs8) (laterOuts0_4 c i arg2 harg2 arg3 harg3 arg4 harg4 arg5 harg5 arg6 harg6 arg7 harg7 arg8 harg8 hc x0 x1 x2 xs7 xs8)))

/-- First tile, first output block: a copy of the first accumulator, read back after its two stores (the zero fill, then
    the sum): the zero fill plus the tile's product. -/
theorem firstOuts0_1 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i)
    (x0 x1 x2 : Vec F S1x2048x256 .f32) :
    (firstOuts0 c i arg2 harg2 arg3 harg3 arg4 harg4 arg5 harg5 arg6 harg6 arg7 harg7 arg8 harg8 hc x0 x1 x2).1 = k0_pay3 x0 x1 (k0_pay1 (F := F)) := by
  unfold firstOuts0
  dsimp only
  rw [View.read_writes_eq_canon _ _ _ (coverF0_5 c i arg2 harg2 arg3 harg3 arg4 harg4 arg5 harg5 arg6 harg6 arg7 harg7 arg8 harg8 hc x0 x1 x2)]
  unfold passOneFirst
  dsimp only
  sl_unfold_words
  rw [View.canon_unit_zero (S := S1x256x256) hz3, readCov_cons_unit_zero (S := S1x256x256) _ hz3,
    View.readCov_unit_zero (S := S1x256x256) _ hz3]
  simp only [View.readAt_eq_ld, harg2.read_unread, harg3.read_unread, harg4.read_unread, harg7.read_unread, harg8.read_unread, View.ld_unit_zero (S := S1x2048x256) hz3, View.ld_unit_zero (S := S1x256x256) hz3, View.ld_unit_zero (S := S1x1x256) hz3, shapeCast_self]

/-- First tile, second output block: a copy of the second accumulator after its two stores: the zero fill plus the
    tile's column sums. -/
theorem firstOuts0_2 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i)
    (x0 x1 x2 : Vec F S1x2048x256 .f32) :
    (firstOuts0 c i arg2 harg2 arg3 harg3 arg4 harg4 arg5 harg5 arg6 harg6 arg7 harg7 arg8 harg8 hc x0 x1 x2).2.1 = k0_pay4 x2 (k0_pay2 (F := F)) := by
  unfold firstOuts0
  dsimp only
  rw [View.read_writes_eq_canon _ _ _ (coverF0_6 c i arg2 harg2 arg3 harg3 arg4 harg4 arg5 harg5 arg6 harg6 arg7 harg7 arg8 harg8 hc x0 x1 x2)]
  unfold passOneFirst
  dsimp only
  sl_unfold_words
  rw [View.canon_unit_zero (S := S1x1x256) hz3, readCov_cons_unit_zero (S := S1x1x256) _ hz3,
    View.readCov_unit_zero (S := S1x1x256) _ hz3]
  simp only [View.readAt_eq_ld, harg2.read_unread, harg3.read_unread, harg4.read_unread, harg7.read_unread, harg8.read_unread, View.ld_unit_zero (S := S1x2048x256) hz3, View.ld_unit_zero (S := S1x256x256) hz3, View.ld_unit_zero (S := S1x1x256) hz3, shapeCast_self]

/-- First tile, first accumulator: its last store wrote the sum of what a load read back from the zero fill and the
    tile's product. -/
theorem firstOuts0_3 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i)
    (x0 x1 x2 : Vec F S1x2048x256 .f32) :
    (firstOuts0 c i arg2 harg2 arg3 harg3 arg4 harg4 arg5 harg5 arg6 harg6 arg7 harg7 arg8 harg8 hc x0 x1 x2).2.2.1 = k0_pay3 x0 x1 (k0_pay1 (F := F)) := by
  unfold firstOuts0
  dsimp only
  rw [View.read_writes_eq_canon _ _ _ (coverF0_7 c i arg2 harg2 arg3 harg3 arg4 harg4 arg5 harg5 arg6 harg6 arg7 harg7 arg8 harg8 hc x0 x1 x2)]
  unfold passOneFirst
  dsimp only
  sl_unfold_words
  rw [View.canon_cons_unit_zero (S := S1x256x256) hz3, View.readCov_unit_zero (S := S1x256x256) _ hz3]
  simp only [View.readAt_eq_ld, harg2.read_unread, harg3.read_unread, harg4.read_unread, harg7.read_unread, harg8.read_unread, View.ld_unit_zero (S := S1x2048x256) hz3, View.ld_unit_zero (S := S1x256x256) hz3, View.ld_unit_zero (S := S1x1x256) hz3, shapeCast_self]

/-- First tile, second accumulator: its last store wrote the zero fill, read back, plus the tile's column sums. -/
theorem firstOuts0_4 (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i)
    (x0 x1 x2 : Vec F S1x2048x256 .f32) :
    (firstOuts0 c i arg2 harg2 arg3 harg3 arg4 harg4 arg5 harg5 arg6 harg6 arg7 harg7 arg8 harg8 hc x0 x1 x2).2.2.2 = k0_pay4 x2 (k0_pay2 (F := F)) := by
  unfold firstOuts0
  dsimp only
  rw [View.read_writes_eq_canon _ _ _ (coverF0_8 c i arg2 harg2 arg3 harg3 arg4 harg4 arg5 harg5 arg6 harg6 arg7 harg7 arg8 harg8 hc x0 x1 x2)]
  unfold passOneFirst
  dsimp only
  sl_unfold_words
  rw [View.canon_cons_unit_zero (S := S1x1x256) hz3, View.readCov_unit_zero (S := S1x1x256) _ hz3]
  simp only [View.readAt_eq_ld, harg2.read_unread, harg3.read_unread, harg4.read_unread, harg7.read_unread, harg8.read_unread, View.ld_unit_zero (S := S1x2048x256) hz3, View.ld_unit_zero (S := S1x256x256) hz3, View.ld_unit_zero (S := S1x1x256) hz3, shapeCast_self]

/-- What a first tile leaves, all four buffers at once. -/
theorem firstOuts0_eq (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x256x256 .f32) (harg5 : arg5.IsWhole) (arg6 : Memref sig .tc .vmem S1x1x256 .f32) (harg6 : arg6.IsWhole) (arg7 : Memref sig .tc .vmem S1x256x256 .f32) (harg7 : arg7.IsWhole) (arg8 : Memref sig .tc .vmem S1x1x256 .f32) (harg8 : arg8.IsWhole) (hc : firstTile0 i)
    (x0 x1 x2 : Vec F S1x2048x256 .f32) :
    firstOuts0 c i arg2 harg2 arg3 harg3 arg4 harg4 arg5 harg5 arg6 harg6 arg7 harg7 arg8 harg8 hc x0 x1 x2
      = (k0_pay3 x0 x1 (k0_pay1 (F := F)), k0_pay4 x2 (k0_pay2 (F := F)), k0_pay3 x0 x1 (k0_pay1 (F := F)), k0_pay4 x2 (k0_pay2 (F := F))) :=
  Prod.ext (firstOuts0_1 c i arg2 harg2 arg3 harg3 arg4 harg4 arg5 harg5 arg6 harg6 arg7 harg7 arg8 harg8 hc x0 x1 x2) (Prod.ext (firstOuts0_2 c i arg2 harg2 arg3 harg3 arg4 harg4 arg5 harg5 arg6 harg6 arg7 harg7 arg8 harg8 hc x0 x1 x2)
    (Prod.ext (firstOuts0_3 c i arg2 harg2 arg3 harg3 arg4 harg4 arg5 harg5 arg6 harg6 arg7 harg7 arg8 harg8 hc x0 x1 x2) (firstOuts0_4 c i arg2 harg2 arg3 harg3 arg4 harg4 arg5 harg5 arg6 harg6 arg7 harg7 arg8 harg8 hc x0 x1 x2)))

end Cert.KernelIdeal.Passes

end
-- ==== Proof.Ideal.PayloadLayout.lean ====
/-
  The operations of the three passes that move data rather than compute on it, read at coordinates over the
  extended reals: a tile [1, 2048, 256] seen as a matrix [2048, 256], a column sum [256] seen as a row [1, 1, 256],
  a row [1, 1, 256] repeated over 2048 rows, and the two matrix products. The first pass contracts the ROWS of both
  of its factors (it computes Aᵀ B for two [2048, 256] tiles); the third contracts the columns of a [2048, 256]
  tile against the rows of a [256, 256] matrix. In both the contraction index is re-indexed to a plain `Fin`.
-/
import proofs.«139639_j23854248362901_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payloads

open Cert.KernelIdeal Cert.KernelIdeal.Gen Idealize.ShloMosaic Idealize.ShloMosaic.ValueIdx

/-! ### The layout operations around a tile, read at coordinates -/

/-- The index the column sum over the 2048 rows of a tile reads at row `s`: `(s, d)`. -/
theorem lift_rows (d : Fin 256) (s : Fin 2048) :
    reduces_S2048x256_S256.lift (ix1 d) s = ix2 s d :=
  funext fun a => Fin.ext (by match a with | ⟨0, _⟩ => rfl | ⟨1, _⟩ => rfl)

/-- The column sums of a [2048, 256] tile, recast as a [1, 1, 256] row, read at column `d`: the sum over the
    tile's rows of the tile at `(s, d)`. -/
theorem colsum_apply (v : FVec Ideal S2048x256 .f32) (d : Fin 256) :
    shapeCast S1x1x256 (shapeCast S1x256
        (multiReduction (F := Ideal) .add [0] S256 v 0x00000000#32 reduces_S2048x256_S256 (.inl rfl) rfl)
        shapeCasts_S256_S1x256) shapeCasts_S1x256_S1x1x256 (ix3 (0 : Fin 1) (0 : Fin 1) d)
      = ∑ s : Fin 2048, v (ix2 s d) := by
  rw [shapeCast_ab_1ab_apply, shapeCast_a_1a_apply]
  refine (Ideal.multiReduction_add_single _ _ _ _ _ (ix1 d)).trans ?_
  exact Finset.sum_congr rfl fun s _ => congrArg v (lift_rows d s)

/-- A [1, 1, 256] row, recast to [1, 256] and broadcast over 2048 rows, read at `(s, d)`: the row at `d`. -/
theorem rowbcast_apply (x : Vec Ideal S1x1x256 .f32) (s : Fin 2048) (d : Fin 256) :
    broadcastTo S2048x256 (shapeCast S1x256 x shapeCasts_S1x1x256_S1x256) broadcasts_S1x256_S2048x256 (ix2 s d)
      = x (ix3 (0 : Fin 1) (0 : Fin 1) d) := by
  rw [broadcastTo_1b_ab_apply, shapeCast_1ab_ab_apply]

/-! ### The first pass's product: a [2048, 256] tile, transposed, times a [2048, 256] tile -/

theorem dot1_lhs_0 (j : S256x256.Idx) (q : dot_S2048x256_S2048x256_S256x256_0_0_1_1_n_n.contr.Idx) :
    (dot_S2048x256_S2048x256_S256x256_0_0_1_1_n_n.lhsIdx j q 0).val = (q ⟨0, by decide⟩).val :=
  dot_S2048x256_S2048x256_S256x256_0_0_1_1_n_n.lhsIdx_val_of_single rfl j q
theorem dot1_lhs_1 (j : S256x256.Idx) (q : dot_S2048x256_S2048x256_S256x256_0_0_1_1_n_n.contr.Idx) :
    (dot_S2048x256_S2048x256_S256x256_0_0_1_1_n_n.lhsIdx j q 1).val = (j 0).val := by
  unfold DotDims.lhsIdx
  rw [dif_neg (show ¬(1 : Fin S2048x256.rank) ∈ dot_S2048x256_S2048x256_S256x256_0_0_1_1_n_n.lhsBatch by decide),
    dif_pos (show (1 : Fin S2048x256.rank) ∈ dot_S2048x256_S2048x256_S256x256_0_0_1_1_n_n.lhsNonContracting by decide)]
  rfl
theorem dot1_rhs_0 (j : S256x256.Idx) (q : dot_S2048x256_S2048x256_S256x256_0_0_1_1_n_n.contr.Idx) :
    (dot_S2048x256_S2048x256_S256x256_0_0_1_1_n_n.rhsIdx j q 0).val = (q ⟨0, by decide⟩).val :=
  dot_S2048x256_S2048x256_S256x256_0_0_1_1_n_n.rhsIdx_val_of_single rfl j q
theorem dot1_rhs_1 (j : S256x256.Idx) (q : dot_S2048x256_S2048x256_S256x256_0_0_1_1_n_n.contr.Idx) :
    (dot_S2048x256_S2048x256_S256x256_0_0_1_1_n_n.rhsIdx j q 1).val = (j 1).val := by
  unfold DotDims.rhsIdx
  rw [dif_neg (show ¬(1 : Fin S2048x256.rank) ∈ dot_S2048x256_S2048x256_S256x256_0_0_1_1_n_n.rhsBatch by decide),
    dif_pos (show (1 : Fin S2048x256.rank) ∈ dot_S2048x256_S2048x256_S256x256_0_0_1_1_n_n.rhsNonContracting by decide)]
  rfl

/-- The first pass's product into the zero splat, read at `(d, e)`: both factors are contracted over their rows,
    so it is the sum over the 2048 rows `s` of the left factor at `(s, d)` times the right factor at `(s, e)`. -/
theorem matmul1_apply (A B : FVec Ideal S2048x256 .bf16) (d e : Fin 256) :
    matmul dot_S2048x256_S2048x256_S256x256_0_0_1_1_n_n none A B (constant (F := Ideal) S256x256 .f32 0x00000000#32) (ix2 d e)
      = ∑ s : Fin 2048, A (ix2 s d) * B (ix2 s e) := by
  refine (Ideal.matmul_constant_zero_apply dot_S2048x256_S2048x256_S256x256_0_0_1_1_n_n none A B (ix2 d e)).trans ?_
  rw [← Equiv.sum_comp (contrEquiv1 dot_S2048x256_S2048x256_S256x256_0_0_1_1_n_n 2048 rfl rfl).symm]
  refine Finset.sum_congr rfl fun k _ => ?_
  have hk := contrEquiv1_symm_val dot_S2048x256_S2048x256_S256x256_0_0_1_1_n_n 2048 rfl rfl k
  have el : dot_S2048x256_S2048x256_S256x256_0_0_1_1_n_n.lhsIdx (ix2 d e)
      ((contrEquiv1 dot_S2048x256_S2048x256_S256x256_0_0_1_1_n_n 2048 rfl rfl).symm k) = ix2 k d :=
    funext fun a => Fin.ext (by
      match a with
      | ⟨0, _⟩ => exact (dot1_lhs_0 _ _).trans hk
      | ⟨1, _⟩ => exact dot1_lhs_1 _ _)
  have er : dot_S2048x256_S2048x256_S256x256_0_0_1_1_n_n.rhsIdx (ix2 d e)
      ((contrEquiv1 dot_S2048x256_S2048x256_S256x256_0_0_1_1_n_n 2048 rfl rfl).symm k) = ix2 k e :=
    funext fun a => Fin.ext (by
      match a with
      | ⟨0, _⟩ => exact (dot1_rhs_0 _ _).trans hk
      | ⟨1, _⟩ => exact dot1_rhs_1 _ _)
  rw [el, er]

/-! ### The third pass's product: a [2048, 256] tile times a [256, 256] matrix -/

theorem dot3_lhs_0 (j : S2048x256.Idx) (q : dot_S2048x256_S256x256_S2048x256_1_0_0_1_n_n.contr.Idx) :
    (dot_S2048x256_S256x256_S2048x256_1_0_0_1_n_n.lhsIdx j q 0).val = (j 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem dot3_lhs_1 (j : S2048x256.Idx) (q : dot_S2048x256_S256x256_S2048x256_1_0_0_1_n_n.contr.Idx) :
    (dot_S2048x256_S256x256_S2048x256_1_0_0_1_n_n.lhsIdx j q 1).val = (q ⟨0, by decide⟩).val :=
  dot_S2048x256_S256x256_S2048x256_1_0_0_1_n_n.lhsIdx_val_of_single rfl j q
theorem dot3_rhs_0 (j : S2048x256.Idx) (q : dot_S2048x256_S256x256_S2048x256_1_0_0_1_n_n.contr.Idx) :
    (dot_S2048x256_S256x256_S2048x256_1_0_0_1_n_n.rhsIdx j q 0).val = (q ⟨0, by decide⟩).val :=
  dot_S2048x256_S256x256_S2048x256_1_0_0_1_n_n.rhsIdx_val_of_single rfl j q
theorem dot3_rhs_1 (j : S2048x256.Idx) (q : dot_S2048x256_S256x256_S2048x256_1_0_0_1_n_n.contr.Idx) :
    (dot_S2048x256_S256x256_S2048x256_1_0_0_1_n_n.rhsIdx j q 1).val = (j 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The third pass's product into the zero splat, read at `(s, e)`: the sum over the 256 columns `d` of the left
    factor at `(s, d)` times the right factor at `(d, e)`. -/
theorem matmul3_apply (A : FVec Ideal S2048x256 .bf16) (B : FVec Ideal S256x256 .bf16) (s : Fin 2048) (e : Fin 256) :
    matmul dot_S2048x256_S256x256_S2048x256_1_0_0_1_n_n none A B (constant (F := Ideal) S2048x256 .f32 0x00000000#32) (ix2 s e)
      = ∑ d : Fin 256, A (ix2 s d) * B (ix2 d e) := by
  refine (Ideal.matmul_constant_zero_apply dot_S2048x256_S256x256_S2048x256_1_0_0_1_n_n none A B (ix2 s e)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 s e)
      ((contrEquiv1 dot_S2048x256_S256x256_S2048x256_1_0_0_1_n_n 256 rfl rfl).symm k) = ix2 s k :=
    funext fun a => Fin.ext (by
      match a with
      | ⟨0, _⟩ => exact dot3_lhs_0 _ _
      | ⟨1, _⟩ => exact (dot3_lhs_1 _ _).trans hk)
  have er : dot_S2048x256_S256x256_S2048x256_1_0_0_1_n_n.rhsIdx (ix2 s e)
      ((contrEquiv1 dot_S2048x256_S256x256_S2048x256_1_0_0_1_n_n 256 rfl rfl).symm k) = ix2 k e :=
    funext fun a => Fin.ext (by
      match a with
      | ⟨0, _⟩ => exact (dot3_rhs_0 _ _).trans hk
      | ⟨1, _⟩ => exact dot3_rhs_1 _ _)
  rw [el, er]

end Cert.KernelIdeal.Payloads

end
-- ==== Proof.Ideal.PayloadsPassOne.lean ====
/-
  The values the first pass stores, each read at one coordinate over the extended reals. At a batch's first tile
  both accumulators are reset to 0. At every tile the matrix accumulator gains, at (d, e), the tile's
  Σ_s k[s, d] · v[s, e] scaled by the constant 0x3D800000 (the product is scaled before it is added; rounding the
  factors to bf16 changes nothing over the extended reals), and the row accumulator gains, at d, Σ_s exp q[s, d].
-/
import proofs.«139639_j23854248362901_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«139639_j23854248362901_1_alg».proof.Proof.Ideal.PayloadLayout

noncomputable section

open scoped BigOperators

namespace Cert.KernelIdeal.Payloads

open Cert.KernelIdeal Cert.KernelIdeal.Gen Idealize.ShloMosaic Idealize.ShloMosaic.ValueIdx

/-- The matrix accumulator's reset value is 0 everywhere. -/
theorem k0_pay1_apply (d e : Fin 256) : k0_pay1 (F := Ideal) (ix3 (0 : Fin 1) d e) = 0 := by
  unfold k0_pay1
  rw [shapeCast_self]
  exact Ideal.ofBits_zero_f32

/-- The row accumulator's reset value is 0 everywhere. -/
theorem k0_pay2_apply (d : Fin 256) : k0_pay2 (F := Ideal) (ix3 (0 : Fin 1) (0 : Fin 1) d) = 0 := by
  unfold k0_pay2
  rw [shapeCast_self]
  exact Ideal.ofBits_zero_f32

/-- The matrix accumulator after a tile: what it held plus the tile's scaled product, `x0` the k tile and `x1`
    the v tile. -/
theorem k0_pay3_apply (x0 x1 : Vec Ideal S1x2048x256 .f32) (acc : Vec Ideal S1x256x256 .f32) (d e : Fin 256) :
    k0_pay3 (F := Ideal) x0 x1 acc (ix3 (0 : Fin 1) d e)
      = acc (ix3 0 d e)
        + (∑ s : Fin 2048, x0 (ix3 0 s d) * x1 (ix3 0 s e)) * Ideal.ofBits .f32 0x3D800000#32 := by
  unfold k0_pay3
  rw [shapeCast_self, addf_apply, shapeCast_ab_1ab_apply, mulf_apply, matmul1_apply]
  refine congrArg (fun z => acc (ix3 0 d e) + z * Ideal.ofBits .f32 0x3D800000#32) (Finset.sum_congr rfl fun s _ => ?_)
  show shapeCast S2048x256 x0 _ (ix2 s d) * shapeCast S2048x256 x1 _ (ix2 s e) = _
  rw [shapeCast_1ab_ab_apply, shapeCast_1ab_ab_apply]

/-- The row accumulator after a tile: what it held plus the column sums of the exponentials of the q tile `x2`. -/
theorem k0_pay4_apply (x2 : Vec Ideal S1x2048x256 .f32) (acc : Vec Ideal S1x1x256 .f32) (d : Fin 256) :
    k0_pay4 (F := Ideal) x2 acc (ix3 (0 : Fin 1) (0 : Fin 1) d)
      = acc (ix3 0 0 d) + ∑ s : Fin 2048, Ideal.exp (x2 (ix3 0 s d)) := by
  unfold k0_pay4
  rw [shapeCast_self, addf_apply, colsum_apply]
  refine congrArg (acc (ix3 0 0 d) + ·) (Finset.sum_congr rfl fun s _ => ?_)
  show Ideal.exp (shapeCast S2048x256 x2 _ (ix2 s d)) = _
  rw [shapeCast_1ab_ab_apply]

end Cert.KernelIdeal.Payloads

end
-- ==== Proof.Ideal.ValuesOne.lean ====
/-
  What the first pass leaves in its two result arrays, over the extended reals.

  Within a batch the accumulator after the first tile is `0 +` that tile's contribution and after each later tile the
  previous contents plus that tile's contribution; a tile's contribution to the first accumulator is its part of `Kᵀ V`
  times the scale, to the second the column sums of `exp Q` over its rows. The output blocks are copies of the
  accumulators, and the copy made at a batch's last tile is what is written back: the batch's slice of the first
  result is `Spec.scores`, of the second `Spec.sumeq`.
-/
import proofs.«139639_j23854248362901_1_alg».proof.Proof.Ideal.OutBlocks
import proofs.«139639_j23854248362901_1_alg».proof.Proof.Ideal.PassOneValue
import proofs.«139639_j23854248362901_1_alg».proof.Proof.Ideal.PayloadsPassOne

noncomputable section

namespace Cert.KernelIdeal.Passes

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What a batch's first point leaves, as payloads of its blocks. -/
theorem outsAt0_firstPay (c : Dev nD) (t : Fin cfg0.N) (h : t.val % 4 = 0) :
    outsAt0 V c t.val t.isLt
      = (k0_pay3 (iblk0 V c 0 t) (iblk0 V c 1 t) (k0_pay1 (F := Ideal)), k0_pay4 (iblk0 V c 2 t) (k0_pay2 (F := Ideal)),
         k0_pay3 (iblk0 V c 0 t) (iblk0 V c 1 t) (k0_pay1 (F := Ideal)), k0_pay4 (iblk0 V c 2 t) (k0_pay2 (F := Ideal))) :=
  (outsAt0_first V c t h).trans (firstOuts0_eq ..)

/-- What a later point leaves, as payloads of its blocks and of what the point before left in the accumulators. -/
theorem outsAt0_succPay (c : Dev nD) (n : ℕ) (hn : n + 1 < cfg0.N) (h : ¬(n + 1) % 4 = 0) :
    outsAt0 V c (n + 1) hn
      = (k0_pay3 (iblk0 V c 0 ⟨n + 1, hn⟩) (iblk0 V c 1 ⟨n + 1, hn⟩) (outsAt0 V c n (Nat.lt_of_succ_lt hn)).2.2.1,
         k0_pay4 (iblk0 V c 2 ⟨n + 1, hn⟩) (outsAt0 V c n (Nat.lt_of_succ_lt hn)).2.2.2,
         k0_pay3 (iblk0 V c 0 ⟨n + 1, hn⟩) (iblk0 V c 1 ⟨n + 1, hn⟩) (outsAt0 V c n (Nat.lt_of_succ_lt hn)).2.2.1,
         k0_pay4 (iblk0 V c 2 ⟨n + 1, hn⟩) (outsAt0 V c n (Nat.lt_of_succ_lt hn)).2.2.2) :=
  (show outsAt0 V c (n + 1) hn = laterOuts0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun hh => h ((firstTile0_iff ⟨n + 1, hn⟩).mp hh)) (iblk0 V c 0 ⟨n + 1, hn⟩) (iblk0 V c 1 ⟨n + 1, hn⟩) (iblk0 V c 2 ⟨n + 1, hn⟩)
      (outsAt0 V c n (Nat.lt_of_succ_lt hn)).2.2.1 (outsAt0 V c n (Nat.lt_of_succ_lt hn)).2.2.2 from dif_neg h).trans (laterOuts0_eq ..)

/-! ## One tile's step, read at an entry -/

theorem kv_first (c : Dev nD) (t : Fin cfg0.N) (b : Fin 8) (ht : t.val = 4 * b.val) (d e : Fin 256) :
    (k0_pay3 (iblk0 V c 0 t) (iblk0 V c 1 t) (k0_pay1 (F := Ideal)) : Vec Ideal S1x256x256 .f32) (ix3 0 d e)
      = 0 + Cert.Spec.kvTile (V c main_arg0) (V c main_arg2) b 0 d e * Cert.Spec.scale := by
  rw [k0_pay3_apply, k0_pay1_apply]
  simp only [iblk0_0_apply, iblk0_1_apply]
  have hb : batchOf (Fin.cast N0 t) = b := Fin.ext (by show t.val / 4 = b.val; omega)
  have hj : tileOf (Fin.cast N0 t) = 0 := Fin.ext (by show t.val % 4 = 0; omega)
  rw [hb, hj]; rfl

theorem kv_succ (c : Dev nD) (t : Fin cfg0.N) (b : Fin 8) (j : Fin 4) (ht : t.val = 4 * b.val + j.val) (acc : Vec Ideal S1x256x256 .f32) (d e : Fin 256) :
    (k0_pay3 (iblk0 V c 0 t) (iblk0 V c 1 t) acc : Vec Ideal S1x256x256 .f32) (ix3 0 d e)
      = acc (ix3 0 d e) + Cert.Spec.kvTile (V c main_arg0) (V c main_arg2) b j d e * Cert.Spec.scale := by
  rw [k0_pay3_apply]
  simp only [iblk0_0_apply, iblk0_1_apply]
  have hjl := j.isLt
  have hb : batchOf (Fin.cast N0 t) = b := Fin.ext (by show t.val / 4 = b.val; omega)
  have hj : tileOf (Fin.cast N0 t) = j := Fin.ext (by show t.val % 4 = j.val; omega)
  rw [hb, hj]; rfl

theorem ex_first (c : Dev nD) (t : Fin cfg0.N) (b : Fin 8) (ht : t.val = 4 * b.val) (d : Fin 256) :
    (k0_pay4 (iblk0 V c 2 t) (k0_pay2 (F := Ideal)) : Vec Ideal S1x1x256 .f32) (ix3 0 0 d)
      = 0 + ∑ s : Fin 2048, Ideal.exp (V c main_arg1 (ix3 b (Cert.Spec.row 0 s) d)) := by
  rw [k0_pay4_apply, k0_pay2_apply]
  simp only [iblk0_2_apply]
  have hb : batchOf (Fin.cast N0 t) = b := Fin.ext (by show t.val / 4 = b.val; omega)
  have hj : tileOf (Fin.cast N0 t) = 0 := Fin.ext (by show t.val % 4 = 0; omega)
  rw [hb, hj]

theorem ex_succ (c : Dev nD) (t : Fin cfg0.N) (b : Fin 8) (j : Fin 4) (ht : t.val = 4 * b.val + j.val) (acc : Vec Ideal S1x1x256 .f32) (d : Fin 256) :
    (k0_pay4 (iblk0 V c 2 t) acc : Vec Ideal S1x1x256 .f32) (ix3 0 0 d)
      = acc (ix3 0 0 d) + ∑ s : Fin 2048, Ideal.exp (V c main_arg1 (ix3 b (Cert.Spec.row j s) d)) := by
  rw [k0_pay4_apply]
  simp only [iblk0_2_apply]
  have hjl := j.isLt
  have hb : batchOf (Fin.cast N0 t) = b := Fin.ext (by show t.val / 4 = b.val; omega)
  have hj : tileOf (Fin.cast N0 t) = j := Fin.ext (by show t.val % 4 = j.val; omega)
  rw [hb, hj]

/-! ## A batch's last point holds the four tiles' accumulation -/

/-- The first output block after a batch's last tile is the batch's slice of the scaled `Kᵀ V`. -/
theorem scores_at (c : Dev nD) (t : Fin cfg0.N) (ht : t.val % 4 = 3) (d e : Fin 256) :
    ((outsAt0 V c t.val t.isLt).1 : Vec Ideal S1x256x256 .f32) (ix3 0 d e)
      = Cert.Spec.scores (V c main_arg0) (V c main_arg2) (batchOf (Fin.cast N0 t)) d e := by
  obtain ⟨n, hn⟩ := t
  have hN : cfg0.N = 32 := N0
  obtain ⟨m0, rfl⟩ : ∃ m0, n = m0 + 1 + 1 + 1 := ⟨n - 3, by dsimp only at ht; omega⟩
  have hm : m0 % 4 = 0 := by dsimp only at ht; omega
  have h0 : m0 < cfg0.N := by omega
  have h1 : m0 + 1 < cfg0.N := by omega
  have h2 : m0 + 1 + 1 < cfg0.N := by omega
  have hbv : (batchOf (Fin.cast N0 ⟨m0 + 1 + 1 + 1, hn⟩)).val = m0 / 4 := by show (m0 + 1 + 1 + 1) / 4 = m0 / 4; omega
  rw [outsAt0_succPay V c (m0 + 1 + 1) hn (by omega)]
  dsimp only
  rw [kv_succ V c ⟨m0 + 1 + 1 + 1, hn⟩ (batchOf (Fin.cast N0 ⟨m0 + 1 + 1 + 1, hn⟩)) 3 (by show m0 + 1 + 1 + 1 = 4 * _ + 3; rw [hbv]; omega)]
  rw [outsAt0_succPay V c (m0 + 1) h2 (by omega)]
  dsimp only
  rw [kv_succ V c ⟨m0 + 1 + 1, h2⟩ (batchOf (Fin.cast N0 ⟨m0 + 1 + 1 + 1, hn⟩)) 2 (by show m0 + 1 + 1 = 4 * _ + 2; rw [hbv]; omega)]
  rw [outsAt0_succPay V c m0 h1 (by omega)]
  dsimp only
  rw [kv_succ V c ⟨m0 + 1, h1⟩ (batchOf (Fin.cast N0 ⟨m0 + 1 + 1 + 1, hn⟩)) 1 (by show m0 + 1 = 4 * _ + 1; rw [hbv]; omega)]
  rw [outsAt0_firstPay V c ⟨m0, h0⟩ hm]
  dsimp only
  rw [kv_first V c ⟨m0, h0⟩ (batchOf (Fin.cast N0 ⟨m0 + 1 + 1 + 1, hn⟩)) (by show m0 = 4 * _; rw [hbv]; omega)]
  rfl

/-- The second output block after a batch's last tile is the batch's row of the sums of `exp Q`. -/
theorem sumeq_at (c : Dev nD) (t : Fin cfg0.N) (ht : t.val % 4 = 3) (d : Fin 256) :
    ((outsAt0 V c t.val t.isLt).2.1 : Vec Ideal S1x1x256 .f32) (ix3 0 0 d)
      = Cert.Spec.sumeq (V c main_arg1) (batchOf (Fin.cast N0 t)) d := by
  obtain ⟨n, hn⟩ := t
  have hN : cfg0.N = 32 := N0
  obtain ⟨m0, rfl⟩ : ∃ m0, n = m0 + 1 + 1 + 1 := ⟨n - 3, by dsimp only at ht; omega⟩
  have hm : m0 % 4 = 0 := by dsimp only at ht; omega
  have h0 : m0 < cfg0.N := by omega
  have h1 : m0 + 1 < cfg0.N := by omega
  have h2 : m0 + 1 + 1 < cfg0.N := by omega
  have hbv : (batchOf (Fin.cast N0 ⟨m0 + 1 + 1 + 1, hn⟩)).val = m0 / 4 := by show (m0 + 1 + 1 + 1) / 4 = m0 / 4; omega
  rw [outsAt0_succPay V c (m0 + 1 + 1) hn (by omega)]
  dsimp only
  rw [ex_succ V c ⟨m0 + 1 + 1 + 1, hn⟩ (batchOf (Fin.cast N0 ⟨m0 + 1 + 1 + 1, hn⟩)) 3 (by show m0 + 1 + 1 + 1 = 4 * _ + 3; rw [hbv]; omega)]
  rw [outsAt0_succPay V c (m0 + 1) h2 (by omega)]
  dsimp only
  rw [ex_succ V c ⟨m0 + 1 + 1, h2⟩ (batchOf (Fin.cast N0 ⟨m0 + 1 + 1 + 1, hn⟩)) 2 (by show m0 + 1 + 1 = 4 * _ + 2; rw [hbv]; omega)]
  rw [outsAt0_succPay V c m0 h1 (by omega)]
  dsimp only
  rw [ex_succ V c ⟨m0 + 1, h1⟩ (batchOf (Fin.cast N0 ⟨m0 + 1 + 1 + 1, hn⟩)) 1 (by show m0 + 1 = 4 * _ + 1; rw [hbv]; omega)]
  rw [outsAt0_firstPay V c ⟨m0, h0⟩ hm]
  dsimp only
  rw [ex_first V c ⟨m0, h0⟩ (batchOf (Fin.cast N0 ⟨m0 + 1 + 1 + 1, hn⟩)) (by show m0 = 4 * _; rw [hbv]; omega)]
  rfl

/-! ## The two result arrays -/

/-- The first pass's first result: the scaled `Kᵀ V` of every batch. -/
theorem arr0_3 (c : Dev nD) :
    (dat0 V c).arrAt 3 cfg0.N = (fun i : S8x256x256.Idx => Cert.Spec.scores (V c main_arg0) (V c main_arg2) (i 0) (i 1) (i 2)) :=
  arr0_3_of V c _ fun t ht d e => scores_at V c t ht d e

/-- The first pass's second result: the sums of `exp Q` over the sequence, per batch and column. -/
theorem arr0_4 (c : Dev nD) :
    (dat0 V c).arrAt 4 cfg0.N = (fun i : S8x1x256.Idx => Cert.Spec.sumeq (V c main_arg1) (i 0) (i 2)) :=
  arr0_4_of V c _ fun t ht d => sumeq_at V c t ht d

end Cert.KernelIdeal.Passes

end
-- ==== Proof.Ideal.PassTwoValue.lean ====
/-
  The second pass's body, read as values.

  The body keeps one accumulator in scratch memory, the column sums of `exp (exp q / denom)` over the rows seen so far,
  and copies it into its output block. Every store writes a whole buffer, so a buffer ends at the value of its last
  store and a load after a store reads that value back: the accumulator ends at `k1_pay2 q denom acc` (the accumulator
  the tile started with, plus the tile's column sums), and the output block is a copy of it. On the first tile of a
  batch the starting accumulator is the zero fill `k1_pay1` just stored; on a later tile it is what the tile before
  left (`xs5`). Nothing about the arithmetic is used, so the statements hold for any float instance.
-/
import proofs.«139639_j23854248362901_1_alg».proof.Proof.Ideal.PassTwo
import Idealize.ShloMosaic.Lib.Pipeline.Value
import Idealize.ShloMosaic.Lib.Tactic

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL.Sem

variable {F : FTy → Type} [FloatOps F]

/-- Three zero offsets, however spelt, are the zero function. -/
private theorem hz3 : (![0, 0, 0] : Fin 3 → Nat) = fun _ => 0 := funext fun a => by fin_cases a <;> rfl

/-- A load of the whole buffer after a list of stores whose LAST one wrote the whole buffer reads that store's value,
    whatever the earlier stores were: the last store covers every index. -/
private theorem readCov_cons_unit_zero {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- Later tile, output block: a copy of the accumulator, read back right after the accumulator's one store. -/
theorem laterOuts1_1 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : ¬firstTile1 i)
    (x0 : Vec F S1x2048x256 .f32) (x1 : Vec F S1x1x256 .f32) (xs5 : Vec F S1x1x256 .f32) :
    (laterOuts1 c i arg2 harg2 arg3 harg3 arg4 harg4 arg5 harg5 hc x0 x1 xs5).1 = k1_pay2 x0 x1 xs5 := by
  unfold laterOuts1
  dsimp only
  rw [View.read_writes_eq_canon _ _ _ (coverL1_4 c i arg2 harg2 arg3 harg3 arg4 harg4 arg5 harg5 hc x0 x1 xs5)]
  unfold passTwoLater
  dsimp only
  sl_unfold_words
  rw [View.canon_unit_zero (S := S1x1x256) hz3, View.readCov_unit_zero (S := S1x1x256) _ hz3]
  simp only [View.readAt_eq_ld, harg2.read_unread, harg3.read_unread, harg5.read_unread, View.ld_unit_zero (S := S1x2048x256) hz3, View.ld_unit_zero (S := S1x1x256) hz3, shapeCast_self]

/-- Later tile, accumulator: its one store wrote the accumulator found plus the tile's column sums. -/
theorem laterOuts1_2 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : ¬firstTile1 i)
    (x0 : Vec F S1x2048x256 .f32) (x1 : Vec F S1x1x256 .f32) (xs5 : Vec F S1x1x256 .f32) :
    (laterOuts1 c i arg2 harg2 arg3 harg3 arg4 harg4 arg5 harg5 hc x0 x1 xs5).2 = k1_pay2 x0 x1 xs5 := by
  unfold laterOuts1
  dsimp only
  rw [View.read_writes_eq_canon _ _ _ (coverL1_5 c i arg2 harg2 arg3 harg3 arg4 harg4 arg5 harg5 hc x0 x1 xs5)]
  unfold passTwoLater
  dsimp only
  sl_unfold_words
  rw [View.canon_unit_zero (S := S1x1x256) hz3]
  simp only [View.readAt_eq_ld, harg2.read_unread, harg3.read_unread, harg5.read_unread, View.ld_unit_zero (S := S1x2048x256) hz3, View.ld_unit_zero (S := S1x1x256) hz3, shapeCast_self]

/-- What a later tile leaves, both buffers at once. -/
theorem laterOuts1_eq (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : ¬firstTile1 i)
    (x0 : Vec F S1x2048x256 .f32) (x1 : Vec F S1x1x256 .f32) (xs5 : Vec F S1x1x256 .f32) :
    laterOuts1 c i arg2 harg2 arg3 harg3 arg4 harg4 arg5 harg5 hc x0 x1 xs5 = (k1_pay2 x0 x1 xs5, k1_pay2 x0 x1 xs5) :=
  Prod.ext (laterOuts1_1 c i arg2 harg2 arg3 harg3 arg4 harg4 arg5 harg5 hc x0 x1 xs5) (laterOuts1_2 c i arg2 harg2 arg3 harg3 arg4 harg4 arg5 harg5 hc x0 x1 xs5)

/-- First tile, output block: a copy of the accumulator after its two stores (the zero fill, then the sum). -/
theorem firstOuts1_1 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : firstTile1 i)
    (x0 : Vec F S1x2048x256 .f32) (x1 : Vec F S1x1x256 .f32) :
    (firstOuts1 c i arg2 harg2 arg3 harg3 arg4 harg4 arg5 harg5 hc x0 x1).1 = k1_pay2 x0 x1 (k1_pay1 (F := F)) := by
  unfold firstOuts1
  dsimp only
  rw [View.read_writes_eq_canon _ _ _ (coverF1_4 c i arg2 harg2 arg3 harg3 arg4 harg4 arg5 harg5 hc x0 x1)]
  unfold passTwoFirst
  dsimp only
  sl_unfold_words
  rw [View.canon_unit_zero (S := S1x1x256) hz3, readCov_cons_unit_zero (S := S1x1x256) _ hz3,
    View.readCov_unit_zero (S := S1x1x256) _ hz3]
  simp only [View.readAt_eq_ld, harg2.read_unread, harg3.read_unread, harg5.read_unread, View.ld_unit_zero (S := S1x2048x256) hz3, View.ld_unit_zero (S := S1x1x256) hz3, shapeCast_self]

/-- First tile, accumulator: its last store wrote the zero fill, read back, plus the tile's column sums. -/
theorem firstOuts1_2 (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : firstTile1 i)
    (x0 : Vec F S1x2048x256 .f32) (x1 : Vec F S1x1x256 .f32) :
    (firstOuts1 c i arg2 harg2 arg3 harg3 arg4 harg4 arg5 harg5 hc x0 x1).2 = k1_pay2 x0 x1 (k1_pay1 (F := F)) := by
  unfold firstOuts1
  dsimp only
  rw [View.read_writes_eq_canon _ _ _ (coverF1_5 c i arg2 harg2 arg3 harg3 arg4 harg4 arg5 harg5 hc x0 x1)]
  unfold passTwoFirst
  dsimp only
  sl_unfold_words
  rw [View.canon_cons_unit_zero (S := S1x1x256) hz3, View.readCov_unit_zero (S := S1x1x256) _ hz3]
  simp only [View.readAt_eq_ld, harg2.read_unread, harg3.read_unread, harg5.read_unread, View.ld_unit_zero (S := S1x2048x256) hz3, View.ld_unit_zero (S := S1x1x256) hz3, shapeCast_self]

/-- What a first tile leaves, both buffers at once. -/
theorem firstOuts1_eq (c : Dev nD) (i : grid1.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (hc : firstTile1 i)
    (x0 : Vec F S1x2048x256 .f32) (x1 : Vec F S1x1x256 .f32) :
    firstOuts1 c i arg2 harg2 arg3 harg3 arg4 harg4 arg5 harg5 hc x0 x1 = (k1_pay2 x0 x1 (k1_pay1 (F := F)), k1_pay2 x0 x1 (k1_pay1 (F := F))) :=
  Prod.ext (firstOuts1_1 c i arg2 harg2 arg3 harg3 arg4 harg4 arg5 harg5 hc x0 x1) (firstOuts1_2 c i arg2 harg2 arg3 harg3 arg4 harg4 arg5 harg5 hc x0 x1)

end Cert.KernelIdeal.Passes

end
-- ==== Proof.Ideal.PayloadsPassTwo.lean ====
/-
  The values the second pass stores, each read at one coordinate over the extended reals. At a batch's first tile
  the accumulator is reset to 0; at every tile it gains, at d, Σ_s exp (exp q[s, d] / denom[d]), where the row
  `denom` is the first pass's normaliser, the same for every row of the tile.
-/
import proofs.«139639_j23854248362901_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«139639_j23854248362901_1_alg».proof.Proof.Ideal.PayloadLayout

noncomputable section

open scoped BigOperators

namespace Cert.KernelIdeal.Payloads

open Cert.KernelIdeal Cert.KernelIdeal.Gen Idealize.ShloMosaic Idealize.ShloMosaic.ValueIdx

/-- The accumulator's reset value is 0 everywhere. -/
theorem k1_pay1_apply (d : Fin 256) : k1_pay1 (F := Ideal) (ix3 (0 : Fin 1) (0 : Fin 1) d) = 0 := by
  unfold k1_pay1
  rw [shapeCast_self]
  exact Ideal.ofBits_zero_f32

/-- The accumulator after a tile: what it held plus the column sums of the weights, `x0` the q tile and `x1` the
    normaliser row. -/
theorem k1_pay2_apply (x0 : Vec Ideal S1x2048x256 .f32) (x1 acc : Vec Ideal S1x1x256 .f32) (d : Fin 256) :
    k1_pay2 (F := Ideal) x0 x1 acc (ix3 (0 : Fin 1) (0 : Fin 1) d)
      = acc (ix3 0 0 d)
        + ∑ s : Fin 2048, Ideal.exp (Ideal.div (Ideal.exp (x0 (ix3 0 s d))) (x1 (ix3 0 0 d))) := by
  unfold k1_pay2
  rw [shapeCast_self, addf_apply, colsum_apply]
  refine congrArg (acc (ix3 0 0 d) + ·) (Finset.sum_congr rfl fun s _ => ?_)
  show Ideal.exp (Ideal.div (Ideal.exp (shapeCast S2048x256 x0 _ (ix2 s d))) (broadcastTo S2048x256 _ _ (ix2 s d))) = _
  rw [shapeCast_1ab_ab_apply, rowbcast_apply]

end Cert.KernelIdeal.Payloads

end
-- ==== Proof.Ideal.ValuesTwo.lean ====
/-
  What the second pass leaves in its result array, over the extended reals.

  With `Q` the array the pass reads tile by tile and `D` the [8, 1, 256] array of denominators it reads per batch, a
  tile's contribution to the accumulator is the column sums of `exp (exp Q / D)` over the tile's rows; the batch's row of
  the result is the four tiles' contributions accumulated from 0 in tile order.
-/
import proofs.«139639_j23854248362901_1_alg».proof.Proof.Ideal.OutBlocks
import proofs.«139639_j23854248362901_1_alg».proof.Proof.Ideal.PassTwoValue
import proofs.«139639_j23854248362901_1_alg».proof.Proof.Ideal.PayloadsPassTwo

noncomputable section

namespace Cert.KernelIdeal.Passes

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- One tile's column sums of the weights, for batch `b`, tile `j`, column `d`. -/
def wTile (Q : S8x8192x256.Idx → EReal) (D : S8x1x256.Idx → EReal) (b : Fin 8) (j : Fin 4) (d : Fin 256) : EReal :=
  ∑ s : Fin 2048, Ideal.exp (Ideal.div (Ideal.exp (Q (ix3 b (Cert.Spec.row j s) d))) (D (ix3 b 0 d)))

theorem outsAt1_firstPay (c : Dev nD) (t : Fin cfg1.N) (h : t.val % 4 = 0) :
    outsAt1 V c t.val t.isLt
      = (k1_pay2 (iblk1 V c 0 t) (iblk1 V c 1 t) (k1_pay1 (F := Ideal)), k1_pay2 (iblk1 V c 0 t) (iblk1 V c 1 t) (k1_pay1 (F := Ideal))) :=
  (outsAt1_first V c t h).trans (firstOuts1_eq ..)

theorem outsAt1_succPay (c : Dev nD) (n : ℕ) (hn : n + 1 < cfg1.N) (h : ¬(n + 1) % 4 = 0) :
    outsAt1 V c (n + 1) hn
      = (k1_pay2 (iblk1 V c 0 ⟨n + 1, hn⟩) (iblk1 V c 1 ⟨n + 1, hn⟩) (outsAt1 V c n (Nat.lt_of_succ_lt hn)).2,
         k1_pay2 (iblk1 V c 0 ⟨n + 1, hn⟩) (iblk1 V c 1 ⟨n + 1, hn⟩) (outsAt1 V c n (Nat.lt_of_succ_lt hn)).2) :=
  (show outsAt1 V c (n + 1) hn = laterOuts1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun hh => h ((firstTile1_iff ⟨n + 1, hn⟩).mp hh)) (iblk1 V c 0 ⟨n + 1, hn⟩) (iblk1 V c 1 ⟨n + 1, hn⟩)
      (outsAt1 V c n (Nat.lt_of_succ_lt hn)).2 from dif_neg h).trans (laterOuts1_eq ..)

theorem w_first (c : Dev nD) (t : Fin cfg1.N) (b : Fin 8) (ht : t.val = 4 * b.val) (d : Fin 256) :
    (k1_pay2 (iblk1 V c 0 t) (iblk1 V c 1 t) (k1_pay1 (F := Ideal)) : Vec Ideal S1x1x256 .f32) (ix3 0 0 d)
      = 0 + wTile (V c main_arg1) (V c main_v2) b 0 d := by
  rw [k1_pay2_apply, k1_pay1_apply]
  simp only [iblk1_0_apply, iblk1_1_apply]
  have hb : batchOf (Fin.cast N1 t) = b := Fin.ext (by show t.val / 4 = b.val; omega)
  have hj : tileOf (Fin.cast N1 t) = 0 := Fin.ext (by show t.val % 4 = 0; omega)
  rw [hb, hj]; rfl

theorem w_succ (c : Dev nD) (t : Fin cfg1.N) (b : Fin 8) (j : Fin 4) (ht : t.val = 4 * b.val + j.val) (acc : Vec Ideal S1x1x256 .f32) (d : Fin 256) :
    (k1_pay2 (iblk1 V c 0 t) (iblk1 V c 1 t) acc : Vec Ideal S1x1x256 .f32) (ix3 0 0 d)
      = acc (ix3 0 0 d) + wTile (V c main_arg1) (V c main_v2) b j d := by
  rw [k1_pay2_apply]
  simp only [iblk1_0_apply, iblk1_1_apply]
  have hjl := j.isLt
  have hb : batchOf (Fin.cast N1 t) = b := Fin.ext (by show t.val / 4 = b.val; omega)
  have hj : tileOf (Fin.cast N1 t) = j := Fin.ext (by show t.val % 4 = j.val; omega)
  rw [hb, hj]; rfl

/-- The output block after a batch's last tile is the batch's row of the weights' sums. -/
theorem wsum_at (c : Dev nD) (t : Fin cfg1.N) (ht : t.val % 4 = 3) (d : Fin 256) :
    ((outsAt1 V c t.val t.isLt).1 : Vec Ideal S1x1x256 .f32) (ix3 0 0 d)
      = Cert.Spec.acc4 fun j => wTile (V c main_arg1) (V c main_v2) (batchOf (Fin.cast N1 t)) j d := by
  obtain ⟨n, hn⟩ := t
  have hN : cfg1.N = 32 := N1
  obtain ⟨m0, rfl⟩ : ∃ m0, n = m0 + 1 + 1 + 1 := ⟨n - 3, by dsimp only at ht; omega⟩
  have hm : m0 % 4 = 0 := by dsimp only at ht; omega
  have h0 : m0 < cfg1.N := by omega
  have h1 : m0 + 1 < cfg1.N := by omega
  have h2 : m0 + 1 + 1 < cfg1.N := by omega
  have hbv : (batchOf (Fin.cast N1 ⟨m0 + 1 + 1 + 1, hn⟩)).val = m0 / 4 := by show (m0 + 1 + 1 + 1) / 4 = m0 / 4; omega
  rw [outsAt1_succPay V c (m0 + 1 + 1) hn (by omega)]
  dsimp only
  rw [w_succ V c ⟨m0 + 1 + 1 + 1, hn⟩ (batchOf (Fin.cast N1 ⟨m0 + 1 + 1 + 1, hn⟩)) 3 (by show m0 + 1 + 1 + 1 = 4 * _ + 3; rw [hbv]; omega)]
  rw [outsAt1_succPay V c (m0 + 1) h2 (by omega)]
  dsimp only
  rw [w_succ V c ⟨m0 + 1 + 1, h2⟩ (batchOf (Fin.cast N1 ⟨m0 + 1 + 1 + 1, hn⟩)) 2 (by show m0 + 1 + 1 = 4 * _ + 2; rw [hbv]; omega)]
  rw [outsAt1_succPay V c m0 h1 (by omega)]
  dsimp only
  rw [w_succ V c ⟨m0 + 1, h1⟩ (batchOf (Fin.cast N1 ⟨m0 + 1 + 1 + 1, hn⟩)) 1 (by show m0 + 1 = 4 * _ + 1; rw [hbv]; omega)]
  rw [outsAt1_firstPay V c ⟨m0, h0⟩ hm]
  dsimp only
  rw [w_first V c ⟨m0, h0⟩ (batchOf (Fin.cast N1 ⟨m0 + 1 + 1 + 1, hn⟩)) (by show m0 = 4 * _; rw [hbv]; omega)]
  rfl

/-- The second pass's result: the weights' sums over the sequence, per batch and column. -/
theorem arr1_2 (c : Dev nD) :
    (dat1 V c).arrAt 2 cfg1.N = (fun i : S8x1x256.Idx => Cert.Spec.acc4 fun j => wTile (V c main_arg1) (V c main_v2) (i 0) j (i 2)) :=
  arr1_2_of V c _ fun t ht d => wsum_at V c t ht d

end Cert.KernelIdeal.Passes

end
-- ==== Proof.Ideal.PassThreeValue.lean ====
/-
  The third pass's body, read as a value.

  The body loads its four input blocks whole, computes one value from them, and stores it over the whole output block:
  so the output block ends at that value, `k2_pay1 q denom L scores` — the tile's weights `exp (exp q / denom) / L`
  multiplied into the scores. Nothing about the arithmetic is used, so the statement holds for any float instance.
-/
import proofs.«139639_j23854248362901_1_alg».proof.Proof.Ideal.PassThree
import Idealize.ShloMosaic.Lib.Pipeline.Value
import Idealize.ShloMosaic.Lib.Tactic

set_option maxRecDepth 16384

noncomputable section

namespace Cert.KernelIdeal.Passes

open Cert.KernelIdeal Cert.KernelIdeal.Gen
open Idealize.ShloMosaic Idealize.ShloMosaic.TcCoe Idealize.ShloMosaic.Tactic
open Idealize.SL.Sem

variable {F : FTy → Type} [FloatOps F]

/-- Three zero offsets, however spelt, are the zero function. -/
private theorem hz3 : (![0, 0, 0] : Fin 3 → Nat) = fun _ => 0 := funext fun a => by fin_cases a <;> rfl

/-- The output block after the body: its one store covers it, and the store's value is computed from loads that read the
    four input blocks whole. -/
theorem out2_4_eq (c : Dev nD) (i : grid2.Coords) (arg2 : Memref sig .tc .vmem S1x2048x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x256x256 .f32) (harg5 : arg5.IsWhole) (arg6 : Memref sig .tc .vmem S1x2048x256 .f32) (harg6 : arg6.IsWhole) (x0 : Vec F S1x2048x256 .f32) (x1 x2 : Vec F S1x1x256 .f32) (x3 : Vec F S1x256x256 .f32) :
    out2_4 c i arg2 harg2 arg3 harg3 arg4 harg4 arg5 harg5 arg6 harg6 x0 x1 x2 x3 = k2_pay1 x0 x1 x2 x3 := by
  unfold out2_4
  rw [View.read_writes_eq_canon _ _ _ (cover2_4 c i arg2 harg2 arg3 harg3 arg4 harg4 arg5 harg5 arg6 harg6 x0 x1 x2 x3)]
  unfold passThreeRun
  dsimp only
  sl_unfold_words
  rw [View.canon_unit_zero (S := S1x2048x256) hz3]
  simp only [View.readAt_eq_ld, harg2.read_unread, harg3.read_unread, harg4.read_unread, harg5.read_unread, View.ld_unit_zero (S := S1x2048x256) hz3, View.ld_unit_zero (S := S1x1x256) hz3, View.ld_unit_zero (S := S1x256x256) hz3, shapeCast_self]

end Cert.KernelIdeal.Passes

end
-- ==== Proof.Ideal.PayloadsPassThree.lean ====
/-
  The value the third pass stores, read at one coordinate over the extended reals: at row s and column e of the
  tile, Σ_d (exp (exp q[s, d] / denom[d]) / L[d]) · scores[d, e], where the rows `denom` and `L` are the first two
  passes' normalisers and `scores` is the first pass's matrix (rounding the factors to bf16 changes nothing over
  the extended reals).
-/
import proofs.«139639_j23854248362901_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«139639_j23854248362901_1_alg».proof.Proof.Ideal.PayloadLayout

noncomputable section

open scoped BigOperators

namespace Cert.KernelIdeal.Payloads

open Cert.KernelIdeal Cert.KernelIdeal.Gen Idealize.ShloMosaic Idealize.ShloMosaic.ValueIdx

/-- The output tile: `x0` the q tile, `x1` and `x2` the two normaliser rows, `x3` the matrix. -/
theorem k2_pay1_apply (x0 : Vec Ideal S1x2048x256 .f32) (x1 x2 : Vec Ideal S1x1x256 .f32)
    (x3 : Vec Ideal S1x256x256 .f32) (s : Fin 2048) (e : Fin 256) :
    k2_pay1 (F := Ideal) x0 x1 x2 x3 (ix3 (0 : Fin 1) s e)
      = ∑ d : Fin 256, Ideal.div (Ideal.exp (Ideal.div (Ideal.exp (x0 (ix3 0 s d))) (x1 (ix3 0 0 d)))) (x2 (ix3 0 0 d))
          * x3 (ix3 0 d e) := by
  unfold k2_pay1
  rw [shapeCast_ab_1ab_apply, matmul3_apply]
  refine Finset.sum_congr rfl fun d _ => ?_
  show Ideal.div (Ideal.exp (Ideal.div (Ideal.exp (shapeCast S2048x256 x0 _ (ix2 s d))) (broadcastTo S2048x256 _ _ (ix2 s d))))
      (broadcastTo S2048x256 _ _ (ix2 s d)) * shapeCast S256x256 x3 _ (ix2 d e) = _
  rw [shapeCast_1ab_ab_apply, rowbcast_apply, rowbcast_apply, shapeCast_1ab_ab_apply]

end Cert.KernelIdeal.Payloads

end
-- ==== Proof.Ideal.ValuesThree.lean ====
/-
  What the third pass leaves in its result array, over the extended reals.

  With `Q` the array read tile by tile, `D` the denominators, `Lr` the weights' sums and `Sc` the [8, 256, 256] array of
  scaled `Kᵀ V`, each read per batch, the entry at batch `b`, row `r`, column `e` is
  `Σ_d (exp (exp Q[b, r, d] / D[b, 0, d]) / Lr[b, 0, d]) · Sc[b, d, e]`; every point writes its tile back, and the
  tiles cover the array.
-/
import proofs.«139639_j23854248362901_1_alg».proof.Proof.Ideal.OutBlocks
import proofs.«139639_j23854248362901_1_alg».proof.Proof.Ideal.PassThreeValue
import proofs.«139639_j23854248362901_1_alg».proof.Proof.Ideal.PayloadsPassThree

noncomputable section

namespace Cert.KernelIdeal.Passes

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The result entry from the four arrays the pass reads. -/
def outEntry (Q : S8x8192x256.Idx → EReal) (D Lr : S8x1x256.Idx → EReal) (Sc : S8x256x256.Idx → EReal) (b : Fin 8) (r : Fin 8192) (e : Fin 256) : EReal :=
  ∑ d : Fin 256, Ideal.div (Ideal.exp (Ideal.div (Ideal.exp (Q (ix3 b r d))) (D (ix3 b 0 d)))) (Lr (ix3 b 0 d)) * Sc (ix3 b d e)

/-- The third pass's result array. -/
theorem arr2_4 (c : Dev nD) :
    (dat2 V c).arrAt 4 cfg2.N
      = (fun i : S8x8192x256.Idx => outEntry (V c main_arg1) (V c main_v2) (V c main_v3) (V c main_v0_0) (i 0) (i 1) (i 2)) :=
  arr2_4_of V c _ fun t s e => by
    rw [after2_4, out2_4_eq]
    rw [k2_pay1_apply]
    simp only [iblk2_0_apply, iblk2_1_apply, iblk2_2_apply, iblk2_3_apply]
    rfl

end Cert.KernelIdeal.Passes

end
-- ==== Proof.RefImport.lean ====
/-
  The reference's run and its read-at-an-index lemmas, brought into the certificate.
-/
import proofs.«139639_j23854248362901_1_alg».proof.Proof.Gen.ReferenceIdeal.Run
import proofs.«139639_j23854248362901_1_alg».proof.Proof.Gen.ReferenceIdeal.Read
-- ==== Proof.TileSum.lean ====
/-
  A sum over the 8192 rows of the sequence axis is the accumulation, tile by tile, of the sums over the four tiles
  of 2048 rows.

  Row `2048 t + s` is row `s` of tile `t`, and `(t, s) ↦ 2048 t + s` is a bijection from `Fin 4 × Fin 2048` onto
  `Fin 8192`; so the sum over the rows is the double sum over tiles and rows of a tile, and the outer sum over four
  tiles is `(((0 + f 0) + f 1) + f 2) + f 3`.
-/
import proofs.«139639_j23854248362901_1_alg».proof.Proof.Spec

noncomputable section

open scoped BigOperators

namespace Cert.TileSum

open Cert.Spec

/-- The pairs (tile, row of the tile) are the rows. -/
def rowEquiv : Fin 4 × Fin 2048 ≃ Fin 8192 where
  toFun p := row p.1 p.2
  invFun k := (⟨k.val / 2048, by have := k.isLt; omega⟩, ⟨k.val % 2048, Nat.mod_lt _ (by norm_num)⟩)
  left_inv p := by
    obtain ⟨t, s⟩ := p
    apply Prod.ext <;> apply Fin.ext
    · show (2048 * t.val + s.val) / 2048 = t.val
      have := s.isLt; omega
    · show (2048 * t.val + s.val) % 2048 = s.val
      have := s.isLt; omega
  right_inv k := by
    apply Fin.ext
    show 2048 * (k.val / 2048) + k.val % 2048 = k.val
    omega

/-- In any commutative monoid: the sum over the rows is the sum over the tiles of the sums over a tile's rows. -/
theorem sum_rows {M : Type*} [AddCommMonoid M] (f : Fin 8192 → M) :
    ∑ k, f k = ∑ t : Fin 4, ∑ s : Fin 2048, f (row t s) := by
  rw [← Equiv.sum_comp rowEquiv f, Fintype.sum_prod_type]
  rfl

/-- The sum over the rows, as the accumulation from `0` over the four tiles. -/
theorem sum_rows_acc4 (f : Fin 8192 → EReal) : ∑ k, f k = acc4 fun t => ∑ s : Fin 2048, f (row t s) := by
  rw [sum_rows, Fin.sum_univ_four, acc4, zero_add]

/-- An accumulation over four tiles of reals is the real sum of the four. -/
theorem acc4_coe (g : Fin 4 → ℝ) : acc4 (fun t => (g t : EReal)) = ((g 0 + g 1 + g 2 + g 3 : ℝ) : EReal) := by
  rw [acc4, zero_add, EReal.coe_add, EReal.coe_add, EReal.coe_add]

end Cert.TileSum

end
-- ==== Proof.Consts.lean ====
/-
  The float words the two programs spell, as the extended reals they denote.

  `0x3F800000` is `1`, `0x43800000` is `256`, `0x3D800000` is `1/16`, `0xFF800000` is `-∞`. The reference's scale
  `1 / √256` is `1/16`: `√256 = 16` because `16 · 16 = 256`, and the quotient by the nonzero real `16` is the product
  with `1/16`.
-/
import Idealize.ShloMosaic.PureOps.Ideal

noncomputable section

namespace Cert.Consts

open Idealize.ShloMosaic

/-- The word of `1.0` denotes the real `1`. -/
theorem ofBits_one : Ideal.ofBits .f32 0x3F800000#32 = ((1 : ℝ) : EReal) := by
  simp [Ideal.ofBits, Ideal.ieee, -EReal.coe_mul]; norm_num

/-- The word of `256.0` denotes the real `256`. -/
theorem ofBits_256 : Ideal.ofBits .f32 0x43800000#32 = ((256 : ℝ) : EReal) := by
  simp [Ideal.ofBits, Ideal.ieee, -EReal.coe_mul]; norm_num

/-- The word of `0.0625` denotes the real `1/16`. -/
theorem ofBits_sixteenth : Ideal.ofBits .f32 0x3D800000#32 = ((1 / 16 : ℝ) : EReal) := by
  simp [Ideal.ofBits, Ideal.ieee, -EReal.coe_mul]; norm_num

/-- The word of `-∞` denotes `⊥`. -/
theorem ofBits_neg_inf : Ideal.ofBits .f32 0xFF800000#32 = (⊥ : EReal) := by
  simp [Ideal.ofBits, Ideal.ieee]

/-- The word of `+0.0` denotes `0`. -/
theorem ofBits_zero : Ideal.ofBits .f32 0x00000000#32 = (0 : EReal) := by
  simp [Ideal.ofBits, Ideal.ieee]

/-- `√256 = 16`. -/
theorem sqrt_256 : Real.sqrt 256 = 16 := by
  rw [show (256 : ℝ) = 16 * 16 by norm_num]
  exact Real.sqrt_mul_self (by norm_num)

/-- The reference's scale `1.0 / √256.0` is the real `1/16`. -/
theorem one_div_sqrt_256 :
    Ideal.div (Ideal.ofBits .f32 0x3F800000#32) (Ideal.sqrt (Ideal.ofBits .f32 0x43800000#32)) = ((1 / 16 : ℝ) : EReal) := by
  rw [ofBits_one, ofBits_256, Ideal.sqrt_coe, if_neg (by norm_num), sqrt_256,
    Ideal.div_coe (by norm_num : (16 : ℝ) ≠ 0), ← EReal.coe_mul, one_mul]

end Cert.Consts

end
-- ==== Proof.LibERealSum.lean ====
/-
  The embedding of the reals into the extended reals commutes with finite sums.

  It commutes with the sum of two reals, and the empty sum is `0` on both sides; a finite sum is built from those.
  With it a sum of extended reals whose terms are all real can be computed in `ℝ`, where multiplication distributes.
-/
import Idealize.ShloMosaic.PureOps.Ideal

namespace Cert.LibERealSum

/-- `((∑ i ∈ s, f i : ℝ) : EReal) = ∑ i ∈ s, (f i : EReal)`, by induction on the finite set. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibERealSum
-- ==== Proof.SpecReal.lean ====
/-
  The specification on arrays of real numbers.

  When the three argument arrays hold real numbers `k`, `q`, `v`, every stage of the specification is (the embedding
  of) a real number, and is given by the textbook formula over the whole sequence axis:

    scores[b, d, e] = (Σ_s k[b, s, d] · v[b, s, e]) / 16
    denom [b, d]    = 1 + Σ_s exp q[b, s, d]                    (> 0)
    n[b, r, d]      = exp q[b, r, d] / denom[b, d]
    w[b, r, d]      = exp n[b, r, d]
    L[b, d]         = Σ_s w[b, s, d]                            (> 0)
    out[b, r, e]    = Σ_d (w[b, r, d] / L[b, d]) · scores[b, d, e]

  The tile-by-tile accumulations of the specification are sums over the whole axis (the rows are the pairs of a tile and
  a row of the tile); scaling each tile's partial sum by 1/16 before adding is scaling the whole sum, by distributivity in
  `ℝ`; a quotient by a nonzero real is the product with its reciprocal.
-/
import proofs.«139639_j23854248362901_1_alg».proof.Proof.Spec
import proofs.«139639_j23854248362901_1_alg».proof.Proof.TileSum
import proofs.«139639_j23854248362901_1_alg».proof.Proof.Consts
import proofs.«139639_j23854248362901_1_alg».proof.Proof.LibERealSum

noncomputable section

open scoped BigOperators

namespace Cert.SpecReal

open Idealize.ShloMosaic Idealize.ShloMosaic.ValueIdx Cert.Spec Cert.TileSum

/-- An [8, 8192, 256] array of real numbers. -/
abbrev RArr3 : Type := (⟨3, ![8, 8192, 256]⟩ : Shape).Idx → ℝ

/-- The array of extended reals a real array embeds to. -/
def coeArr (a : RArr3) : Arr3 := fun i => (a i : EReal)

theorem coeArr_apply (a : RArr3) (i : (⟨3, ![8, 8192, 256]⟩ : Shape).Idx) : coeArr a i = (a i : EReal) := rfl

/-- `Kᵀ V / 16`. -/
def scoresR (k v : RArr3) (b : Fin 8) (d e : Fin 256) : ℝ :=
  (∑ s : Fin 8192, k (ix3 b s d) * v (ix3 b s e)) * (1 / 16)

/-- `1 + Σ_s exp q`. -/
def denomR (q : RArr3) (b : Fin 8) (d : Fin 256) : ℝ := 1 + ∑ s : Fin 8192, Real.exp (q (ix3 b s d))

/-- The normalised exponential. -/
def nR (q : RArr3) (b : Fin 8) (r : Fin 8192) (d : Fin 256) : ℝ := Real.exp (q (ix3 b r d)) / denomR q b d

/-- The unnormalised softmax weight. -/
def wR (q : RArr3) (b : Fin 8) (r : Fin 8192) (d : Fin 256) : ℝ := Real.exp (nR q b r d)

/-- The softmax normaliser. -/
def LR (q : RArr3) (b : Fin 8) (d : Fin 256) : ℝ := ∑ s : Fin 8192, wR q b s d

/-- The result. -/
def outR (k q v : RArr3) (b : Fin 8) (r : Fin 8192) (e : Fin 256) : ℝ :=
  ∑ d : Fin 256, wR q b r d / LR q b d * scoresR k v b d e

theorem denomR_pos (q : RArr3) (b : Fin 8) (d : Fin 256) : 0 < denomR q b d :=
  add_pos_of_pos_of_nonneg one_pos (Finset.sum_nonneg fun _ _ => (Real.exp_pos _).le)

theorem LR_pos (q : RArr3) (b : Fin 8) (d : Fin 256) : 0 < LR q b d :=
  Finset.sum_pos (fun _ _ => Real.exp_pos _) ⟨(0 : Fin 8192), Finset.mem_univ _⟩

/-- One tile's part of `Kᵀ V` is the real sum over the tile. -/
theorem kvTile_coe (k v : RArr3) (b : Fin 8) (t : Fin 4) (d e : Fin 256) :
    kvTile (coeArr k) (coeArr v) b t d e
      = ((∑ s : Fin 2048, k (ix3 b (row t s) d) * v (ix3 b (row t s) e) : ℝ) : EReal) := by
  unfold kvTile
  rw [Cert.LibERealSum.coe_sum]
  exact Finset.sum_congr rfl fun s _ => (EReal.coe_mul _ _).symm

/-- The scaled `Kᵀ V`: scaling each tile's sum and adding is scaling the whole sum. -/
theorem scores_coe (k v : RArr3) (b : Fin 8) (d e : Fin 256) :
    scores (coeArr k) (coeArr v) b d e = (scoresR k v b d e : EReal) := by
  unfold scores
  simp only [kvTile_coe, scale, Cert.Consts.ofBits_sixteenth, ← EReal.coe_mul]
  rw [acc4_coe]
  congr 1
  unfold scoresR
  rw [sum_rows, Fin.sum_univ_four]
  ring

/-- The sum of the exponentials over the sequence. -/
theorem sumeq_coe (q : RArr3) (b : Fin 8) (d : Fin 256) :
    sumeq (coeArr q) b d = ((∑ s : Fin 8192, Real.exp (q (ix3 b s d)) : ℝ) : EReal) := by
  unfold sumeq
  rw [← sum_rows_acc4 (fun s => Ideal.exp (coeArr q (ix3 b s d))), Cert.LibERealSum.coe_sum]
  exact Finset.sum_congr rfl fun s _ => Ideal.exp_coe _

theorem denom_coe (q : RArr3) (b : Fin 8) (d : Fin 256) : denom (coeArr q) b d = (denomR q b d : EReal) := by
  unfold denom one
  rw [Cert.Consts.ofBits_one, sumeq_coe, ← EReal.coe_add]
  rfl

theorem w_coe (q : RArr3) (b : Fin 8) (r : Fin 8192) (d : Fin 256) : w (coeArr q) b r d = (wR q b r d : EReal) := by
  unfold w
  rw [denom_coe, Ideal.div_coe (denomR_pos q b d).ne', coeArr_apply, Ideal.exp_coe, ← EReal.coe_mul, Ideal.exp_coe,
    mul_one_div]
  rfl

theorem L_coe (q : RArr3) (b : Fin 8) (d : Fin 256) : L (coeArr q) b d = (LR q b d : EReal) := by
  unfold L
  rw [← sum_rows_acc4 (fun s => w (coeArr q) b s d)]
  unfold LR
  rw [Cert.LibERealSum.coe_sum]
  exact Finset.sum_congr rfl fun s _ => w_coe q b s d

/-- The specification's result on real arrays is the real `outR`. -/
theorem out_coe (k q v : RArr3) (b : Fin 8) (r : Fin 8192) (e : Fin 256) :
    out (coeArr k) (coeArr q) (coeArr v) b r e = (outR k q v b r e : EReal) := by
  unfold out outR
  rw [Cert.LibERealSum.coe_sum]
  refine Finset.sum_congr rfl fun d _ => ?_
  rw [w_coe, L_coe, scores_coe, Ideal.div_coe (LR_pos q b d).ne', ← EReal.coe_mul, ← EReal.coe_mul, mul_one_div]

end Cert.SpecReal

end
-- ==== Proof.SoftmaxShift.lean ====
/-
  A softmax does not see a common shift of its exponents.

  For reals `n s` over a finite non-empty index set and any real `M`:
  `exp (n r - M) / ∑ s, exp (n s - M) = exp (n r) / ∑ s, exp (n s)`,
  because `exp (n - M) = exp n · exp (-M)`, the factor `exp (-M)` leaves the sum, and it is not zero.
-/
import Mathlib.Analysis.SpecialFunctions.Exp

open scoped BigOperators

namespace Cert.SoftmaxShift

variable {ι : Type*} [Fintype ι]

/-- A non-empty finite sum of exponentials is positive. -/
theorem sum_exp_pos [Nonempty ι] (n : ι → ℝ) : 0 < ∑ s, Real.exp (n s) :=
  Finset.sum_pos (fun s _ => Real.exp_pos _) Finset.univ_nonempty

/-- Shifting every exponent by `M` multiplies the sum of exponentials by `exp (-M)`. -/
theorem sum_exp_sub (n : ι → ℝ) (M : ℝ) : ∑ s, Real.exp (n s - M) = (∑ s, Real.exp (n s)) * Real.exp (-M) := by
  rw [Finset.sum_mul]
  refine Finset.sum_congr rfl fun s _ => ?_
  rw [← Real.exp_add, sub_eq_add_neg]

/-- The shift cancels between numerator and denominator. -/
theorem softmax_shift [Nonempty ι] (n : ι → ℝ) (M : ℝ) (r : ι) :
    Real.exp (n r - M) / ∑ s, Real.exp (n s - M) = Real.exp (n r) / ∑ s, Real.exp (n s) := by
  rw [sum_exp_sub, sub_eq_add_neg, Real.exp_add]
  exact mul_div_mul_right _ _ (Real.exp_pos _).ne'

end Cert.SoftmaxShift
-- ==== Proof.LibRowMaxReal.lean ====
/-
  A row's maximum, as a host program's max-reduce computes it, is a real number when the row's entries are.

  The host's reduce with a maximum body over the column axis of a matrix `[R, C]`, from the initial value `−∞`, is at row
  `r` the fold of `max` from `⊥` over the row's `C` entries. A fold of `max` from `⊥` over a finite set is `⊥` or one of
  the maxima met on the way, each the embedding of a real when the entries are; over a non-empty set (`0 < C`) the first
  step already leaves `⊥`. Nothing more is needed of it where only the row's shift by SOME real matters.
-/
import Idealize.ShloMosaic.Lib.ValueIdx
import Idealize.ShloMosaic.PureOps.Reduce
import Idealize.ShloMosaic.PureOps.Ideal.Laws

noncomputable section

namespace Cert.LibRowMaxReal

open Idealize.ShloMosaic Idealize.ShloMosaic.ValueIdx

/-- A fold of `max` from `⊥` over entries that are reals is `⊥` (over the empty set only) or a real. -/
theorem fold_max_bot_or_coe {ι : Type*} [DecidableEq ι] (f : ι → EReal) (s : Finset ι) (hf : ∀ k ∈ s, ∃ v : ℝ, f k = (v : EReal)) :
    (s = ∅ ∧ s.fold max ⊥ f = ⊥) ∨ ∃ v : ℝ, s.fold max ⊥ f = (v : EReal) := by
  induction s using Finset.induction_on with
  | empty => exact Or.inl ⟨rfl, Finset.fold_empty⟩
  | insert a s ha ih =>
    obtain ⟨va, hva⟩ := hf a (Finset.mem_insert_self a s)
    right
    rw [Finset.fold_insert ha, hva]
    rcases ih (fun k hk => hf k (Finset.mem_insert_of_mem hk)) with ⟨_, h0⟩ | ⟨v, hv⟩
    · exact ⟨va, by rw [h0]; exact max_eq_left bot_le⟩
    · exact ⟨max va v, by rw [hv]; exact (Monotone.map_max EReal.coe_strictMono.monotone).symm⟩

/-- Over a non-empty set it is a real. -/
theorem fold_max_coe {ι : Type*} [DecidableEq ι] (f : ι → EReal) (s : Finset ι) (hs : s.Nonempty)
    (hf : ∀ k ∈ s, ∃ v : ℝ, f k = (v : EReal)) : ∃ v : ℝ, s.fold max ⊥ f = (v : EReal) := by
  rcases fold_max_bot_or_coe f s hf with ⟨h0, _⟩ | h
  · exact absurd h0 hs.ne_empty
  · exact h

/-- The reduced index `r` with column `k` put back is (r, k). -/
theorem lift_ix2 {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- THE ROW MAXIMUM IS A REAL: the host's max-reduce over the columns from `−∞`, at a row whose entries are reals. -/
theorem row_max_real {R C : Nat} (hC : 0 < C) (x : FVec Ideal ⟨2, ![R, C]⟩ .f32)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (r : Fin R)
    (hx : ∀ j : Fin C, ∃ v : ℝ, x (ix2 r j) = (v : EReal)) :
    ∃ v : ℝ, Host.reduce FloatOps.maximumf x (constant (F := Ideal) (⟨0, ![]⟩ : Shape) .f32 0xFF800000#32) h' hu (ix1 r)
      = (v : EReal) := by
  rw [Host.reduce_eq_fold_single (FloatOps.maximumf (F := Ideal) (φ := .f32)) x _ h' h hu]
  have hb : (constant (F := Ideal) (⟨0, ![]⟩ : Shape) .f32 0xFF800000#32) (Shape.Idx.first hu) = (⊥ : EReal) := by
    show Ideal.ofBits .f32 0xFF800000#32 = ⊥
    simp [Ideal.ofBits, Ideal.ieee]
  rw [hb]
  refine fold_max_coe (x ∘ h.lift (ix1 r)) Finset.univ ⟨⟨0, hC⟩, Finset.mem_univ _⟩ fun k _ => ?_
  show ∃ v : ℝ, x (h.lift (ix1 r) k) = (v : EReal)
  rw [lift_ix2 h r k]
  exact hx _

end Cert.LibRowMaxReal

end
-- ==== Proof.RefReal.lean ====
/-
  The reference, stage by stage, on arrays of real numbers.

  When the three argument arrays hold real numbers `k`, `q`, `v`, every stage of the reference read at an index is
  (the embedding of) a real number:

    %4  [b, d, e] = (Σ_s k[b, s, d] · v[b, s, e]) · (1 / √256)             = scores[b, d, e]
    %10 [b, r, d] = 1 + (0 + Σ_s exp q[b, s, d])                             = denom[b, d]
    %11 [b, r, d] = exp q[b, r, d] / denom[b, d]                             = n[b, r, d]
    %12 [b, d]    = the maximum from −∞ over s of n[b, s, d]: some real M;   %14 = max (−∞) M = M
    %18 [b, r, d] = exp (n[b, r, d] − M)
    %19 [b, d]    = 0 + Σ_s exp (n[b, s, d] − M)
    %22 [b, r, d] = exp (n[b, r, d] − M) / Σ_s exp (n[b, s, d] − M) = exp n[b, r, d] / Σ_s exp n[b, s, d]
    %23 [b, r, e] = Σ_d %22[b, r, d] · %4[b, d, e]

  The shift by the maximum cancels between numerator and denominator of the softmax; nothing is used of `M` but that it
  is a real number.
-/
import proofs.«139639_j23854248362901_1_alg».proof.Proof.RefImport
import proofs.«139639_j23854248362901_1_alg».proof.Proof.SpecReal
import proofs.«139639_j23854248362901_1_alg».proof.Proof.SoftmaxShift
import proofs.«139639_j23854248362901_1_alg».proof.Proof.LibRowMaxReal

noncomputable section

open scoped BigOperators

namespace Cert.RefReal

open Cert.ReferenceIdeal Cert.ReferenceIdeal.Gen Cert.ReferenceIdeal.Read Idealize.ShloMosaic
  Idealize.ShloMosaic.ValueIdx Cert.SpecReal

/-! ## The composed index maps of the reference, by coordinates -/

theorem lidx_v2 (b : Fin 8) (d e : Fin 256) (s : Fin 8192) : lidx_main_v2 (ix3 b d e) s = ix3 b s d :=
  funext fun a => Fin.ext (by match a with | ⟨0, _⟩ => rfl | ⟨1, _⟩ => rfl | ⟨2, _⟩ => rfl)

theorem ridx_v2 (b : Fin 8) (d e : Fin 256) (s : Fin 8192) : ridx_main_v2 (ix3 b d e) s = ix3 b s e :=
  funext fun a => Fin.ext (by match a with | ⟨0, _⟩ => rfl | ⟨1, _⟩ => rfl | ⟨2, _⟩ => rfl)

theorem idx_v6 (b : Fin 8) (d : Fin 256) (s : Fin 8192) : idx_main_v6 (ix2 b d) s = ix3 b s d :=
  funext fun a => Fin.ext (by match a with | ⟨0, _⟩ => rfl | ⟨1, _⟩ => rfl | ⟨2, _⟩ => rfl)

theorem idx_v19 (b : Fin 8) (d : Fin 256) (s : Fin 8192) : idx_main_v19 (ix2 b d) s = ix3 b s d :=
  funext fun a => Fin.ext (by match a with | ⟨0, _⟩ => rfl | ⟨1, _⟩ => rfl | ⟨2, _⟩ => rfl)

theorem idx_v7_v10 (b : Fin 8) (r : Fin 8192) (d : Fin 256) : idx_main_v7 (idx_main_v10 (ix3 b r d)) = ix2 b d :=
  funext fun a => Fin.ext (by match a with | ⟨0, _⟩ => rfl | ⟨1, _⟩ => rfl)

theorem idx_v15_v16 (b : Fin 8) (r : Fin 8192) (d : Fin 256) : idx_main_v15 (idx_main_v16 (ix3 b r d)) = ix2 b d :=
  funext fun a => Fin.ext (by match a with | ⟨0, _⟩ => rfl | ⟨1, _⟩ => rfl)

theorem idx_v20_v21 (b : Fin 8) (r : Fin 8192) (d : Fin 256) : idx_main_v20 (idx_main_v21 (ix3 b r d)) = ix2 b d :=
  funext fun a => Fin.ext (by match a with | ⟨0, _⟩ => rfl | ⟨1, _⟩ => rfl)

theorem lidx_v23 (b : Fin 8) (r : Fin 8192) (e d : Fin 256) : lidx_main_v23 (ix3 b r e) d = ix3 b r d :=
  funext fun a => Fin.ext (by match a with | ⟨0, _⟩ => rfl | ⟨1, _⟩ => rfl | ⟨2, _⟩ => rfl)

theorem ridx_v23 (b : Fin 8) (r : Fin 8192) (e d : Fin 256) : ridx_main_v23 (ix3 b r e) d = ix3 b d e :=
  funext fun a => Fin.ext (by match a with | ⟨0, _⟩ => rfl | ⟨1, _⟩ => rfl | ⟨2, _⟩ => rfl)

/-! ## The stages -/

variable (k q v : RArr3)

/-- The scaled `Kᵀ V`. -/
theorem v4_real (b : Fin 8) (d e : Fin 256) :
    val_main_v4 (F := Ideal) (coeArr k) (coeArr v) (ix3 b d e) = (scoresR k v b d e : EReal) := by
  rw [val_main_v4_apply, val_main_v2_apply, val_main_v3_apply, val_main_v1_apply, val_main_cst_0_apply,
    val_main_v0_apply, val_main_cst_apply]
  simp only [Ideal.mulf_def, Ideal.hostDivf_def, Ideal.hostUnary_sqrt_def, Ideal.ofBits_def]
  rw [Cert.Consts.one_div_sqrt_256]
  unfold scoresR
  rw [EReal.coe_mul, Cert.LibERealSum.coe_sum]
  refine congrArg (· * (((1 / 16 : ℝ)) : EReal)) (Finset.sum_congr rfl fun s _ => ?_)
  rw [lidx_v2, ridx_v2, EReal.coe_mul]
  rfl

/-- The sum of the exponentials over the sequence. -/
theorem v6_real (b : Fin 8) (d : Fin 256) :
    val_main_v6 (F := Ideal) (coeArr q) (ix2 b d) = ((∑ s : Fin 8192, Real.exp (q (ix3 b s d)) : ℝ) : EReal) := by
  rw [val_main_v6_apply, val_main_cst_1_apply]
  simp only [Ideal.ofBits_def]
  rw [Cert.Consts.ofBits_zero, zero_add, Cert.LibERealSum.coe_sum]
  refine Finset.sum_congr rfl fun s _ => ?_
  rw [val_main_v5_apply, idx_v6, Ideal.hostUnary_exp_def, coeArr_apply, Ideal.exp_coe]

/-- The normaliser of the first exponential, broadcast along the sequence. -/
theorem v10_real (b : Fin 8) (r : Fin 8192) (d : Fin 256) :
    val_main_v10 (F := Ideal) (coeArr q) (ix3 b r d) = (denomR q b d : EReal) := by
  rw [val_main_v10_apply, val_main_v9_apply, val_main_v8_apply, val_main_cst_2_apply, val_main_v7_apply,
    idx_v7_v10, v6_real]
  simp only [Ideal.addf_def, Ideal.ofBits_def]
  rw [Cert.Consts.ofBits_one, ← EReal.coe_add]
  rfl

/-- The normalised exponential. -/
theorem v11_real (b : Fin 8) (r : Fin 8192) (d : Fin 256) :
    val_main_v11 (F := Ideal) (coeArr q) (ix3 b r d) = (nR q b r d : EReal) := by
  rw [val_main_v11_apply, val_main_v5_apply, v10_real]
  simp only [Ideal.hostDivf_def, Ideal.hostUnary_exp_def]
  rw [coeArr_apply, Ideal.exp_coe, Ideal.div_coe (denomR_pos q b d).ne', ← EReal.coe_mul, mul_one_div]
  rfl

/-- The reduced index `(b, d)` with row `s` put back on the sequence axis is `(b, s, d)`. -/
theorem lift_ix2 (h : S8x8192x256.Reduces [1] S8x256) (b : Fin 8) (d : Fin 256) (s : Fin (S8x8192x256.size 1)) :
    h.lift (ix2 b d) s = ix3 b (⟨s.val, s.isLt⟩ : Fin 8192) d := by
  funext c; apply Fin.ext
  fin_cases c <;> rfl

/-- The maximum over the sequence, from `−∞`, of the normalised exponentials is a real number. -/
theorem v12_real (b : Fin 8) (d : Fin 256) :
    ∃ M : ℝ, val_main_v12 (F := Ideal) (coeArr q) (ix2 b d) = (M : EReal) := by
  unfold val_main_v12
  have hR : S8x8192x256.Reduces [1] S8x256 := by decide
  rw [Host.reduce_eq_fold_single (FloatOps.maximumf (F := Ideal) (φ := .f32)) _ _ reducesTo_S8x8192x256_S8x256_d1 hR h_S_]
  have hb : val_main_cst_3 (F := Ideal) (Shape.Idx.first h_S_) = (⊥ : EReal) := Cert.Consts.ofBits_neg_inf
  rw [hb]
  refine Cert.LibRowMaxReal.fold_max_coe _ Finset.univ ⟨⟨0, by decide⟩, Finset.mem_univ _⟩ fun s _ => ?_
  show ∃ x : ℝ, val_main_v11 (F := Ideal) (coeArr q) (hR.lift (ix2 b d) s) = (x : EReal)
  rw [lift_ix2, v11_real]
  exact ⟨_, rfl⟩

/-- One more maximum with `−∞` changes nothing. -/
theorem v14_eq (b : Fin 8) (d : Fin 256) :
    val_main_v14 (F := Ideal) (coeArr q) (ix2 b d) = val_main_v12 (F := Ideal) (coeArr q) (ix2 b d) := by
  rw [val_main_v14_apply, val_main_v13_apply, val_main_cst_4_apply]
  simp only [Ideal.maximumf_def, Ideal.ofBits_def]
  rw [Cert.Consts.ofBits_neg_inf]
  exact max_eq_right bot_le

/-- The maximum, broadcast along the sequence. -/
theorem v16_eq (b : Fin 8) (r : Fin 8192) (d : Fin 256) :
    val_main_v16 (F := Ideal) (coeArr q) (ix3 b r d) = val_main_v12 (F := Ideal) (coeArr q) (ix2 b d) := by
  rw [val_main_v16_apply, val_main_v15_apply, idx_v15_v16, v14_eq]

/-- The shifted exponential. -/
theorem v18_real (b : Fin 8) (r : Fin 8192) (d : Fin 256) (M : ℝ)
    (hM : val_main_v12 (F := Ideal) (coeArr q) (ix2 b d) = (M : EReal)) :
    val_main_v18 (F := Ideal) (coeArr q) (ix3 b r d) = ((Real.exp (nR q b r d - M) : ℝ) : EReal) := by
  rw [val_main_v18_apply, val_main_v17_apply, v11_real, v16_eq, hM]
  simp only [Ideal.hostUnary_exp_def, Ideal.subf_def]
  rw [← EReal.coe_sub, Ideal.exp_coe]

/-- The sum of the shifted exponentials over the sequence. -/
theorem v19_real (b : Fin 8) (d : Fin 256) (M : ℝ)
    (hM : val_main_v12 (F := Ideal) (coeArr q) (ix2 b d) = (M : EReal)) :
    val_main_v19 (F := Ideal) (coeArr q) (ix2 b d) = ((∑ s : Fin 8192, Real.exp (nR q b s d - M) : ℝ) : EReal) := by
  rw [val_main_v19_apply, val_main_cst_5_apply]
  simp only [Ideal.ofBits_def]
  rw [Cert.Consts.ofBits_zero, zero_add, Cert.LibERealSum.coe_sum]
  refine Finset.sum_congr rfl fun s _ => ?_
  rw [idx_v19, v18_real q b s d M hM]

/-- The softmax over the sequence: the shift by the maximum cancels. -/
theorem v22_real (b : Fin 8) (r : Fin 8192) (d : Fin 256) :
    val_main_v22 (F := Ideal) (coeArr q) (ix3 b r d) = ((wR q b r d / LR q b d : ℝ) : EReal) := by
  obtain ⟨M, hM⟩ := v12_real q b d
  haveI : Nonempty (Fin 8192) := ⟨0⟩
  rw [val_main_v22_apply, v18_real q b r d M hM, val_main_v21_apply, val_main_v20_apply, idx_v20_v21, v19_real q b d M hM]
  simp only [Ideal.hostDivf_def]
  rw [Ideal.div_coe (Cert.SoftmaxShift.sum_exp_pos fun s => nR q b s d - M).ne', ← EReal.coe_mul, mul_one_div,
    Cert.SoftmaxShift.softmax_shift (fun s => nR q b s d) M r]
  rfl

/-- The reference's result on real arrays is the real `outR`. -/
theorem v23_real (b : Fin 8) (r : Fin 8192) (e : Fin 256) :
    val_main_v23 (F := Ideal) (coeArr k) (coeArr q) (coeArr v) (ix3 b r e) = (outR k q v b r e : EReal) := by
  rw [val_main_v23_apply]
  unfold outR
  rw [Cert.LibERealSum.coe_sum]
  refine Finset.sum_congr rfl fun d _ => ?_
  rw [lidx_v23, ridx_v23, v22_real, v4_real, ← EReal.coe_mul]

end Cert.RefReal

end
-- ==== Proof.RefIsSpec.lean ====
/-
  The reference computes the specification.

  Under the finiteness of the inputs the three argument arrays are embeddings of real arrays `k`, `q`, `v`. On those,
  the reference's result at `(b, r, e)` and the specification's are both the embedding of the same real number,
  `Σ_d (exp n[b, r, d] / Σ_s exp n[b, s, d]) · ((Σ_s k[b, s, d] · v[b, s, e]) / 16)` with
  `n[b, r, d] = exp q[b, r, d] / (1 + Σ_s exp q[b, s, d])`.
-/
import proofs.«139639_j23854248362901_1_alg».proof.Proof.RefReal

noncomputable section

namespace Cert.RefIsSpec

open Cert.ReferenceIdeal Cert.ReferenceIdeal.Gen Idealize.ShloMosaic Idealize.ShloMosaic.ValueIdx Cert.SpecReal

/-- An array all of whose entries are real numbers is the embedding of a real array. -/
theorem exists_real_array (x : Cert.Spec.Arr3) (h : ∀ i, ∃ r : ℝ, x i = (r : EReal)) : ∃ a : RArr3, x = coeArr a := by
  choose a ha using h
  exact ⟨a, funext ha⟩

/-- The reference's last stage, as the generated reading names it, is the specification. -/
theorem val_eq_spec (x0 x1 x2 : (⟨S8x8192x256, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) :
    Cert.ReferenceIdeal.Read.val_main_v23 (F := Ideal) x0 x1 x2 = Cert.Spec.outArr x0 x1 x2 := by
  obtain ⟨k, rfl⟩ := exists_real_array x0 h0
  obtain ⟨q, rfl⟩ := exists_real_array x1 h1
  obtain ⟨v, rfl⟩ := exists_real_array x2 h2
  funext i
  obtain ⟨b, r, e, rfl⟩ : ∃ (b : Fin 8) (r : Fin 8192) (e : Fin 256), i = ix3 b r e := ⟨i 0, i 1, i 2, eq_ix3 i⟩
  rw [Cert.RefReal.v23_real]
  exact (out_coe k q v b r e).symm

/-- The result term of the reference's run, of the argument arrays, is the specification. -/
theorem ref_eq_spec (x0 x1 x2 : FVec Ideal S8x8192x256 .f32)
    (h0 : ∀ i, ∃ r : ℝ, x0 i = (r : EReal)) (h1 : ∀ i, ∃ r : ℝ, x1 i = (r : EReal)) (h2 : ∀ i, ∃ r : ℝ, x2 i = (r : EReal)) :
    (Host.dotGeneral dot_S8x8192x256_S8x256x256_S8x8192x256_2_1_1_2_0_0 none (Host.divf (Host.exp (subf (Host.divf (Host.exp (x1)) (broadcastInDim S8x8192x256 ![0, 1, 2] bcast_S8x1x256_S8x8192x256_0_1_2 (addf (broadcastInDim S8x1x256 ![] bcast_S_S8x1x256 (constant S_ .f32 0x3F800000#32)) (broadcastInDim S8x1x256 ![0, 2] bcast_S8x256_S8x1x256_0_2 (Host.reduceAdd (Host.exp (x1)) (constant S_ .f32 0x00000000#32) reducesTo_S8x8192x256_S8x256_d1 h_S_))))) (broadcastInDim S8x8192x256 ![0, 1, 2] bcast_S8x1x256_S8x8192x256_0_1_2 (broadcastInDim S8x1x256 ![0, 2] bcast_S8x256_S8x1x256_0_2 (maximumf (broadcastInDim S8x256 ![] bcast_S_S8x256 (constant S_ .f32 0xFF800000#32)) (Host.reduce FloatOps.maximumf (Host.divf (Host.exp (x1)) (broadcastInDim S8x8192x256 ![0, 1, 2] bcast_S8x1x256_S8x8192x256_0_1_2 (addf (broadcastInDim S8x1x256 ![] bcast_S_S8x1x256 (constant S_ .f32 0x3F800000#32)) (broadcastInDim S8x1x256 ![0, 2] bcast_S8x256_S8x1x256_0_2 (Host.reduceAdd (Host.exp (x1)) (constant S_ .f32 0x00000000#32) reducesTo_S8x8192x256_S8x256_d1 h_S_))))) (constant S_ .f32 0xFF800000#32) reducesTo_S8x8192x256_S8x256_d1 h_S_)))))) (broadcastInDim S8x8192x256 ![0, 1, 2] bcast_S8x1x256_S8x8192x256_0_1_2 (broadcastInDim S8x1x256 ![0, 2] bcast_S8x256_S8x1x256_0_2 (Host.reduceAdd (Host.exp (subf (Host.divf (Host.exp (x1)) (broadcastInDim S8x8192x256 ![0, 1, 2] bcast_S8x1x256_S8x8192x256_0_1_2 (addf (broadcastInDim S8x1x256 ![] bcast_S_S8x1x256 (constant S_ .f32 0x3F800000#32)) (broadcastInDim S8x1x256 ![0, 2] bcast_S8x256_S8x1x256_0_2 (Host.reduceAdd (Host.exp (x1)) (constant S_ .f32 0x00000000#32) reducesTo_S8x8192x256_S8x256_d1 h_S_))))) (broadcastInDim S8x8192x256 ![0, 1, 2] bcast_S8x1x256_S8x8192x256_0_1_2 (broadcastInDim S8x1x256 ![0, 2] bcast_S8x256_S8x1x256_0_2 (maximumf (broadcastInDim S8x256 ![] bcast_S_S8x256 (constant S_ .f32 0xFF800000#32)) (Host.reduce FloatOps.maximumf (Host.divf (Host.exp (x1)) (broadcastInDim S8x8192x256 ![0, 1, 2] bcast_S8x1x256_S8x8192x256_0_1_2 (addf (broadcastInDim S8x1x256 ![] bcast_S_S8x1x256 (constant S_ .f32 0x3F800000#32)) (broadcastInDim S8x1x256 ![0, 2] bcast_S8x256_S8x1x256_0_2 (Host.reduceAdd (Host.exp (x1)) (constant S_ .f32 0x00000000#32) reducesTo_S8x8192x256_S8x256_d1 h_S_))))) (constant S_ .f32 0xFF800000#32) reducesTo_S8x8192x256_S8x256_d1 h_S_)))))) (constant S_ .f32 0x00000000#32) reducesTo_S8x8192x256_S8x256_d1 h_S_)))) (mulf (Host.dotGeneral dot_S8x8192x256_S8x8192x256_S8x256x256_1_1_2_2_0_0 none (x0) (x2)) (broadcastInDim S8x256x256 ![] bcast_S_S8x256x256 (Host.divf (constant S_ .f32 0x3F800000#32) (Host.sqrt (constant S_ .f32 0x43800000#32)))))
        : FVec Ideal S8x8192x256 .f32)
      = Cert.Spec.outArr x0 x1 x2 :=
  (Cert.ReferenceIdeal.Read.val_main_v23_eq (F := Ideal) x0 x1 x2).trans (val_eq_spec x0 x1 x2 h0 h1 h2)

end Cert.RefIsSpec

end
-- ==== Proof.FiniteInputs.lean ====
/-
  Finiteness out of the precondition.

  The precondition evaluates, for each of the three argument arrays, the conjunction over every entry `x` of the
  test `|x| < +∞` (the bound is the word 0x7F800000, which denotes `+∞`), and states that the conjunction of the
  three is true. On the extended reals `|x| = max x (-x)` is `+∞` exactly at `x = ±∞`, so the test holds exactly
  when `x` is a real number. Hence: under the precondition every entry of every argument array is a real.
-/
import proofs.«139639_j23854248362901_1_alg».proof.Pre_finite_inputs
import Idealize.ShloMosaic.Lib.ReduceAll
import Idealize.ShloMosaic.PureOps.Ideal.Laws
import Idealize.ShloMosaic.Lib.ValueIdx
import Idealize.ShloMosaic.Lib.Pipeline.Value

namespace Cert.Finite

open Idealize.ShloMosaic Cert.Pre_finite_inputs

/-- The rank-0 shape has one index. -/
instance : Subsingleton S_.Idx := ⟨fun _ _ => funext fun d => d.elim0⟩

/-- An extended real whose absolute value is strictly below `+∞` is a real number. -/
theorem real_of_abs_lt_top (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

variable [Facts]

/-- One array's conjunct: if the conjunction over all entries of `|x| < +∞` is true, every entry is a real. -/
theorem entry_real (a : FVec Ideal S8x8192x256 .f32)
    (h : Host.reduce IntOp.andi
          (cmpf CmpFPredicate.olt (Host.absf a)
            (broadcastInDim S8x8192x256 ![] Facts.bcast_S_S8x8192x256 (constant (F := Ideal) S_ FTy.f32 0x7F800000#32)))
          (constantI S_ 1 1#1) Facts.reducesTo_S8x8192x256_S_d0_1_2 Facts.h_S_ ValueIdx.ix0 = 1#1)
    (i : S8x8192x256.Idx) : ∃ r : ℝ, a i = (r : EReal) := by
  have e := Host.reduce_andi_all _ _ _ _ _ h i
  refine real_of_abs_lt_top (a i) ?_
  have hb : broadcastInDim S8x8192x256 ![] Facts.bcast_S_S8x8192x256 (constant (F := Ideal) S_ FTy.f32 0x7F800000#32) i
      = Ideal.ofBits .f32 0x7F800000#32 :=
    broadcastInDim_apply _ Facts.bcast_S_S8x8192x256 _ i (fun a => a.elim0) (fun a => a.elim0)
  have e' : Ideal.cmp .olt (max (a i) (-(a i)))
      (broadcastInDim S8x8192x256 ![] Facts.bcast_S_S8x8192x256 (constant (F := Ideal) S_ FTy.f32 0x7F800000#32) i) = 1#1 := e
  rw [hb] at e'
  exact e'

/-- Under the precondition every entry of each of the three argument arrays is a real number. -/
theorem finite_of_pre (a0 a1 a2 : FVec Ideal S8x8192x256 .f32)
    (h : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨entry_real a0 h0', entry_real a1 h1, entry_real a2 h2⟩

end Cert.Finite
-- ==== Proof.Final.lean ====
/-
  The kernel's result is the specification, and the specification is the reference's result.

  Reading the fold of buffer contents backwards: the third pass reads `Q` as launched, the denominators `1 + sumeq` the
  host operations made of the first pass's second result, the weights' sums the second pass left, and the scaled `Kᵀ V`
  the first pass left; so its result array is `Spec.outArr` of the three arguments, entry by entry. The reference
  computes the same array whenever the arguments are finite (the scale `1 / √256` is the float 1/16, the sums regroup
  into four tiles, softmax's shift by the maximum cancels), which the precondition provides.
-/
import proofs.«139639_j23854248362901_1_alg».proof.Defs
import proofs.«139639_j23854248362901_1_alg».proof.Proof.Ideal.Run
import proofs.«139639_j23854248362901_1_alg».proof.Proof.Ideal.ValuesOne
import proofs.«139639_j23854248362901_1_alg».proof.Proof.Ideal.ValuesTwo
import proofs.«139639_j23854248362901_1_alg».proof.Proof.Ideal.ValuesThree
import proofs.«139639_j23854248362901_1_alg».proof.Proof.RefIsSpec
import proofs.«139639_j23854248362901_1_alg».proof.Proof.FiniteInputs
import proofs.«139639_j23854248362901_1_alg».proof.Proof.Gen.KernelIdeal
import proofs.«139639_j23854248362901_1_alg».proof.Proof.Gen.ReferenceIdeal
import proofs.«139639_j23854248362901_1_alg».proof.Proof.Gen.Pre_finite_inputs
import proofs.«139639_j23854248362901_1_alg».proof.Proof.Gen.ReferenceIdeal.Run
import Idealize.ShloMosaic.Lib.StableHlo.Run

noncomputable section

namespace Cert.KernelIdeal.Passes

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The three arguments as launched, as arrays of extended reals. -/
abbrev argK (c : Dev nD) : Cert.Spec.Arr3 := m ((c : Thread nD τ).loc main_arg0)
abbrev argQ (c : Dev nD) : Cert.Spec.Arr3 := m ((c : Thread nD τ).loc main_arg1)
abbrev argV (c : Dev nD) : Cert.Spec.Arr3 := m ((c : Thread nD τ).loc main_arg2)

/-! ## What the second pass is entered with -/

/-- The host operations write `1 +` the first pass's second result into the denominators' buffer. -/
theorem W2_main_v2 (c : Dev nD) :
    (W2 m ρ c (Proc.devRef .tc main_v2) : (⟨S8x1x256, .f32⟩ : BufTy).Contents (Elt Ideal))
      = addf (broadcastInDim S8x1x256 ![] bcast_S_S8x1x256 (constant (F := Ideal) S_ .f32 0x3F800000#32)) (W1 m ρ c (Proc.devRef .tc main_v0_1)) := by
  show StableHlo.after hostOps1 (W1 m ρ c) (Proc.devRef .tc main_v2) = _
  after_results

/-- The denominators, entry by entry. -/
theorem denom_at (c : Dev nD) (b : Fin 8) (d : Fin 256) :
    (VV2 m ρ c main_v2 : S8x1x256.Idx → EReal) (ix3 b 0 d) = Cert.Spec.denom (argQ m c) b d := by
  show (W2 m ρ c (Proc.devRef .tc main_v2) : S8x1x256.Idx → EReal) (ix3 b 0 d) = _
  rw [W2_main_v2, show W1 m ρ c (Proc.devRef .tc main_v0_1) = (dat0 (VV0 m ρ) c).arrAt 4 cfg0.N from W1_arr m ρ c 4, arr0_4]
  rfl

/-! ## What the third pass is entered with -/

theorem VV3_v2 (c : Dev nD) : VV3 m ρ c main_v2 = VV2 m ρ c main_v2 :=
  (W3_arr m ρ c 1).trans (((dat1 (VV2 m ρ) c).arrAt_in 1 rfl _).trans (A_eq1 (VV2 m ρ) c 1))

theorem VV3_v3 (c : Dev nD) : VV3 m ρ c main_v3 = (dat1 (VV2 m ρ) c).arrAt 2 cfg1.N := W3_arr m ρ c 2

theorem VV3_v0_0 (c : Dev nD) : VV3 m ρ c main_v0_0 = (dat0 (VV0 m ρ) c).arrAt 3 cfg0.N :=
  calc W3 m ρ c (Proc.devRef .tc main_v0_0)
    _ = W2 m ρ c (Proc.devRef .tc main_v0_0) := W3_of_ne m ρ c main_v0_0 (by decide)
    _ = W1 m ρ c (Proc.devRef .tc main_v0_0) := StableHlo.after_of_forall_not_mem (b := Proc.devRef .tc main_v0_0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = (dat0 (VV0 m ρ) c).arrAt 3 cfg0.N := W1_arr m ρ c 3

/-- The weights' sums the second pass left, entry by entry. -/
theorem L_at (c : Dev nD) (b : Fin 8) (d : Fin 256) :
    (VV3 m ρ c main_v3 : S8x1x256.Idx → EReal) (ix3 b 0 d) = Cert.Spec.L (argQ m c) b d := by
  rw [VV3_v3, arr1_2]
  show Cert.Spec.acc4 (fun j => wTile (VV2 m ρ c main_arg1) (VV2 m ρ c main_v2) b j d) = _
  unfold wTile Cert.Spec.L Cert.Spec.w
  rw [show VV2 m ρ c main_arg1 = argQ m c from W2_main_arg1 m ρ c, denom_at]

/-- The scaled `Kᵀ V` the first pass left, entry by entry. -/
theorem scores_entry (c : Dev nD) (b : Fin 8) (d e : Fin 256) :
    (VV3 m ρ c main_v0_0 : S8x256x256.Idx → EReal) (ix3 b d e) = Cert.Spec.scores (argK m c) (argV m c) b d e := by
  rw [VV3_v0_0, arr0_3]

/-- THE KERNEL'S VALUE: the third pass's result array is the specification of the three arguments. -/
theorem kernel_value (c : Dev nD) :
    (dat2 (VV3 m ρ) c).arrAt 4 cfg2.N = Cert.Spec.outArr (argK m c) (argQ m c) (argV m c) := by
  rw [arr2_4]
  funext i
  obtain ⟨b, r, e, rfl⟩ : ∃ (b : Fin 8) (r : Fin 8192) (e : Fin 256), i = ix3 b r e := ⟨i 0, i 1, i 2, eq_ix3 i⟩
  show outEntry (VV3 m ρ c main_arg1) (VV3 m ρ c main_v2) (VV3 m ρ c main_v3) (VV3 m ρ c main_v0_0) b r e
    = Cert.Spec.out (argK m c) (argQ m c) (argV m c) b r e
  unfold outEntry Cert.Spec.out Cert.Spec.w
  refine Finset.sum_congr rfl fun d _ => ?_
  rw [show VV3 m ρ c main_arg1 = argQ m c from W3_main_arg1 m ρ c, VV3_v2, denom_at, L_at, scores_entry]

end Cert.KernelIdeal.Passes

/-! ## The claim about values -/

namespace Cert.Proof

open Idealize.ShloMosaic Idealize.SL.Sem

/-- From memories agreeing on the arguments, both idealized programs end with the result buffer at the specification
    of the arguments: the kernel by its run read back, the reference because its term is the specification on finite
    arguments. -/
theorem algebraic : Cert.algebraic_KernelIdeal_ReferenceIdeal := by
  intro m ρ m' ρ' hpre hagree
  have hfin := fun c => Cert.Finite.finite_of_pre _ _ _ (hpre c)
  refine ⟨fun c => Cert.Spec.outArr (Cert.KernelIdeal.Passes.argK m c) (Cert.KernelIdeal.Passes.argQ m c) (Cert.KernelIdeal.Passes.argV m c), ?_, ?_⟩
  · exact (θ_run Cert.KernelIdeal.defs _ _).mono
      (fun _ h c => ⟨(h c).1.trans (Cert.KernelIdeal.Passes.kernel_value m ρ c), (h c).2⟩)
      (Cert.KernelIdeal.Passes.run_value m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.RefIsSpec.ref_eq_spec _ _ _ (hfin c).1 (hfin c).2.1 (hfin c).2.2

end Cert.Proof

end
-- ==== Proof.lean ====
/-
  The proof of `Cert.Claim` for a linear attention computed in three passes over `k, q, v : f32[8, 8192, 256]`.

  The computation. With `D = 256` and the sequence axis of 8192 rows walked in four tiles of 2048 rows,
    scores[b, d, e] = Σ_s k[b, s, d] · v[b, s, e] / √D,      denom[b, d] = 1 + Σ_s exp q[b, s, d],
    w[b, s, d]      = exp (exp q[b, s, d] / denom[b, d]),    L[b, d]     = Σ_s w[b, s, d],
    out[b, s, e]    = Σ_d (w[b, s, d] / L[b, d]) · scores[b, d, e].
  The kernel's first pass accumulates `scores` and `Σ exp q` tile by tile in scratch memory (each tile's product scaled
  by the float 1/16 before it is added), the host adds 1, the second pass accumulates `L` the same way, and the third
  pass forms `out` tile by tile. The reference takes the sums whole, scales by `1 / √256`, and normalises the weights
  by a softmax that subtracts the column maximum first.

  The frames (both the word-level kernel and its idealization): @main is the three passes and three host operations in
  between, each pass a pipeline over a grid of 8 batches by 4 tiles. A pass's body is run symbolically once per case
  of its one branch (first tile of a batch or not); the invariant between two grid points says the scratch accumulators
  hold exactly what the point before left; the contents of every unscoped buffer are folded through the four items of
  @main, and the argument arrays come out of the fold as launched (`Passes.frame`). The reference's frame is its run
  with the result dropped.

  The values (`Final.lean`): read back through the fold, the third pass's result array is the specification
  `Spec.outArr` of the three arguments, with no hypothesis; the reference's term equals the same specification when the
  arguments are finite, because `√256 = 16` makes the two scales one number, a finite sum regroups into four tiles and
  a finite scale distributes over it, and `exp (x − M) / Σ exp (x − M) = exp x / Σ exp x` for real `x` and `M`. The
  precondition says exactly that the arguments are finite. No operation was rewritten by the idealization, so its
  conjunct is `True`.
-/
import proofs.«139639_j23854248362901_1_alg».proof.Defs
import proofs.«139639_j23854248362901_1_alg».proof.Proof.Gen.Kernel
import proofs.«139639_j23854248362901_1_alg».proof.Proof.Gen.KernelIdeal
import proofs.«139639_j23854248362901_1_alg».proof.Proof.Gen.ReferenceIdeal
import proofs.«139639_j23854248362901_1_alg».proof.Proof.Gen.Pre_finite_inputs
import proofs.«139639_j23854248362901_1_alg».proof.Proof.Gen.ReferenceIdeal.Run
import proofs.«139639_j23854248362901_1_alg».proof.Proof.Bits.Run
import proofs.«139639_j23854248362901_1_alg».proof.Proof.Ideal.Run
import proofs.«139639_j23854248362901_1_alg».proof.Proof.Final

noncomputable section

namespace Cert.Proof

open Idealize.ShloMosaic Idealize.SL.Sem

/-- The word-level kernel runs to the end, faults nowhere, and leaves its three arguments as launched. -/
theorem frame_kernel : Cert.frame_Kernel := fun m ρ _ => Cert.Kernel.Passes.frame m ρ

/-- So does its idealization. -/
theorem frame_kernelIdeal : Cert.frame_KernelIdeal := fun m ρ _ => Cert.KernelIdeal.Passes.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
